-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S32x128 : Shape := ⟨2, ![32, 128]⟩
abbrev S1024x2048 : Shape := ⟨2, ![1024, 2048]⟩
abbrev S512x2048 : Shape := ⟨2, ![512, 2048]⟩
abbrev S1024x1 : Shape := ⟨2, ![1024, 1]⟩
abbrev S1x512 : Shape := ⟨2, ![1, 512]⟩
abbrev S8x128 : Shape := ⟨2, ![8, 128]⟩
abbrev S2048x512 : Shape := ⟨2, ![2048, 512]⟩
abbrev S1024x512 : Shape := ⟨2, ![1024, 512]⟩
abbrev S1024 : Shape := ⟨1, ![1024]⟩
abbrev S1 : Shape := ⟨1, ![1]⟩
abbrev S1x1 : Shape := ⟨2, ![1, 1]⟩

abbrev nBuf : Space → Nat
  | .hbm => 31
  | .vmem => 30
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S1x4096, .f32⟩
  | .hbm, ⟨10, _⟩ => ⟨S4096x1, .f32⟩
  | .hbm, ⟨11, _⟩ => ⟨S1x4096, .f32⟩
  | .hbm, ⟨12, _⟩ => ⟨S32x128, .f32⟩
  | .hbm, ⟨13, _⟩ => ⟨S_, .f32⟩
  | .hbm, ⟨14, _⟩ => ⟨S_, .f32⟩
  | .hbm, ⟨15, _⟩ => ⟨S32x128, .f32⟩
  | .hbm, ⟨16, _⟩ => ⟨S_, .f32⟩
  | .hbm, ⟨17, _⟩ => ⟨S_, .f32⟩
  | .hbm, ⟨18, _⟩ => ⟨S32x128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S512x2048, .f32⟩
  | .local _ .vmem, ⟨3, _⟩ => ⟨S512x2048, .f32⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S8x128, .f32⟩
  | .local _ .vmem, ⟨9, _⟩ => ⟨S8x128, .f32⟩
  | .local _ .vmem, ⟨10, _⟩ => ⟨S1024x2048, .f32⟩
  | .local _ .vmem, ⟨11, _⟩ => ⟨S1024x2048, .f32⟩
  | .local _ .vmem, ⟨12, _⟩ => ⟨S512x2048, .f32⟩
  | .local _ .vmem, ⟨13, _⟩ => ⟨S512x2048, .f32⟩
  | .local _ .vmem, ⟨14, _⟩ => ⟨S1024x1, .f32⟩
  | .local _ .vmem, ⟨15, _⟩ => ⟨S1024x1, .f32⟩
  | .local _ .vmem, ⟨16, _⟩ => ⟨S1x512, .f32⟩
  | .local _ .vmem, ⟨17, _⟩ => ⟨S1x512, .f32⟩
  | .local _ .vmem, ⟨18, _⟩ => ⟨S8x128, .f32⟩
  | .local _ .vmem, ⟨19, _⟩ => ⟨S8x128, .f32⟩
  | .local _ .vmem, ⟨20, _⟩ => ⟨S1024x2048, .f32⟩
  | .local _ .vmem, ⟨21, _⟩ => ⟨S1024x2048, .f32⟩
  | .local _ .vmem, ⟨22, _⟩ => ⟨S512x2048, .f32⟩
  | .local _ .vmem, ⟨23, _⟩ => ⟨S512x2048, .f32⟩
  | .local _ .vmem, ⟨24, _⟩ => ⟨S1024x1, .f32⟩
  | .local _ .vmem, ⟨25, _⟩ => ⟨S1024x1, .f32⟩
  | .local _ .vmem, ⟨26, _⟩ => ⟨S1x512, .f32⟩
  | .local _ .vmem, ⟨27, _⟩ => ⟨S1x512, .f32⟩
  | .local _ .vmem, ⟨28, _⟩ => ⟨S8x128, .f32⟩
  | .local _ .vmem, ⟨29, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![4, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S8x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  reducesTo_S4096x2048_S4096_d1 : S4096x2048.ReducesTo [1] S4096
  h_S_ : 0 < S_.numel
  shapeCasts_S4096_S4096x1 : S4096.ShapeCasts S4096x1
  shapeCasts_S4096_S1x4096 : S4096.ShapeCasts S1x4096
  inb_S8x128_S8x128_0_0 : ∀ a, (![0, 0] : Fin 2 → Nat) a + S8x128.size a ≤ S8x128.size a
  h_S8x128 : 0 < S8x128.numel
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  transposes_S512x2048_p1_0_S2048x512 : S512x2048.Transposes [1, 0] S2048x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  reducesTo_S32x128_S_d0_1 : S32x128.ReducesTo [0, 1] S_
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .f32 = 32 ∨ (Rect.block (s := S4096x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S32x128.size a
  hwx0_4 : ∀ i : grid0.Coords, EltTy.bits .f32 = 32 ∨ (Rect.block (s := S32x128) S8x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S4096x2048.size a
  hwx1_0 : ∀ i : grid1.Coords, EltTy.bits .f32 = 32 ∨ (Rect.block (s := S4096x2048) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S4096x2048.size a
  hwx1_1 : ∀ i : grid1.Coords, EltTy.bits .f32 = 32 ∨ (Rect.block (s := S4096x2048) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S4096x1.size a
  hwx1_2 : ∀ i : grid1.Coords, EltTy.bits .f32 = 32 ∨ (Rect.block (s := S4096x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .f32 = 32 ∨ (Rect.block (s := S1x4096) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S32x128.size a
  hwx1_4 : ∀ i : grid1.Coords, EltTy.bits .f32 = 32 ∨ (Rect.block (s := S32x128) S8x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S4096x2048.size a
  hwx2_0 : ∀ i : grid2.Coords, EltTy.bits .f32 = 32 ∨ (Rect.block (s := S4096x2048) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S4096x2048.size a
  hwx2_1 : ∀ i : grid2.Coords, EltTy.bits .f32 = 32 ∨ (Rect.block (s := S4096x2048) S512x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S4096x1.size a
  hwx2_2 : ∀ i : grid2.Coords, EltTy.bits .f32 = 32 ∨ (Rect.block (s := S4096x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x4096.size a
  hwx2_3 : ∀ i : grid2.Coords, EltTy.bits .f32 = 32 ∨ (Rect.block (s := S1x4096) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8x128.size a ≤ S32x128.size a
  hwx2_4 : ∀ i : grid2.Coords, EltTy.bits .f32 = 32 ∨ (Rect.block (s := S32x128) S8x128.size (cc2_transform_4 i) (hinb2_4 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S8x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v12) S8x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4096x2048 : Shape := ⟨2, ![4096, 2048]⟩
abbrev S_ : Shape := ⟨0, ![]⟩
abbrev S4096 : Shape := ⟨1, ![4096]⟩
abbrev S2048x4096 : Shape := ⟨2, ![2048, 4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 90
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S2048x4096, .f32⟩
  | .hbm, ⟨9, _⟩ => ⟨S4096x4096, .f32⟩
  | .hbm, ⟨10, _⟩ => ⟨S4096x1, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S2048x4096, .f32⟩
  | .hbm, ⟨37, _⟩ => ⟨S4096x4096, .f32⟩
  | .hbm, ⟨38, _⟩ => ⟨S4096x1, .f32⟩
  | .hbm, ⟨39, _⟩ => ⟨S1x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4096x2048, .f32⟩
  | .hbm, ⟨59, _⟩ => ⟨S_, .f32⟩
  | .hbm, ⟨60, _⟩ => ⟨S4096, .f32⟩
  | .hbm, ⟨61, _⟩ => ⟨S4096x2048, .f32⟩
  | .hbm, ⟨62, _⟩ => ⟨S_, .f32⟩
  | .hbm, ⟨63, _⟩ => ⟨S4096, .f32⟩
  | .hbm, ⟨64, _⟩ => ⟨S2048x4096, .f32⟩
  | .hbm, ⟨65, _⟩ => ⟨S4096x4096, .f32⟩
  | .hbm, ⟨66, _⟩ => ⟨S4096x1, .f32⟩
  | .hbm, ⟨67, _⟩ => ⟨S1x4096, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S_, .f32⟩
  | .hbm, ⟨72, _⟩ => ⟨S4096x4096, .f32⟩
  | .hbm, ⟨73, _⟩ => ⟨S4096x4096, .f32⟩
  | .hbm, ⟨74, _⟩ => ⟨S4096x4096, .f32⟩
  | .hbm, ⟨75, _⟩ => ⟨S_, .f32⟩
  | .hbm, ⟨76, _⟩ => ⟨S4096x4096, .f32⟩
  | .hbm, ⟨77, _⟩ => ⟨S4096x4096, .f32⟩
  | .hbm, ⟨78, _⟩ => ⟨S_, .f32⟩
  | .hbm, ⟨79, _⟩ => ⟨S4096x4096, .f32⟩
  | .hbm, ⟨80, _⟩ => ⟨S4096x4096, .f32⟩
  | .hbm, ⟨81, _⟩ => ⟨S4096x4096, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_v36 : Ref sig .tc := ⟨.hbm, 49, rfl⟩
abbrev main_cst_10 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩
abbrev main_cst_12 : Ref sig .tc := ⟨.hbm, 56, rfl⟩
abbrev main_v41 : Ref sig .tc := ⟨.hbm, 57, rfl⟩
abbrev main_v42 : Ref sig .tc := ⟨.hbm, 58, rfl⟩
abbrev main_cst_13 : Ref sig .tc := ⟨.hbm, 59, rfl⟩
abbrev main_v43 : Ref sig .tc := ⟨.hbm, 60, rfl⟩
abbrev main_v44 : Ref sig .tc := ⟨.hbm, 61, rfl⟩
abbrev main_cst_14 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_15 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_16 : Ref sig .tc := ⟨.hbm, 75, rfl⟩
abbrev main_v56 : Ref sig .tc := ⟨.hbm, 76, rfl⟩
abbrev main_v57 : Ref sig .tc := ⟨.hbm, 77, rfl⟩
abbrev main_cst_17 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_18 : Ref sig .tc := ⟨.hbm, 82, rfl⟩
abbrev main_v61 : Ref sig .tc := ⟨.hbm, 83, rfl⟩
abbrev main_cst_19 : Ref sig .tc := ⟨.hbm, 84, rfl⟩
abbrev main_v62 : Ref sig .tc := ⟨.hbm, 85, rfl⟩
abbrev main_v63 : Ref sig .tc := ⟨.hbm, 86, rfl⟩
abbrev main_cst_20 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  transposes_S4096x2048_S2048x4096_1_0 : S4096x2048.Transposes [1, 0] S2048x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  dot_S4096x2048_S2048x4096_S4096x4096_1_0_0_1_n_n_wf : DotDims.WF S4096x2048 S2048x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.K.Runs.lean ====
/-
  What the runs of the kernel body are stated over: the branch condition and the staging memrefs at a point.

  The body branches on the inner grid coordinate: at its first value the 8 × 128 result block is zeroed, at every
  value the tile's sum is added into the block's corner entry. So there are two cases. In the first the block's
  contents before the body do not matter (the zero store covers it); in the second the block is the one the previous
  point left, and only its corner changes. Each case's run names the stores it makes into the result block as a list
  of pieces, found when the run hands the block to its continuation.
-/
import proofs.«141671_j53652731461797_1_alg».proof.Proof.Gen.Kernel.Launch
import proofs.«141671_j53652731461797_1_alg».proof.Proof.Gen.Kernel.Skeleton
import proofs.«141671_j53652731461797_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch condition -/

/-- The body's condition, from the grid coordinates: the inner coordinate is zero. -/
abbrev cond0 (i : grid0.Coords) : Prop := (Scalar.cmpi .ne (Scalar.extui (Scalar.cmpi .eq (BitVec.ofNat 32 (i 1).val) 0#32)) 0#32) = 1#1
/-- Over the 4 × 8 grid in row-major order it holds at the points divisible by 8. -/
theorem hcond0 : ∀ t : Fin cfg0.N, cond0 (grid0.coords t) ↔ t.val % 8 = 0 :=
  (by decide +kernel : ∀ t : Fin grid0.N, cond0 (grid0.coords t) ↔ t.val % 8 = 0)

/-! ## The staging memrefs at a point -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)

end Cert.Kernel.Hand

end
-- ==== Proof.K.RunA.lean ====
/-
  The kernel body where the inner grid coordinate is zero: the 8 × 128 result block is zeroed, its corner read back, the tile's sum added.
  The block's contents before the body do not matter.
  The run names the stores made into the result block as a list of pieces, found when the block is handed to the continuation.
-/
import proofs.«141671_j53652731461797_1_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The inner coordinate is zero: the block is zeroed, then its corner is read back and the tile's sum added. -/
noncomputable def kernelRun0_A (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : cond0 i)
    (x0 : Vec F S1024x2048 .f32) (x1 : Vec F S512x2048 .f32) (x2 : Vec F S1024x1 .f32) (x3 : Vec F S1x512 .f32) :
    { L4 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)) -∗ K ⟨⟩))
          ⊢ wp frame (wpE (defs₀ (F := F)) Variants.none c none) E (cc0__rbf_sum_kernel i arg2 harg2 arg3 harg3 arg4 harg4 arg5 harg5 arg6 harg6) K } := by
  refine ⟨?_, fun E K => ?run⟩
  case run =>
    simp only [cc0__rbf_sum_kernel_eq_skeleton]; unfold cc0__rbf_sum_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.K.RunB.lean ====
/-
  The kernel body where the inner grid coordinate is not zero: the result block holds what the previous point left; its corner is read
  and has the tile's sum added; nothing else of it changes.
  The run names the stores made into the result block as a list of pieces, found when the block is handed to the continuation.
-/
import proofs.«141671_j53652731461797_1_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The inner coordinate is not zero: the block holds `xo4`, whose corner is read and has the tile's sum added. -/
noncomputable def kernelRun0_B (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : ¬cond0 i)
    (x0 : Vec F S1024x2048 .f32) (x1 : Vec F S512x2048 .f32) (x2 : Vec F S1024x1 .f32) (x3 : Vec F S1x512 .f32) (xo4 : Vec F S8x128 .f32) :
    { L4 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (arg6.view.loc (c : Thread nD τ) ↦[arg6.view.set]{fullShare} arg6.view.writes (Elt F) (harg6.unread xo4) L4)) -∗ K ⟨⟩))
          ⊢ wp frame (wpE (defs₀ (F := F)) Variants.none c none) E (cc0__rbf_sum_kernel i arg2 harg2 arg3 harg3 arg4 harg4 arg5 harg5 arg6 harg6) K } := by
  refine ⟨?_, fun E K => ?run⟩
  case run =>
    simp only [cc0__rbf_sum_kernel_eq_skeleton]; unfold cc0__rbf_sum_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexact H4

end Cert.Kernel.Hand

end
-- ==== Proof.K.Region0.lean ====
/-
  pallas_call 0 as a pipeline: its proof data and the body obligation, at the contents `V` the region is entered from.

  A grid point t = 8·i + j handles the tile of rows 1024·i … and columns 512·j …. The four input windows hold their
  blocks of the arrays whether or not they were fetched at the point (an unfetched window's index has not moved).
  The result window's block index depends on i only, so its staging buffer is carried through the eight points of a
  row of tiles and written back after the last: at j = 0 the body zeroes it and adds the tile's sum into the corner;
  at j > 0 it holds what the point before left and the corner grows by the tile's sum. `outsAt0` is that
  recursion; the proof data's `after` for the result window is `outsAt0`, for an input window its block.
-/
import proofs.«141671_j53652731461797_1_alg».proof.Proof.K.RunA
import proofs.«141671_j53652731461797_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the result block -/

/-- One staging buffer of the result window, through which block contents are stated (the choice does not matter). -/
abbrev VO0 : Memref sig .tc .vmem S8x128 .f32 := (Memref.whole cc0_stg4_0 : Memref sig .tc .vmem S8x128 .f32)
theorem hVO0 : (VO0).IsWhole := Memref.isWhole_whole _

/-- The first case's stores tile the block, so they cover it. -/
theorem cover0_A (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : cond0 i)
    (x0 : Vec F S1024x2048 .f32) (x1 : Vec F S512x2048 .f32) (x2 : Vec F S1024x1 .f32) (x3 : Vec F S1x512 .f32) (y : S8x128.Idx) :
    ∃ pc ∈ (kernelRun0_A c i arg2 harg2 arg3 harg3 arg4 harg4 arg5 harg5 arg6 harg6 hc0 x0 x1 x2 x3).1, y ∈ pc.1.set :=
  View.cover_of_tiledL (kernelRun0_A c i arg2 harg2 arg3 harg3 arg4 harg4 arg5 harg5 arg6 harg6 hc0 x0 x1 x2 x3).1 S8x128.size (by sl_kernel_rfl) y

/-- What the first case leaves in the block: its stores read back (over anything). -/
def out0_A (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : cond0 i)
    (x0 : Vec F S1024x2048 .f32) (x1 : Vec F S512x2048 .f32) (x2 : Vec F S1024x1 .f32) (x3 : Vec F S1x512 .f32) : Vec F S8x128 .f32 :=
  (VO0).view.read (Elt F) ((VO0).view.writes (Elt F) (VO0).view.junk (kernelRun0_A c i arg2 harg2 arg3 harg3 arg4 harg4 arg5 harg5 arg6 harg6 hc0 x0 x1 x2 x3).1)

/-- What the second case leaves in the block: its one store read back over the block `xo4` it found. -/
def out0_B (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : ¬cond0 i)
    (x0 : Vec F S1024x2048 .f32) (x1 : Vec F S512x2048 .f32) (x2 : Vec F S1024x1 .f32) (x3 : Vec F S1x512 .f32) (xo4 : Vec F S8x128 .f32) : Vec F S8x128 .f32 :=
  (VO0).view.read (Elt F) ((VO0).view.writes (Elt F) (hVO0.unread xo4) (kernelRun0_B c i arg2 harg2 arg3 harg3 arg4 harg4 arg5 harg5 arg6 harg6 hc0 x0 x1 x2 x3 xo4).1)

/-- Stores over known contents of a whole buffer read back the same through any whole buffer of the shape: a covered
    element reads the covering store's payload, an uncovered one the contents it had. -/
theorem read_writes_unread_whole0 {m m' : Memref sig .tc .vmem S8x128 .f32} (hm : m.IsWhole) (hm' : m'.IsWhole)
    (x : Vec F S8x128 .f32) (L : List (View.Piece (Elt F) S8x128 .f32)) :
    m.view.read (Elt F) (m.view.writes (Elt F) (hm.unread x) L) = m'.view.read (Elt F) (m'.view.writes (Elt F) (hm'.unread x) L) := by
  funext y
  by_cases h : ∃ p ∈ L, y ∈ p.1.set
  · exact View.read_writes_apply_eq _ _ _ _ y L h
  · have hn : ∀ p ∈ L, y ∉ p.1.set := fun p hp hy => h ⟨p, hp, hy⟩
    rw [View.read_writes_apply_of_forall_not_mem _ _ y L hn, View.read_writes_apply_of_forall_not_mem _ _ y L hn,
      hm.read_unread, hm'.read_unread]

/-! ## The accumulation over the points -/

/-- What the result window's staging buffer holds after the body at position `n`. -/
def outsAt0 (c : Dev nD) : (n : ℕ) → n < cfg0.N → Vec F S8x128 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩)
      ((hcond0 ⟨0, hn⟩).mpr (Nat.zero_mod _)) (iblk0 V c 0 ⟨0, hn⟩) (iblk0 V c 1 ⟨0, hn⟩) (iblk0 V c 2 ⟨0, hn⟩) (iblk0 V c 3 ⟨0, hn⟩)
  | n + 1, hn =>
    if h0 : (n + 1) % 8 = 0 then
      out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩)
        ((hcond0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩)
    else
      out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩)
        (fun h => h0 ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩)
        (outsAt0 c n (Nat.lt_of_succ_lt hn))

theorem outsAt0_A (c : Dev nD) (t : Fin cfg0.N) (h0 : t.val % 8 = 0) :
    outsAt0 V c t.val t.isLt = out0_A c (grid0.coords t) (ms0_0 t) (hs0_0 t) (ms0_1 t) (hs0_1 t) (ms0_2 t) (hs0_2 t) (ms0_3 t) (hs0_3 t) (ms0_4 t) (hs0_4 t)
      ((hcond0 t).mpr h0) (iblk0 V c 0 t) (iblk0 V c 1 t) (iblk0 V c 2 t) (iblk0 V c 3 t) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = out0_B c (grid0.coords t) (ms0_0 t) (hs0_0 t) (ms0_1 t) (hs0_1 t) (ms0_2 t) (hs0_2 t) (ms0_3 t) (hs0_3 t) (ms0_4 t) (hs0_4 t)
      (fun h => h0 ((hcond0 t).mp h)) (iblk0 V c 0 t) (iblk0 V c 1 t) (iblk0 V c 2 t) (iblk0 V c 3 t)
      (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The proof data of pipeline 0 on core `c`. The two windows that read one array each hold it at half the share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outsAt0 V c t.val t.isLt
  Φ _ := Pipeline.ΦA spec0 c
  q w := (match w with | ⟨0, _⟩ => fullShare.left | ⟨1, _⟩ => fullShare.right | _ => fullShare)
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- At a point with j > 0 the result window's staging buffer holds what the body left at the point before: the point
    is not the first and the buffer was not written back between (write-backs follow the points with j = 7). -/
theorem before0_4_B (c : Dev nD) (t : Fin cfg0.N) (h0 : ¬t.val % 8 = 0) (d) :
    (dat0 V c).before 4 t d = outsAt0 V c (t.val - 1) (Nat.lt_of_le_of_lt (Nat.sub_le _ _) t.isLt) := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1600000 in
/-- The body at any point: the inputs' memrefs hold their blocks; the closed form of the condition says which case the
    point is in; at j > 0 the result block is what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val % 8 = 0
  · rw [outsAt0_A V c t h0]
    unfold out0_A
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0 t).mpr h0) (iblk0 V c 0 t) (iblk0 V c 1 t) (iblk0 V c 2 t) (iblk0 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A c _ _ _ _ _ _ _ _ _ _ _ _ _ _ _ _)
  · rw [outsAt0_B V c t h0]
    simp only [before0_4_B V c t h0]
    unfold out0_B
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0 t).mp h)) (iblk0 V c 0 t) (iblk0 V c 1 t) (iblk0 V c 2 t) (iblk0 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact read_writes_unread_whole0 (hs0_4 t) hVO0 _ _

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  pallas_call 1 as a pipeline: its proof data and the body obligation, at the contents `V` the region is entered from.

  A grid point t = 8·i + j handles the tile of rows 1024·i … and columns 512·j …. The four input windows hold their
  blocks of the arrays whether or not they were fetched at the point (an unfetched window's index has not moved).
  The result window's block index depends on i only, so its staging buffer is carried through the eight points of a
  row of tiles and written back after the last: at j = 0 the body zeroes it and adds the tile's sum into the corner;
  at j > 0 it holds what the point before left and the corner grows by the tile's sum. `outsAt1` is that
  recursion; the proof data's `after` for the result window is `outsAt1`, for an input window its block.
-/
import proofs.«141671_j53652731461797_1_alg».proof.Proof.K.RunA
import proofs.«141671_j53652731461797_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## This call's body is the first call's

The three pallas_calls run one kernel function on grids of one shape; the printed copies are the same term. -/

set_option maxRecDepth 65536 in
theorem cc1_eq_cc0 : @cc1__rbf_sum_kernel F _ _ = @cc0__rbf_sum_kernel F _ _ := rfl

/-- The branch condition over this call's grid: it holds at the points divisible by 8. -/
theorem hcondX1 : ∀ t : Fin cfg1.N, cond0 (grid1.coords t) ↔ t.val % 8 = 0 :=
  (by decide +kernel : ∀ t : Fin grid1.N, cond0 (grid1.coords t) ↔ t.val % 8 = 0)

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x128 .f32 := win1_4.stage (cfg1.slots t 4)
abbrev hs1_4 (t : Fin cfg1.N) : (ms1_4 t).IsWhole := hstage1_4 ((cfg1.slots t 4).cast nbuf1_4)

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the result block -/

/-- One staging buffer of the result window, through which block contents are stated (the choice does not matter). -/
abbrev VO1 : Memref sig .tc .vmem S8x128 .f32 := (Memref.whole cc1_stg4_0 : Memref sig .tc .vmem S8x128 .f32)
theorem hVO1 : (VO1).IsWhole := Memref.isWhole_whole _

/-- The first case's stores tile the block, so they cover it. -/
theorem cover1_A (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : cond0 i)
    (x0 : Vec F S1024x2048 .f32) (x1 : Vec F S512x2048 .f32) (x2 : Vec F S1024x1 .f32) (x3 : Vec F S1x512 .f32) (y : S8x128.Idx) :
    ∃ pc ∈ (kernelRun0_A c i arg2 harg2 arg3 harg3 arg4 harg4 arg5 harg5 arg6 harg6 hc0 x0 x1 x2 x3).1, y ∈ pc.1.set :=
  View.cover_of_tiledL (kernelRun0_A c i arg2 harg2 arg3 harg3 arg4 harg4 arg5 harg5 arg6 harg6 hc0 x0 x1 x2 x3).1 S8x128.size (by sl_kernel_rfl) y

/-- What the first case leaves in the block: its stores read back (over anything). -/
def out1_A (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : cond0 i)
    (x0 : Vec F S1024x2048 .f32) (x1 : Vec F S512x2048 .f32) (x2 : Vec F S1024x1 .f32) (x3 : Vec F S1x512 .f32) : Vec F S8x128 .f32 :=
  (VO1).view.read (Elt F) ((VO1).view.writes (Elt F) (VO1).view.junk (kernelRun0_A c i arg2 harg2 arg3 harg3 arg4 harg4 arg5 harg5 arg6 harg6 hc0 x0 x1 x2 x3).1)

/-- What the second case leaves in the block: its one store read back over the block `xo4` it found. -/
def out1_B (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : ¬cond0 i)
    (x0 : Vec F S1024x2048 .f32) (x1 : Vec F S512x2048 .f32) (x2 : Vec F S1024x1 .f32) (x3 : Vec F S1x512 .f32) (xo4 : Vec F S8x128 .f32) : Vec F S8x128 .f32 :=
  (VO1).view.read (Elt F) ((VO1).view.writes (Elt F) (hVO1.unread xo4) (kernelRun0_B c i arg2 harg2 arg3 harg3 arg4 harg4 arg5 harg5 arg6 harg6 hc0 x0 x1 x2 x3 xo4).1)

/-- Stores over known contents of a whole buffer read back the same through any whole buffer of the shape: a covered
    element reads the covering store's payload, an uncovered one the contents it had. -/
theorem read_writes_unread_whole1 {m m' : Memref sig .tc .vmem S8x128 .f32} (hm : m.IsWhole) (hm' : m'.IsWhole)
    (x : Vec F S8x128 .f32) (L : List (View.Piece (Elt F) S8x128 .f32)) :
    m.view.read (Elt F) (m.view.writes (Elt F) (hm.unread x) L) = m'.view.read (Elt F) (m'.view.writes (Elt F) (hm'.unread x) L) := by
  funext y
  by_cases h : ∃ p ∈ L, y ∈ p.1.set
  · exact View.read_writes_apply_eq _ _ _ _ y L h
  · have hn : ∀ p ∈ L, y ∉ p.1.set := fun p hp hy => h ⟨p, hp, hy⟩
    rw [View.read_writes_apply_of_forall_not_mem _ _ y L hn, View.read_writes_apply_of_forall_not_mem _ _ y L hn,
      hm.read_unread, hm'.read_unread]

/-! ## The accumulation over the points -/

/-- What the result window's staging buffer holds after the body at position `n`. -/
def outsAt1 (c : Dev nD) : (n : ℕ) → n < cfg1.N → Vec F S8x128 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩)
      ((hcondX1 ⟨0, hn⟩).mpr (Nat.zero_mod _)) (iblk1 V c 0 ⟨0, hn⟩) (iblk1 V c 1 ⟨0, hn⟩) (iblk1 V c 2 ⟨0, hn⟩) (iblk1 V c 3 ⟨0, hn⟩)
  | n + 1, hn =>
    if h0 : (n + 1) % 8 = 0 then
      out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩)
        ((hcondX1 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩)
        (fun h => h0 ((hcondX1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)
        (outsAt1 c n (Nat.lt_of_succ_lt hn))

theorem outsAt1_A (c : Dev nD) (t : Fin cfg1.N) (h0 : t.val % 8 = 0) :
    outsAt1 V c t.val t.isLt = out1_A c (grid1.coords t) (ms1_0 t) (hs1_0 t) (ms1_1 t) (hs1_1 t) (ms1_2 t) (hs1_2 t) (ms1_3 t) (hs1_3 t) (ms1_4 t) (hs1_4 t)
      ((hcondX1 t).mpr h0) (iblk1 V c 0 t) (iblk1 V c 1 t) (iblk1 V c 2 t) (iblk1 V c 3 t) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = out1_B c (grid1.coords t) (ms1_0 t) (hs1_0 t) (ms1_1 t) (hs1_1 t) (ms1_2 t) (hs1_2 t) (ms1_3 t) (hs1_3 t) (ms1_4 t) (hs1_4 t)
      (fun h => h0 ((hcondX1 t).mp h)) (iblk1 V c 0 t) (iblk1 V c 1 t) (iblk1 V c 2 t) (iblk1 V c 3 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The proof data of pipeline 1 on core `c`. The two windows that read one array each hold it at half the share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q w := (match w with | ⟨0, _⟩ => fullShare.left | ⟨1, _⟩ => fullShare.right | _ => fullShare)
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a point with j > 0 the result window's staging buffer holds what the body left at the point before: the point
    is not the first and the buffer was not written back between (write-backs follow the points with j = 7). -/
theorem before1_4_B (c : Dev nD) (t : Fin cfg1.N) (h0 : ¬t.val % 8 = 0) (d) :
    (dat1 V c).before 4 t d = outsAt1 V c (t.val - 1) (Nat.lt_of_le_of_lt (Nat.sub_le _ _) t.isLt) := by
  have hN : t.val < 32 := lt_of_lt_of_eq t.isLt (show cfg1.N = 32 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
/-- The body at any point: the inputs' memrefs hold their blocks; the closed form of the condition says which case the
    point is in; at j > 0 the result block is what the point before left; so the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [cc1_eq_cc0]
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val % 8 = 0
  · rw [outsAt1_A V c t h0]
    unfold out1_A
    iintro ⟨HΦ, Ho, ⟨%d0, H0⟩, ⟨%d1, H1⟩, ⟨%d2, H2⟩, ⟨%d3, H3⟩, ⟨%d4, H4⟩⟩
    iapply ((kernelRun0_A c (grid1.coords t) _ _ _ _ _ _ _ _ _ _ ((hcondX1 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A c _ _ _ _ _ _ _ _ _ _ _ _ _ _ _ _)
  · rw [outsAt1_B V c t h0]
    simp only [before1_4_B V c t h0]
    unfold out1_B
    iintro ⟨HΦ, Ho, ⟨%d0, H0⟩, ⟨%d1, H1⟩, ⟨%d2, H2⟩, ⟨%d3, H3⟩, ⟨%d4, H4⟩⟩
    iapply ((kernelRun0_B c (grid1.coords t) _ _ _ _ _ _ _ _ _ _ (fun h => h0 ((hcondX1 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact read_writes_unread_whole1 (hs1_4 t) hVO1 _ _

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/-
  pallas_call 2 as a pipeline: its proof data and the body obligation, at the contents `V` the region is entered from.

  A grid point t = 8·i + j handles the tile of rows 1024·i … and columns 512·j …. The four input windows hold their
  blocks of the arrays whether or not they were fetched at the point (an unfetched window's index has not moved).
  The result window's block index depends on i only, so its staging buffer is carried through the eight points of a
  row of tiles and written back after the last: at j = 0 the body zeroes it and adds the tile's sum into the corner;
  at j > 0 it holds what the point before left and the corner grows by the tile's sum. `outsAt2` is that
  recursion; the proof data's `after` for the result window is `outsAt2`, for an input window its block.
-/
import proofs.«141671_j53652731461797_1_alg».proof.Proof.K.RunA
import proofs.«141671_j53652731461797_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## This call's body is the first call's

The three pallas_calls run one kernel function on grids of one shape; the printed copies are the same term. -/

set_option maxRecDepth 65536 in
theorem cc2_eq_cc0 : @cc2__rbf_sum_kernel F _ _ = @cc0__rbf_sum_kernel F _ _ := rfl

/-- The branch condition over this call's grid: it holds at the points divisible by 8. -/
theorem hcondX2 : ∀ t : Fin cfg2.N, cond0 (grid2.coords t) ↔ t.val % 8 = 0 :=
  (by decide +kernel : ∀ t : Fin grid2.N, cond0 (grid2.coords t) ↔ t.val % 8 = 0)

abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S8x128 .f32 := win2_4.stage (cfg2.slots t 4)
abbrev hs2_4 (t : Fin cfg2.N) : (ms2_4 t).IsWhole := hstage2_4 ((cfg2.slots t 4).cast nbuf2_4)

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the result block -/

/-- One staging buffer of the result window, through which block contents are stated (the choice does not matter). -/
abbrev VO2 : Memref sig .tc .vmem S8x128 .f32 := (Memref.whole cc2_stg4_0 : Memref sig .tc .vmem S8x128 .f32)
theorem hVO2 : (VO2).IsWhole := Memref.isWhole_whole _

/-- The first case's stores tile the block, so they cover it. -/
theorem cover2_A (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : cond0 i)
    (x0 : Vec F S1024x2048 .f32) (x1 : Vec F S512x2048 .f32) (x2 : Vec F S1024x1 .f32) (x3 : Vec F S1x512 .f32) (y : S8x128.Idx) :
    ∃ pc ∈ (kernelRun0_A c i arg2 harg2 arg3 harg3 arg4 harg4 arg5 harg5 arg6 harg6 hc0 x0 x1 x2 x3).1, y ∈ pc.1.set :=
  View.cover_of_tiledL (kernelRun0_A c i arg2 harg2 arg3 harg3 arg4 harg4 arg5 harg5 arg6 harg6 hc0 x0 x1 x2 x3).1 S8x128.size (by sl_kernel_rfl) y

/-- What the first case leaves in the block: its stores read back (over anything). -/
def out2_A (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : cond0 i)
    (x0 : Vec F S1024x2048 .f32) (x1 : Vec F S512x2048 .f32) (x2 : Vec F S1024x1 .f32) (x3 : Vec F S1x512 .f32) : Vec F S8x128 .f32 :=
  (VO2).view.read (Elt F) ((VO2).view.writes (Elt F) (VO2).view.junk (kernelRun0_A c i arg2 harg2 arg3 harg3 arg4 harg4 arg5 harg5 arg6 harg6 hc0 x0 x1 x2 x3).1)

/-- What the second case leaves in the block: its one store read back over the block `xo4` it found. -/
def out2_B (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : ¬cond0 i)
    (x0 : Vec F S1024x2048 .f32) (x1 : Vec F S512x2048 .f32) (x2 : Vec F S1024x1 .f32) (x3 : Vec F S1x512 .f32) (xo4 : Vec F S8x128 .f32) : Vec F S8x128 .f32 :=
  (VO2).view.read (Elt F) ((VO2).view.writes (Elt F) (hVO2.unread xo4) (kernelRun0_B c i arg2 harg2 arg3 harg3 arg4 harg4 arg5 harg5 arg6 harg6 hc0 x0 x1 x2 x3 xo4).1)

/-- Stores over known contents of a whole buffer read back the same through any whole buffer of the shape: a covered
    element reads the covering store's payload, an uncovered one the contents it had. -/
theorem read_writes_unread_whole2 {m m' : Memref sig .tc .vmem S8x128 .f32} (hm : m.IsWhole) (hm' : m'.IsWhole)
    (x : Vec F S8x128 .f32) (L : List (View.Piece (Elt F) S8x128 .f32)) :
    m.view.read (Elt F) (m.view.writes (Elt F) (hm.unread x) L) = m'.view.read (Elt F) (m'.view.writes (Elt F) (hm'.unread x) L) := by
  funext y
  by_cases h : ∃ p ∈ L, y ∈ p.1.set
  · exact View.read_writes_apply_eq _ _ _ _ y L h
  · have hn : ∀ p ∈ L, y ∉ p.1.set := fun p hp hy => h ⟨p, hp, hy⟩
    rw [View.read_writes_apply_of_forall_not_mem _ _ y L hn, View.read_writes_apply_of_forall_not_mem _ _ y L hn,
      hm.read_unread, hm'.read_unread]

/-! ## The accumulation over the points -/

/-- What the result window's staging buffer holds after the body at position `n`. -/
def outsAt2 (c : Dev nD) : (n : ℕ) → n < cfg2.N → Vec F S8x128 .f32
  | 0, hn => out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩)
      ((hcondX2 ⟨0, hn⟩).mpr (Nat.zero_mod _)) (iblk2 V c 0 ⟨0, hn⟩) (iblk2 V c 1 ⟨0, hn⟩) (iblk2 V c 2 ⟨0, hn⟩) (iblk2 V c 3 ⟨0, hn⟩)
  | n + 1, hn =>
    if h0 : (n + 1) % 8 = 0 then
      out2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩)
        ((hcondX2 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩)
    else
      out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩)
        (fun h => h0 ((hcondX2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩)
        (outsAt2 c n (Nat.lt_of_succ_lt hn))

theorem outsAt2_A (c : Dev nD) (t : Fin cfg2.N) (h0 : t.val % 8 = 0) :
    outsAt2 V c t.val t.isLt = out2_A c (grid2.coords t) (ms2_0 t) (hs2_0 t) (ms2_1 t) (hs2_1 t) (ms2_2 t) (hs2_2 t) (ms2_3 t) (hs2_3 t) (ms2_4 t) (hs2_4 t)
      ((hcondX2 t).mpr h0) (iblk2 V c 0 t) (iblk2 V c 1 t) (iblk2 V c 2 t) (iblk2 V c 3 t) := by
  obtain ⟨n, hn⟩ := t
  cases n with
  | zero => exact rfl
  | succ n => exact (dif_pos h0).trans rfl

theorem outsAt2_B (c : Dev nD) (t : Fin cfg2.N) (h0 : ¬t.val % 8 = 0) :
    outsAt2 V c t.val t.isLt = out2_B c (grid2.coords t) (ms2_0 t) (hs2_0 t) (ms2_1 t) (hs2_1 t) (ms2_2 t) (hs2_2 t) (ms2_3 t) (hs2_3 t) (ms2_4 t) (hs2_4 t)
      (fun h => h0 ((hcondX2 t).mp h)) (iblk2 V c 0 t) (iblk2 V c 1 t) (iblk2 V c 2 t) (iblk2 V c 3 t)
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The proof data of pipeline 2 on core `c`. The two windows that read one array each hold it at half the share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outsAt2 V c t.val t.isLt
  Φ _ := Pipeline.ΦA spec2 c
  q w := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outsAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- At a point with j > 0 the result window's staging buffer holds what the body left at the point before: the point
    is not the first and the buffer was not written back between (write-backs follow the points with j = 7). -/
theorem before2_4_B (c : Dev nD) (t : Fin cfg2.N) (h0 : ¬t.val % 8 = 0) (d) :
    (dat2 V c).before 4 t d = outsAt2 V c (t.val - 1) (Nat.lt_of_le_of_lt (Nat.sub_le _ _) t.isLt) := by
  have hN : t.val < 32 := lt_of_lt_of_eq t.isLt (show cfg2.N = 32 from N_2)
  rw [Dat.before_out_kept _ 4 rfl t (by omega) (Bool.eq_false_iff.mpr fun h => by have := (flush2_4 _).mp h; dsimp only at this; omega)
    (fun _ => rfl) (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 1600000 in
/-- The body at any point: the inputs' memrefs hold their blocks; the closed form of the condition says which case the
    point is in; at j > 0 the result block is what the point before left; so the case's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [cc2_eq_cc0]
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  by_cases h0 : t.val % 8 = 0
  · rw [outsAt2_A V c t h0]
    unfold out2_A
    iintro ⟨HΦ, Ho, ⟨%d0, H0⟩, ⟨%d1, H1⟩, ⟨%d2, H2⟩, ⟨%d3, H3⟩, ⟨%d4, H4⟩⟩
    iapply ((kernelRun0_A c (grid2.coords t) _ _ _ _ _ _ _ _ _ _ ((hcondX2 t).mpr h0) (iblk2 V c 0 t) (iblk2 V c 1 t) (iblk2 V c 2 t) (iblk2 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_A c _ _ _ _ _ _ _ _ _ _ _ _ _ _ _ _)
  · rw [outsAt2_B V c t h0]
    simp only [before2_4_B V c t h0]
    unfold out2_B
    iintro ⟨HΦ, Ho, ⟨%d0, H0⟩, ⟨%d1, H1⟩, ⟨%d2, H2⟩, ⟨%d3, H3⟩, ⟨%d4, H4⟩⟩
    iapply ((kernelRun0_B c (grid2.coords t) _ _ _ _ _ _ _ _ _ _ (fun h => h0 ((hcondX2 t).mp h)) (iblk2 V c 0 t) (iblk2 V c 1 t) (iblk2 V c 2 t) (iblk2 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact read_writes_unread_whole2 (hs2_4 t) hVO2 _ _

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Arrays.lean ====
/-
  The arrays of the three pipelines, as separation-logic entailments.

  A pipeline's windows each hold their array; the launch hands the pipeline the DISTINCT buffers behind those arrays,
  each whole at the full share. In the first two calls two input windows read one array, so the five windows stand on
  four buffers: the shared buffer's full share is the composite of its two halves, one half for each of the two
  windows, and the other windows hold their buffers at the full share. In the third call the five arrays are five
  buffers and the two sides are the same conjunction re-indexed.
-/
import proofs.«141671_j53652731461797_1_alg».proof.Proof.Gen.Kernel.Launch
import Idealize.ShloMosaic.Lib.Pipeline.Frame
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Call 0: windows 0 and 1 both read `main_arg0` -/

/-- The buffers behind call 0's arrays are four: the shared input, the two row-norm inputs and the output. -/
theorem arrBufs0_eq (c : Dev nD) (V : (b : Ref sig .tc) → Buf (Elt F) ((c : Thread nD τ).loc b)) :
    (Pipeline.arrBufs spec0 c V : sProp 𝕄)
      = iprop((((c : Thread nD τ).loc main_arg0) ↦{fullShare} V main_arg0) ∗ (((c : Thread nD τ).loc main_v4) ↦{fullShare} V main_v4)
          ∗ (((c : Thread nD τ).loc main_v5) ↦{fullShare} V main_v5) ∗ (((c : Thread nD τ).loc main_v8) ↦{fullShare} V main_v8)) :=
  bigSep_eq_bigSepL_of_eq [main_arg0, main_v4, main_v5, main_v8] (by decide) (by decide) _

/-- Call 0's five windows one by one, each a whole buffer: the shared input once at each half of the full share,
    the other two inputs and the output at the full share. -/
theorem arrays0_eq (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (Fa : (w : Fin cfg0.W) → Buf (Elt F) ((cfg0.win w).arr.view.loc (c : Thread nD τ))) (hF : ∀ w, Fa w = V (Pipeline.arrRef spec0 w)) :
    (dat.arrays Fa : sProp 𝕄)
      = iprop((((c : Thread nD τ).loc main_arg0) ↦{fullShare.left} V main_arg0) ∗ (((c : Thread nD τ).loc main_arg0) ↦{fullShare.right} V main_arg0)
          ∗ (((c : Thread nD τ).loc main_v4) ↦{fullShare} V main_v4) ∗ (((c : Thread nD τ).loc main_v5) ↦{fullShare} V main_v5)
          ∗ (((c : Thread nD τ).loc main_v8) ↦{fullShare} V main_v8)) := by
  have s0 : dat.share 0 = fullShare.left := by unfold Dat.share; rw [if_neg (by decide)]; exact hq0
  have s1 : dat.share 1 = fullShare.right := by unfold Dat.share; rw [if_neg (by decide)]; exact hq1
  have s2 : dat.share 2 = fullShare := by unfold Dat.share; rw [if_neg (by decide)]; exact hq2
  have s3 : dat.share 3 = fullShare := by unfold Dat.share; rw [if_neg (by decide)]; exact hq3
  have s4 : dat.share 4 = fullShare := by unfold Dat.share; rw [if_pos (by decide)]
  unfold Dat.arrays
  rw [bigSep_W0, (arr_whole0 0).set_eq_univ, (arr_whole0 2).set_eq_univ, (arr_whole0 3).set_eq_univ,
    (arr_whole0 4).set_eq_univ, s0, s1, s2, s3, s4, hF 0, hF 1, hF 2, hF 3, hF 4]

/-- The distinct buffers at the full share give the windows' arrays: the shared input's full share is split into its halves. -/
theorem arrays_of_arrBufs0 (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (Fa : (w : Fin cfg0.W) → Buf (Elt F) ((cfg0.win w).arr.view.loc (c : Thread nD τ))) (hF : ∀ w, Fa w = V (Pipeline.arrRef spec0 w)) :
    (Pipeline.arrBufs spec0 c V : sProp 𝕄) ⊢ dat.arrays Fa := by
  rw [arrBufs0_eq, arrays0_eq c dat hq0 hq1 hq2 hq3 V Fa hF]
  exact (Laws.sep_mono_left (pointsTo_share (PosShare.mem_left_op_right fullShare)).1).trans Laws.sep_assoc.1

/-- The windows' arrays give back the distinct buffers at the full share: the two halves of the shared input, at one
    contents, are joined. -/
theorem arrBufs_of_arrays0 (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (Fa : (w : Fin cfg0.W) → Buf (Elt F) ((cfg0.win w).arr.view.loc (c : Thread nD τ))) (hF : ∀ w, Fa w = V (Pipeline.arrRef spec0 w)) :
    (dat.arrays Fa : sProp 𝕄) ⊢ Pipeline.arrBufs spec0 c V := by
  rw [arrBufs0_eq, arrays0_eq c dat hq0 hq1 hq2 hq3 V Fa hF]
  exact Laws.sep_assoc.2.trans (Laws.sep_mono_left (pointsTo_share (PosShare.mem_left_op_right fullShare)).2)

/-! ## Call 1: windows 0 and 1 both read `main_arg1` -/

/-- The buffers behind call 1's arrays are four: the shared input, the two row-norm inputs and the output. -/
theorem arrBufs1_eq (c : Dev nD) (V : (b : Ref sig .tc) → Buf (Elt F) ((c : Thread nD τ).loc b)) :
    (Pipeline.arrBufs spec1 c V : sProp 𝕄)
      = iprop((((c : Thread nD τ).loc main_arg1) ↦{fullShare} V main_arg1) ∗ (((c : Thread nD τ).loc main_v6) ↦{fullShare} V main_v6)
          ∗ (((c : Thread nD τ).loc main_v7) ↦{fullShare} V main_v7) ∗ (((c : Thread nD τ).loc main_v10) ↦{fullShare} V main_v10)) :=
  bigSep_eq_bigSepL_of_eq [main_arg1, main_v6, main_v7, main_v10] (by decide) (by decide) _

/-- Call 1's five windows one by one, each a whole buffer: the shared input once at each half of the full share,
    the other two inputs and the output at the full share. -/
theorem arrays1_eq (c : Dev nD) (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (Fa : (w : Fin cfg1.W) → Buf (Elt F) ((cfg1.win w).arr.view.loc (c : Thread nD τ))) (hF : ∀ w, Fa w = V (Pipeline.arrRef spec1 w)) :
    (dat.arrays Fa : sProp 𝕄)
      = iprop((((c : Thread nD τ).loc main_arg1) ↦{fullShare.left} V main_arg1) ∗ (((c : Thread nD τ).loc main_arg1) ↦{fullShare.right} V main_arg1)
          ∗ (((c : Thread nD τ).loc main_v6) ↦{fullShare} V main_v6) ∗ (((c : Thread nD τ).loc main_v7) ↦{fullShare} V main_v7)
          ∗ (((c : Thread nD τ).loc main_v10) ↦{fullShare} V main_v10)) := by
  have s0 : dat.share 0 = fullShare.left := by unfold Dat.share; rw [if_neg (by decide)]; exact hq0
  have s1 : dat.share 1 = fullShare.right := by unfold Dat.share; rw [if_neg (by decide)]; exact hq1
  have s2 : dat.share 2 = fullShare := by unfold Dat.share; rw [if_neg (by decide)]; exact hq2
  have s3 : dat.share 3 = fullShare := by unfold Dat.share; rw [if_neg (by decide)]; exact hq3
  have s4 : dat.share 4 = fullShare := by unfold Dat.share; rw [if_pos (by decide)]
  unfold Dat.arrays
  rw [bigSep_W1, (arr_whole1 0).set_eq_univ, (arr_whole1 2).set_eq_univ, (arr_whole1 3).set_eq_univ,
    (arr_whole1 4).set_eq_univ, s0, s1, s2, s3, s4, hF 0, hF 1, hF 2, hF 3, hF 4]

/-- The distinct buffers at the full share give the windows' arrays: the shared input's full share is split into its halves. -/
theorem arrays_of_arrBufs1 (c : Dev nD) (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (Fa : (w : Fin cfg1.W) → Buf (Elt F) ((cfg1.win w).arr.view.loc (c : Thread nD τ))) (hF : ∀ w, Fa w = V (Pipeline.arrRef spec1 w)) :
    (Pipeline.arrBufs spec1 c V : sProp 𝕄) ⊢ dat.arrays Fa := by
  rw [arrBufs1_eq, arrays1_eq c dat hq0 hq1 hq2 hq3 V Fa hF]
  exact (Laws.sep_mono_left (pointsTo_share (PosShare.mem_left_op_right fullShare)).1).trans Laws.sep_assoc.1

/-- The windows' arrays give back the distinct buffers at the full share: the two halves of the shared input, at one
    contents, are joined. -/
theorem arrBufs_of_arrays1 (c : Dev nD) (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (Fa : (w : Fin cfg1.W) → Buf (Elt F) ((cfg1.win w).arr.view.loc (c : Thread nD τ))) (hF : ∀ w, Fa w = V (Pipeline.arrRef spec1 w)) :
    (dat.arrays Fa : sProp 𝕄) ⊢ Pipeline.arrBufs spec1 c V := by
  rw [arrBufs1_eq, arrays1_eq c dat hq0 hq1 hq2 hq3 V Fa hF]
  exact Laws.sep_assoc.2.trans (Laws.sep_mono_left (pointsTo_share (PosShare.mem_left_op_right fullShare)).2)

/-! ## Call 2: five windows on five buffers -/

/-- Every window of call 2 holds its array at the full share. -/
theorem share2 (c : Dev nD) (dat : Dat τ (Elt F) Unit ℕ (UR sig nD τ) ℕ cfg2 c) (hq : ∀ w, dat.q w = fullShare) (w : Fin cfg2.W) :
    dat.share w = fullShare := by
  unfold Dat.share
  split
  · rfl
  · exact hq w

/-- The windows' arrays are the buffers behind them, window by window. -/
theorem arrays2_eq (c : Dev nD) (dat : Dat τ (Elt F) Unit ℕ (UR sig nD τ) ℕ cfg2 c) (hq : ∀ w, dat.q w = fullShare)
    (V : (b : Ref sig .tc) → Buf (Elt F) ((c : Thread nD τ).loc b))
    (Fa : (w : Fin cfg2.W) → Buf (Elt F) ((cfg2.win w).arr.view.loc (c : Thread nD τ))) (hF : ∀ w, Fa w = V (Pipeline.arrRef spec2 w)) :
    (Pipeline.arrBufs spec2 c V : sProp 𝕄) = dat.arrays Fa := by
  classical
  unfold Dat.arrays Pipeline.arrBufs
  rw [show Finset.univ.image (Pipeline.arrRef spec2) = Finset.univ.map ⟨Pipeline.arrRef spec2, winFacts2.arr_inj⟩ from
      (Finset.map_eq_image ⟨Pipeline.arrRef spec2, winFacts2.arr_inj⟩ Finset.univ).symm, bigSep_map]
  exact bigSep_congr fun w _ => by rw [(arr_whole2 w).set_eq_univ, share2 c dat hq, hF]; rfl

theorem arrays_of_arrBufs2 (c : Dev nD) (dat : Dat τ (Elt F) Unit ℕ (UR sig nD τ) ℕ cfg2 c) (hq : ∀ w, dat.q w = fullShare)
    (V : (b : Ref sig .tc) → Buf (Elt F) ((c : Thread nD τ).loc b))
    (Fa : (w : Fin cfg2.W) → Buf (Elt F) ((cfg2.win w).arr.view.loc (c : Thread nD τ))) (hF : ∀ w, Fa w = V (Pipeline.arrRef spec2 w)) :
    (Pipeline.arrBufs spec2 c V : sProp 𝕄) ⊢ dat.arrays Fa :=
  Entails.of_eq (arrays2_eq c dat hq V Fa hF)

theorem arrBufs_of_arrays2 (c : Dev nD) (dat : Dat τ (Elt F) Unit ℕ (UR sig nD τ) ℕ cfg2 c) (hq : ∀ w, dat.q w = fullShare)
    (V : (b : Ref sig .tc) → Buf (Elt F) ((c : Thread nD τ).loc b))
    (Fa : (w : Fin cfg2.W) → Buf (Elt F) ((cfg2.win w).arr.view.loc (c : Thread nD τ))) (hF : ∀ w, Fa w = V (Pipeline.arrRef spec2 w)) :
    (dat.arrays Fa : sProp 𝕄) ⊢ Pipeline.arrBufs spec2 c V :=
  Entails.of_eq (arrays2_eq c dat hq V Fa hF).symm

end Cert.Kernel.Hand

end
-- ==== Proof.K.Run.lean ====
/-
  The run of the whole program: four stretches of host operations around three pallas_calls.

  Between two items a core's unscoped buffers are held whole at known contents: the launch memory, then each
  host stretch applied, then after each pallas_call its result array at what the pipeline's write-backs leave and every
  other buffer as it was (the call's other arrays are inputs). Each call is entered by splitting its arrays out of
  those buffers — the array two windows read is split into two half shares — and left by putting them back. The
  generator register and the core's (empty) debts ride along. At the end every unscoped buffer is read off the last
  contents, which gives both the arguments unchanged and the result's value.
-/
import proofs.«141671_j53652731461797_1_alg».proof.Proof.K.Region0
import proofs.«141671_j53652731461797_1_alg».proof.Proof.K.Region1
import proofs.«141671_j53652731461797_1_alg».proof.Proof.K.Region2
import proofs.«141671_j53652731461797_1_alg».proof.Proof.K.Arrays
import proofs.«141671_j53652731461797_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch. -/
abbrev W1 : Dev nD → Valuation τ sig (Elt F) := fun c => StableHlo.after hostOps0 (W0 m c)

/-- The contents pallas_call 0 is entered from, read at the TensorCore's references. -/
abbrev V1 : (c : Dev nD) → (b : Ref sig .tc) → Buf (Elt F) ((c : Thread nD τ).loc b) := fun c b => W1 m c b
/-- What its write-backs leave in its result array. -/
def X0 (c : Dev nD) : Buf (Elt F) ((c : Thread nD τ).loc main_v8) := (dat0 (V1 m) c).arrAt 4 cfg0.N
/-- The contents it is left at: its result array at `X0`, every other buffer as entered (its other arrays are inputs). -/
def W2 (c : Dev nD) : Valuation τ sig (Elt F) := Function.update (W1 m c) main_v8 (X0 m c)
theorem W2_out (c : Dev nD) : W2 m c main_v8 = X0 m c := by unfold W2; exact Function.update_self ..
theorem W2_of_ne (c : Dev nD) (b : Ref sig .tc) (hb : b ≠ main_v8) : W2 m c b = W1 m c b := by
  unfold W2; exact Function.update_of_ne (StableHlo.devRef_ne_of_ne hb) ..
abbrev V2 : (c : Dev nD) → (b : Ref sig .tc) → Buf (Elt F) ((c : Thread nD τ).loc b) := fun c b => W2 m c b

/-- After the second host stretch. -/
abbrev W3 : Dev nD → Valuation τ sig (Elt F) := fun c => StableHlo.after hostOps1 (W2 m c)

/-- The contents pallas_call 1 is entered from, read at the TensorCore's references. -/
abbrev V3 : (c : Dev nD) → (b : Ref sig .tc) → Buf (Elt F) ((c : Thread nD τ).loc b) := fun c b => W3 m c b
/-- What its write-backs leave in its result array. -/
def X1 (c : Dev nD) : Buf (Elt F) ((c : Thread nD τ).loc main_v10) := (dat1 (V3 m) c).arrAt 4 cfg1.N
/-- The contents it is left at: its result array at `X1`, every other buffer as entered (its other arrays are inputs). -/
def W4 (c : Dev nD) : Valuation τ sig (Elt F) := Function.update (W3 m c) main_v10 (X1 m c)
theorem W4_out (c : Dev nD) : W4 m c main_v10 = X1 m c := by unfold W4; exact Function.update_self ..
theorem W4_of_ne (c : Dev nD) (b : Ref sig .tc) (hb : b ≠ main_v10) : W4 m c b = W3 m c b := by
  unfold W4; exact Function.update_of_ne (StableHlo.devRef_ne_of_ne hb) ..
abbrev V4 : (c : Dev nD) → (b : Ref sig .tc) → Buf (Elt F) ((c : Thread nD τ).loc b) := fun c b => W4 m c b

/-- After the third host stretch. -/
abbrev W5 : Dev nD → Valuation τ sig (Elt F) := fun c => StableHlo.after hostOps2 (W4 m c)

/-- The contents pallas_call 2 is entered from, read at the TensorCore's references. -/
abbrev V5 : (c : Dev nD) → (b : Ref sig .tc) → Buf (Elt F) ((c : Thread nD τ).loc b) := fun c b => W5 m c b
/-- What its write-backs leave in its result array. -/
def X2 (c : Dev nD) : Buf (Elt F) ((c : Thread nD τ).loc main_v12) := (dat2 (V5 m) c).arrAt 4 cfg2.N
/-- The contents it is left at: its result array at `X2`, every other buffer as entered (its other arrays are inputs). -/
def W6 (c : Dev nD) : Valuation τ sig (Elt F) := Function.update (W5 m c) main_v12 (X2 m c)
theorem W6_out (c : Dev nD) : W6 m c main_v12 = X2 m c := by unfold W6; exact Function.update_self ..
theorem W6_of_ne (c : Dev nD) (b : Ref sig .tc) (hb : b ≠ main_v12) : W6 m c b = W5 m c b := by
  unfold W6; exact Function.update_of_ne (StableHlo.devRef_ne_of_ne hb) ..
abbrev V6 : (c : Dev nD) → (b : Ref sig .tc) → Buf (Elt F) ((c : Thread nD τ).loc b) := fun c b => W6 m c b

/-- After the last host stretch. -/
abbrev W7 : Dev nD → Valuation τ sig (Elt F) := fun c => StableHlo.after hostOps3 (W6 m c)

/-! ## The proof data family and what rides along -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## Entering and leaving a call: its arrays out of the unscoped buffers and back -/

/-- Call 0's arrays after its run are the exit contents' (its result array what the write-backs left, its inputs as entered). -/
theorem hF0 (c : Dev nD) : ∀ w, (dat0 (V1 m) c).arrAt w cfg0.N = V2 m c (Pipeline.arrRef spec0 w)
  | ⟨0, _⟩ => ((dat0 (V1 m) c).arrAt_in 0 rfl _).trans ((A_eq0 (V1 m) c 0).trans (W2_of_ne m c _ (by decide)).symm)
  | ⟨1, _⟩ => ((dat0 (V1 m) c).arrAt_in 1 rfl _).trans ((A_eq0 (V1 m) c 1).trans (W2_of_ne m c _ (by decide)).symm)
  | ⟨2, _⟩ => ((dat0 (V1 m) c).arrAt_in 2 rfl _).trans ((A_eq0 (V1 m) c 2).trans (W2_of_ne m c _ (by decide)).symm)
  | ⟨3, _⟩ => ((dat0 (V1 m) c).arrAt_in 3 rfl _).trans ((A_eq0 (V1 m) c 3).trans (W2_of_ne m c _ (by decide)).symm)
  | ⟨4, _⟩ => (W2_out m c).symm
/-- Every buffer that is none of call 0's arrays is left as entered. -/
theorem hrest0 (c : Dev nD) : ∀ b, b ∉ Finset.univ.image (Pipeline.arrRef spec0) → V2 m c b = V1 m c b :=
  fun b hb => W2_of_ne m c b fun e => hb (Finset.mem_image.mpr ⟨4, Finset.mem_univ _, e ▸ rfl⟩)

/-- Entering call 0: its arrays split out of the unscoped buffers at the entry contents, the rest beside them. -/
theorem enter0 (c : Dev nD) :
    (StableHlo.held (c : Thread nD τ) (Pipeline.ucRefs τ sig) (W1 m c) : sProp 𝕄)
      ⊢ iprop((pdats m 0 c).arrays ((pdats m 0 c).arrAt · 0) ∗ Pipeline.unscopedRest spec0 c (V1 m c)) := by
  show _ ⊢ iprop((dat0 (V1 m) c).arrays ((dat0 (V1 m) c).arrAt · 0) ∗ Pipeline.unscopedRest spec0 c (V1 m c))
  rw [← Pipeline.unscopedBufs_held c (W1 m c), Pipeline.unscopedBufs_split₀ cfgs 0 (winFacts₀0).arr_unscoped c (V1 m c)]
  exact sep_mono (arrays_of_arrBufs0 c (dat0 (V1 m) c) rfl rfl rfl rfl (V1 m c) _ (fun _ => rfl)) .rfl

/-- Leaving call 0: its arrays at what the run left and the rest as entered are the unscoped buffers at the exit contents. -/
theorem leave0 (c : Dev nD) :
    iprop((pdats m 0 c).arrays ((pdats m 0 c).arrAt · (Pipeline.pin (pcfgs (F := F)) adm 0).N) ∗ Pipeline.unscopedRest spec0 c (V1 m c))
      ⊢ (StableHlo.held (c : Thread nD τ) (Pipeline.ucRefs τ sig) (W2 m c) : sProp 𝕄) := by
  show iprop((dat0 (V1 m) c).arrays ((dat0 (V1 m) c).arrAt · cfg0.N) ∗ Pipeline.unscopedRest spec0 c (V1 m c)) ⊢ _
  rw [← Pipeline.unscopedBufs_held c (W2 m c), Pipeline.unscopedBufs_split₀ cfgs 0 (winFacts₀0).arr_unscoped c (V2 m c)]
  refine sep_mono (arrBufs_of_arrays0 c (dat0 (V1 m) c) rfl rfl rfl rfl (V2 m c) _ (hF0 m c)) (Entails.of_eq ?_)
  unfold Pipeline.unscopedRest
  exact bigSep_congr fun b hb => by rw [hrest0 m c b (Finset.mem_sdiff.mp hb).2]

/-- Call 1's arrays after its run are the exit contents' (its result array what the write-backs left, its inputs as entered). -/
theorem hF1 (c : Dev nD) : ∀ w, (dat1 (V3 m) c).arrAt w cfg1.N = V4 m c (Pipeline.arrRef spec1 w)
  | ⟨0, _⟩ => ((dat1 (V3 m) c).arrAt_in 0 rfl _).trans ((A_eq1 (V3 m) c 0).trans (W4_of_ne m c _ (by decide)).symm)
  | ⟨1, _⟩ => ((dat1 (V3 m) c).arrAt_in 1 rfl _).trans ((A_eq1 (V3 m) c 1).trans (W4_of_ne m c _ (by decide)).symm)
  | ⟨2, _⟩ => ((dat1 (V3 m) c).arrAt_in 2 rfl _).trans ((A_eq1 (V3 m) c 2).trans (W4_of_ne m c _ (by decide)).symm)
  | ⟨3, _⟩ => ((dat1 (V3 m) c).arrAt_in 3 rfl _).trans ((A_eq1 (V3 m) c 3).trans (W4_of_ne m c _ (by decide)).symm)
  | ⟨4, _⟩ => (W4_out m c).symm
/-- Every buffer that is none of call 1's arrays is left as entered. -/
theorem hrest1 (c : Dev nD) : ∀ b, b ∉ Finset.univ.image (Pipeline.arrRef spec1) → V4 m c b = V3 m c b :=
  fun b hb => W4_of_ne m c b fun e => hb (Finset.mem_image.mpr ⟨4, Finset.mem_univ _, e ▸ rfl⟩)

/-- Entering call 1: its arrays split out of the unscoped buffers at the entry contents, the rest beside them. -/
theorem enter1 (c : Dev nD) :
    (StableHlo.held (c : Thread nD τ) (Pipeline.ucRefs τ sig) (W3 m c) : sProp 𝕄)
      ⊢ iprop((pdats m 1 c).arrays ((pdats m 1 c).arrAt · 0) ∗ Pipeline.unscopedRest spec1 c (V3 m c)) := by
  show _ ⊢ iprop((dat1 (V3 m) c).arrays ((dat1 (V3 m) c).arrAt · 0) ∗ Pipeline.unscopedRest spec1 c (V3 m c))
  rw [← Pipeline.unscopedBufs_held c (W3 m c), Pipeline.unscopedBufs_split₀ cfgs 1 (winFacts₀1).arr_unscoped c (V3 m c)]
  exact sep_mono (arrays_of_arrBufs1 c (dat1 (V3 m) c) rfl rfl rfl rfl (V3 m c) _ (fun _ => rfl)) .rfl

/-- Leaving call 1: its arrays at what the run left and the rest as entered are the unscoped buffers at the exit contents. -/
theorem leave1 (c : Dev nD) :
    iprop((pdats m 1 c).arrays ((pdats m 1 c).arrAt · (Pipeline.pin (pcfgs (F := F)) adm 1).N) ∗ Pipeline.unscopedRest spec1 c (V3 m c))
      ⊢ (StableHlo.held (c : Thread nD τ) (Pipeline.ucRefs τ sig) (W4 m c) : sProp 𝕄) := by
  show iprop((dat1 (V3 m) c).arrays ((dat1 (V3 m) c).arrAt · cfg1.N) ∗ Pipeline.unscopedRest spec1 c (V3 m c)) ⊢ _
  rw [← Pipeline.unscopedBufs_held c (W4 m c), Pipeline.unscopedBufs_split₀ cfgs 1 (winFacts₀1).arr_unscoped c (V4 m c)]
  refine sep_mono (arrBufs_of_arrays1 c (dat1 (V3 m) c) rfl rfl rfl rfl (V4 m c) _ (hF1 m c)) (Entails.of_eq ?_)
  unfold Pipeline.unscopedRest
  exact bigSep_congr fun b hb => by rw [hrest1 m c b (Finset.mem_sdiff.mp hb).2]

/-- Call 2's arrays after its run are the exit contents' (its result array what the write-backs left, its inputs as entered). -/
theorem hF2 (c : Dev nD) : ∀ w, (dat2 (V5 m) c).arrAt w cfg2.N = V6 m c (Pipeline.arrRef spec2 w)
  | ⟨0, _⟩ => ((dat2 (V5 m) c).arrAt_in 0 rfl _).trans ((A_eq2 (V5 m) c 0).trans (W6_of_ne m c _ (by decide)).symm)
  | ⟨1, _⟩ => ((dat2 (V5 m) c).arrAt_in 1 rfl _).trans ((A_eq2 (V5 m) c 1).trans (W6_of_ne m c _ (by decide)).symm)
  | ⟨2, _⟩ => ((dat2 (V5 m) c).arrAt_in 2 rfl _).trans ((A_eq2 (V5 m) c 2).trans (W6_of_ne m c _ (by decide)).symm)
  | ⟨3, _⟩ => ((dat2 (V5 m) c).arrAt_in 3 rfl _).trans ((A_eq2 (V5 m) c 3).trans (W6_of_ne m c _ (by decide)).symm)
  | ⟨4, _⟩ => (W6_out m c).symm
/-- Every buffer that is none of call 2's arrays is left as entered. -/
theorem hrest2 (c : Dev nD) : ∀ b, b ∉ Finset.univ.image (Pipeline.arrRef spec2) → V6 m c b = V5 m c b :=
  fun b hb => W6_of_ne m c b fun e => hb (Finset.mem_image.mpr ⟨4, Finset.mem_univ _, e ▸ rfl⟩)

/-- Entering call 2: its arrays split out of the unscoped buffers at the entry contents, the rest beside them. -/
theorem enter2 (c : Dev nD) :
    (StableHlo.held (c : Thread nD τ) (Pipeline.ucRefs τ sig) (W5 m c) : sProp 𝕄)
      ⊢ iprop((pdats m 2 c).arrays ((pdats m 2 c).arrAt · 0) ∗ Pipeline.unscopedRest spec2 c (V5 m c)) := by
  show _ ⊢ iprop((dat2 (V5 m) c).arrays ((dat2 (V5 m) c).arrAt · 0) ∗ Pipeline.unscopedRest spec2 c (V5 m c))
  rw [← Pipeline.unscopedBufs_held c (W5 m c), Pipeline.unscopedBufs_split₀ cfgs 2 (winFacts2.to₀).arr_unscoped c (V5 m c)]
  exact sep_mono (arrays_of_arrBufs2 c (dat2 (V5 m) c) (fun _ => rfl) (V5 m c) _ (fun _ => rfl)) .rfl

/-- Leaving call 2: its arrays at what the run left and the rest as entered are the unscoped buffers at the exit contents. -/
theorem leave2 (c : Dev nD) :
    iprop((pdats m 2 c).arrays ((pdats m 2 c).arrAt · (Pipeline.pin (pcfgs (F := F)) adm 2).N) ∗ Pipeline.unscopedRest spec2 c (V5 m c))
      ⊢ (StableHlo.held (c : Thread nD τ) (Pipeline.ucRefs τ sig) (W6 m c) : sProp 𝕄) := by
  show iprop((dat2 (V5 m) c).arrays ((dat2 (V5 m) c).arrAt · cfg2.N) ∗ Pipeline.unscopedRest spec2 c (V5 m c)) ⊢ _
  rw [← Pipeline.unscopedBufs_held c (W6 m c), Pipeline.unscopedBufs_split₀ cfgs 2 (winFacts2.to₀).arr_unscoped c (V6 m c)]
  refine sep_mono (arrBufs_of_arrays2 c (dat2 (V5 m) c) (fun _ => rfl) (V6 m c) _ (hF2 m c)) (Entails.of_eq ?_)
  unfold Pipeline.unscopedRest
  exact bigSep_congr fun b hb => by rw [hrest2 m c b (Finset.mem_sdiff.mp hb).2]

/-! ## The calls as segments -/

set_option backward.isDefEq.respectTransparency.types false in
/-- Call 0 over the thread state: entered from every unscoped buffer at `W1`, left at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have henter := enter0 m c
    iintro ⟨⟨Hub, Hp, HO⟩, -, -⟩
    ihave H := henter $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave0 m c); isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have henter := enter1 m c
    iintro ⟨⟨Hub, Hp, HO⟩, -, -⟩
    ihave H := henter $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave1 m c); isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at `W5`, left at `W6`. -/
def reg2 : Pipeline.RegionSeg (pcfgs (F := F)) adm (pdats m) () defs₀ 𝒱₀ L lv 2 where
  win := winFacts2.to₀
  block_pos := block_pos2
  stage_whole := stage_whole2
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have henter := enter2 m c
    iintro ⟨⟨Hub, Hp, HO⟩, -, -⟩
    ihave H := henter $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave2 m c); isplitl [Ha] <;> iassumption
    isplitl [HY]; · iexact HY
    unfold Pipeline.Dat.owesAt Pipeline.owesWithin
    icases HO with ⟨%W, -, HO⟩; iexists W; iexact HO

/-- The last host stretch's state is the final one: the buffers and the generator register, beside the core owing nothing. -/
theorem last_chain (c : Dev nD) :
    iprop(StableHlo.held (c : Thread nD τ) (Pipeline.ucRefs τ sig) (W7 m c) ∗ R c)
      ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
theorem main_run (c : Dev nD) : main (F := F) c = Pipeline.Seg.run (segs m) := (main_chain c).trans (by chain_rfl)

set_option backward.isDefEq.respectTransparency.types false in
/-- Every weakly fair execution of @main from memory `m` with zero counters terminates, and in every final memory each
    unscoped TensorCore buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => last_chain m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-! ## The frame -/

/-- An argument array is written by no host stretch and is no call's result, so it holds its launch contents throughout. -/
theorem W7_main_arg0 (c : Dev nD) : W7 m c main_arg0 = m ((c : Thread nD τ).loc main_arg0) :=
  (StableHlo.after_of_writes_sub hostOps3 _ hostOps3_writes (show main_arg0 ∉ hostOps3_W by decide)).trans <|
  (W6_of_ne m c main_arg0 (by decide)).trans <|
  (StableHlo.after_of_writes_sub hostOps2 _ hostOps2_writes (show main_arg0 ∉ hostOps2_W by decide)).trans <|
  (W4_of_ne m c main_arg0 (by decide)).trans <|
  (StableHlo.after_of_writes_sub hostOps1 _ hostOps1_writes (show main_arg0 ∉ hostOps1_W by decide)).trans <|
  (W2_of_ne m c main_arg0 (by decide)).trans <|
  (StableHlo.after_of_writes_sub hostOps0 _ hostOps0_writes (show main_arg0 ∉ hostOps0_W by decide)).trans rfl
theorem W7_main_arg1 (c : Dev nD) : W7 m c main_arg1 = m ((c : Thread nD τ).loc main_arg1) :=
  (StableHlo.after_of_writes_sub hostOps3 _ hostOps3_writes (show main_arg1 ∉ hostOps3_W by decide)).trans <|
  (W6_of_ne m c main_arg1 (by decide)).trans <|
  (StableHlo.after_of_writes_sub hostOps2 _ hostOps2_writes (show main_arg1 ∉ hostOps2_W by decide)).trans <|
  (W4_of_ne m c main_arg1 (by decide)).trans <|
  (StableHlo.after_of_writes_sub hostOps1 _ hostOps1_writes (show main_arg1 ∉ hostOps1_W by decide)).trans <|
  (W2_of_ne m c main_arg1 (by decide)).trans <|
  (StableHlo.after_of_writes_sub hostOps0 _ hostOps0_writes (show main_arg1 ∉ hostOps0_W by decide)).trans rfl

/-- The program runs to the end and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W7_main_arg0 m c), (h c _ (mem_uc main_arg1 (by decide))).trans (W7_main_arg1 m c)⟩) (run_all m ρ)

end Cert.Kernel.Hand

end
-- ==== Proof.KI.Runs.lean ====
/-
  What the runs of the kernel body are stated over: the branch condition and the staging memrefs at a point.

  The body branches on the inner grid coordinate: at its first value the 8 × 128 result block is zeroed, at every
  value the tile's sum is added into the block's corner entry. So there are two cases. In the first the block's
  contents before the body do not matter (the zero store covers it); in the second the block is the one the previous
  point left, and only its corner changes. Each case's run names the stores it makes into the result block as a list
  of pieces, found when the run hands the block to its continuation.
-/
import proofs.«141671_j53652731461797_1_alg».proof.Proof.Gen.KernelIdeal.Launch
import proofs.«141671_j53652731461797_1_alg».proof.Proof.Gen.KernelIdeal.Skeleton
import proofs.«141671_j53652731461797_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch condition -/

/-- The body's condition, from the grid coordinates: the inner coordinate is zero. -/
abbrev cond0 (i : grid0.Coords) : Prop := (Scalar.cmpi .ne (Scalar.extui (Scalar.cmpi .eq (BitVec.ofNat 32 (i 1).val) 0#32)) 0#32) = 1#1
/-- Over the 4 × 8 grid in row-major order it holds at the points divisible by 8. -/
theorem hcond0 : ∀ t : Fin cfg0.N, cond0 (grid0.coords t) ↔ t.val % 8 = 0 :=
  (by decide +kernel : ∀ t : Fin grid0.N, cond0 (grid0.coords t) ↔ t.val % 8 = 0)

/-! ## The staging memrefs at a point -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)

end Cert.KernelIdeal.Hand

end
-- ==== Proof.KI.RunA.lean ====
/-
  The kernel body where the inner grid coordinate is zero: the 8 × 128 result block is zeroed, its corner read back, the tile's sum added.
  The block's contents before the body do not matter.
  The run names the stores made into the result block as a list of pieces, found when the block is handed to the continuation.
-/
import proofs.«141671_j53652731461797_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The inner coordinate is zero: the block is zeroed, then its corner is read back and the tile's sum added. -/
noncomputable def kernelRun0_A (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : cond0 i)
    (x0 : Vec F S1024x2048 .f32) (x1 : Vec F S512x2048 .f32) (x2 : Vec F S1024x1 .f32) (x3 : Vec F S1x512 .f32) :
    { L4 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)) -∗ K ⟨⟩))
          ⊢ wp frame (wpE (defs₀ (F := F)) Variants.none c none) E (cc0__rbf_sum_kernel i arg2 harg2 arg3 harg3 arg4 harg4 arg5 harg5 arg6 harg6) K } := by
  refine ⟨?_, fun E K => ?run⟩
  case run =>
    simp only [cc0__rbf_sum_kernel_eq_skeleton]; unfold cc0__rbf_sum_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KI.RunB.lean ====
/-
  The kernel body where the inner grid coordinate is not zero: the result block holds what the previous point left; its corner is read
  and has the tile's sum added; nothing else of it changes.
  The run names the stores made into the result block as a list of pieces, found when the block is handed to the continuation.
-/
import proofs.«141671_j53652731461797_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The inner coordinate is not zero: the block holds `xo4`, whose corner is read and has the tile's sum added. -/
noncomputable def kernelRun0_B (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : ¬cond0 i)
    (x0 : Vec F S1024x2048 .f32) (x1 : Vec F S512x2048 .f32) (x2 : Vec F S1024x1 .f32) (x3 : Vec F S1x512 .f32) (xo4 : Vec F S8x128 .f32) :
    { L4 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (arg6.view.loc (c : Thread nD τ) ↦[arg6.view.set]{fullShare} arg6.view.writes (Elt F) (harg6.unread xo4) L4)) -∗ K ⟨⟩))
          ⊢ wp frame (wpE (defs₀ (F := F)) Variants.none c none) E (cc0__rbf_sum_kernel i arg2 harg2 arg3 harg3 arg4 harg4 arg5 harg5 arg6 harg6) K } := by
  refine ⟨?_, fun E K => ?run⟩
  case run =>
    simp only [cc0__rbf_sum_kernel_eq_skeleton]; unfold cc0__rbf_sum_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexact H4

end Cert.KernelIdeal.Hand

end
-- ==== Proof.KI.Region0.lean ====
/-
  pallas_call 0 as a pipeline: its proof data and the body obligation, at the contents `V` the region is entered from.

  A grid point t = 8·i + j handles the tile of rows 1024·i … and columns 512·j …. The four input windows hold their
  blocks of the arrays whether or not they were fetched at the point (an unfetched window's index has not moved).
  The result window's block index depends on i only, so its staging buffer is carried through the eight points of a
  row of tiles and written back after the last: at j = 0 the body zeroes it and adds the tile's sum into the corner;
  at j > 0 it holds what the point before left and the corner grows by the tile's sum. `outsAt0` is that
  recursion; the proof data's `after` for the result window is `outsAt0`, for an input window its block.
-/
import proofs.«141671_j53652731461797_1_alg».proof.Proof.KI.RunA
import proofs.«141671_j53652731461797_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the result block -/

/-- One staging buffer of the result window, through which block contents are stated (the choice does not matter). -/
abbrev VO0 : Memref sig .tc .vmem S8x128 .f32 := (Memref.whole cc0_stg4_0 : Memref sig .tc .vmem S8x128 .f32)
theorem hVO0 : (VO0).IsWhole := Memref.isWhole_whole _

/-- The first case's stores tile the block, so they cover it. -/
theorem cover0_A (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : cond0 i)
    (x0 : Vec F S1024x2048 .f32) (x1 : Vec F S512x2048 .f32) (x2 : Vec F S1024x1 .f32) (x3 : Vec F S1x512 .f32) (y : S8x128.Idx) :
    ∃ pc ∈ (kernelRun0_A c i arg2 harg2 arg3 harg3 arg4 harg4 arg5 harg5 arg6 harg6 hc0 x0 x1 x2 x3).1, y ∈ pc.1.set :=
  View.cover_of_tiledL (kernelRun0_A c i arg2 harg2 arg3 harg3 arg4 harg4 arg5 harg5 arg6 harg6 hc0 x0 x1 x2 x3).1 S8x128.size (by sl_kernel_rfl) y

/-- What the first case leaves in the block: its stores read back (over anything). -/
def out0_A (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : cond0 i)
    (x0 : Vec F S1024x2048 .f32) (x1 : Vec F S512x2048 .f32) (x2 : Vec F S1024x1 .f32) (x3 : Vec F S1x512 .f32) : Vec F S8x128 .f32 :=
  (VO0).view.read (Elt F) ((VO0).view.writes (Elt F) (VO0).view.junk (kernelRun0_A c i arg2 harg2 arg3 harg3 arg4 harg4 arg5 harg5 arg6 harg6 hc0 x0 x1 x2 x3).1)

/-- What the second case leaves in the block: its one store read back over the block `xo4` it found. -/
def out0_B (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : ¬cond0 i)
    (x0 : Vec F S1024x2048 .f32) (x1 : Vec F S512x2048 .f32) (x2 : Vec F S1024x1 .f32) (x3 : Vec F S1x512 .f32) (xo4 : Vec F S8x128 .f32) : Vec F S8x128 .f32 :=
  (VO0).view.read (Elt F) ((VO0).view.writes (Elt F) (hVO0.unread xo4) (kernelRun0_B c i arg2 harg2 arg3 harg3 arg4 harg4 arg5 harg5 arg6 harg6 hc0 x0 x1 x2 x3 xo4).1)

/-- Stores over known contents of a whole buffer read back the same through any whole buffer of the shape: a covered
    element reads the covering store's payload, an uncovered one the contents it had. -/
theorem read_writes_unread_whole0 {m m' : Memref sig .tc .vmem S8x128 .f32} (hm : m.IsWhole) (hm' : m'.IsWhole)
    (x : Vec F S8x128 .f32) (L : List (View.Piece (Elt F) S8x128 .f32)) :
    m.view.read (Elt F) (m.view.writes (Elt F) (hm.unread x) L) = m'.view.read (Elt F) (m'.view.writes (Elt F) (hm'.unread x) L) := by
  funext y
  by_cases h : ∃ p ∈ L, y ∈ p.1.set
  · exact View.read_writes_apply_eq _ _ _ _ y L h
  · have hn : ∀ p ∈ L, y ∉ p.1.set := fun p hp hy => h ⟨p, hp, hy⟩
    rw [View.read_writes_apply_of_forall_not_mem _ _ y L hn, View.read_writes_apply_of_forall_not_mem _ _ y L hn,
      hm.read_unread, hm'.read_unread]

/-! ## The accumulation over the points -/

/-- What the result window's staging buffer holds after the body at position `n`. -/
def outsAt0 (c : Dev nD) : (n : ℕ) → n < cfg0.N → Vec F S8x128 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩)
      ((hcond0 ⟨0, hn⟩).mpr (Nat.zero_mod _)) (iblk0 V c 0 ⟨0, hn⟩) (iblk0 V c 1 ⟨0, hn⟩) (iblk0 V c 2 ⟨0, hn⟩) (iblk0 V c 3 ⟨0, hn⟩)
  | n + 1, hn =>
    if h0 : (n + 1) % 8 = 0 then
      out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩)
        ((hcond0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩)
    else
      out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩)
        (fun h => h0 ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩)
        (outsAt0 c n (Nat.lt_of_succ_lt hn))

theorem outsAt0_A (c : Dev nD) (t : Fin cfg0.N) (h0 : t.val % 8 = 0) :
    outsAt0 V c t.val t.isLt = out0_A c (grid0.coords t) (ms0_0 t) (hs0_0 t) (ms0_1 t) (hs0_1 t) (ms0_2 t) (hs0_2 t) (ms0_3 t) (hs0_3 t) (ms0_4 t) (hs0_4 t)
      ((hcond0 t).mpr h0) (iblk0 V c 0 t) (iblk0 V c 1 t) (iblk0 V c 2 t) (iblk0 V c 3 t) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = out0_B c (grid0.coords t) (ms0_0 t) (hs0_0 t) (ms0_1 t) (hs0_1 t) (ms0_2 t) (hs0_2 t) (ms0_3 t) (hs0_3 t) (ms0_4 t) (hs0_4 t)
      (fun h => h0 ((hcond0 t).mp h)) (iblk0 V c 0 t) (iblk0 V c 1 t) (iblk0 V c 2 t) (iblk0 V c 3 t)
      (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The proof data of pipeline 0 on core `c`. The two windows that read one array each hold it at half the share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outsAt0 V c t.val t.isLt
  Φ _ := Pipeline.ΦA spec0 c
  q w := (match w with | ⟨0, _⟩ => fullShare.left | ⟨1, _⟩ => fullShare.right | _ => fullShare)
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- At a point with j > 0 the result window's staging buffer holds what the body left at the point before: the point
    is not the first and the buffer was not written back between (write-backs follow the points with j = 7). -/
theorem before0_4_B (c : Dev nD) (t : Fin cfg0.N) (h0 : ¬t.val % 8 = 0) (d) :
    (dat0 V c).before 4 t d = outsAt0 V c (t.val - 1) (Nat.lt_of_le_of_lt (Nat.sub_le _ _) t.isLt) := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1600000 in
/-- The body at any point: the inputs' memrefs hold their blocks; the closed form of the condition says which case the
    point is in; at j > 0 the result block is what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val % 8 = 0
  · rw [outsAt0_A V c t h0]
    unfold out0_A
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0 t).mpr h0) (iblk0 V c 0 t) (iblk0 V c 1 t) (iblk0 V c 2 t) (iblk0 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A c _ _ _ _ _ _ _ _ _ _ _ _ _ _ _ _)
  · rw [outsAt0_B V c t h0]
    simp only [before0_4_B V c t h0]
    unfold out0_B
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0 t).mp h)) (iblk0 V c 0 t) (iblk0 V c 1 t) (iblk0 V c 2 t) (iblk0 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact read_writes_unread_whole0 (hs0_4 t) hVO0 _ _

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  pallas_call 1 as a pipeline: its proof data and the body obligation, at the contents `V` the region is entered from.

  A grid point t = 8·i + j handles the tile of rows 1024·i … and columns 512·j …. The four input windows hold their
  blocks of the arrays whether or not they were fetched at the point (an unfetched window's index has not moved).
  The result window's block index depends on i only, so its staging buffer is carried through the eight points of a
  row of tiles and written back after the last: at j = 0 the body zeroes it and adds the tile's sum into the corner;
  at j > 0 it holds what the point before left and the corner grows by the tile's sum. `outsAt1` is that
  recursion; the proof data's `after` for the result window is `outsAt1`, for an input window its block.
-/
import proofs.«141671_j53652731461797_1_alg».proof.Proof.KI.RunA
import proofs.«141671_j53652731461797_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## This call's body is the first call's

The three pallas_calls run one kernel function on grids of one shape; the printed copies are the same term. -/

set_option maxRecDepth 65536 in
theorem cc1_eq_cc0 : @cc1__rbf_sum_kernel F _ _ = @cc0__rbf_sum_kernel F _ _ := rfl

/-- The branch condition over this call's grid: it holds at the points divisible by 8. -/
theorem hcondX1 : ∀ t : Fin cfg1.N, cond0 (grid1.coords t) ↔ t.val % 8 = 0 :=
  (by decide +kernel : ∀ t : Fin grid1.N, cond0 (grid1.coords t) ↔ t.val % 8 = 0)

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x128 .f32 := win1_4.stage (cfg1.slots t 4)
abbrev hs1_4 (t : Fin cfg1.N) : (ms1_4 t).IsWhole := hstage1_4 ((cfg1.slots t 4).cast nbuf1_4)

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the result block -/

/-- One staging buffer of the result window, through which block contents are stated (the choice does not matter). -/
abbrev VO1 : Memref sig .tc .vmem S8x128 .f32 := (Memref.whole cc1_stg4_0 : Memref sig .tc .vmem S8x128 .f32)
theorem hVO1 : (VO1).IsWhole := Memref.isWhole_whole _

/-- The first case's stores tile the block, so they cover it. -/
theorem cover1_A (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : cond0 i)
    (x0 : Vec F S1024x2048 .f32) (x1 : Vec F S512x2048 .f32) (x2 : Vec F S1024x1 .f32) (x3 : Vec F S1x512 .f32) (y : S8x128.Idx) :
    ∃ pc ∈ (kernelRun0_A c i arg2 harg2 arg3 harg3 arg4 harg4 arg5 harg5 arg6 harg6 hc0 x0 x1 x2 x3).1, y ∈ pc.1.set :=
  View.cover_of_tiledL (kernelRun0_A c i arg2 harg2 arg3 harg3 arg4 harg4 arg5 harg5 arg6 harg6 hc0 x0 x1 x2 x3).1 S8x128.size (by sl_kernel_rfl) y

/-- What the first case leaves in the block: its stores read back (over anything). -/
def out1_A (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : cond0 i)
    (x0 : Vec F S1024x2048 .f32) (x1 : Vec F S512x2048 .f32) (x2 : Vec F S1024x1 .f32) (x3 : Vec F S1x512 .f32) : Vec F S8x128 .f32 :=
  (VO1).view.read (Elt F) ((VO1).view.writes (Elt F) (VO1).view.junk (kernelRun0_A c i arg2 harg2 arg3 harg3 arg4 harg4 arg5 harg5 arg6 harg6 hc0 x0 x1 x2 x3).1)

/-- What the second case leaves in the block: its one store read back over the block `xo4` it found. -/
def out1_B (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : ¬cond0 i)
    (x0 : Vec F S1024x2048 .f32) (x1 : Vec F S512x2048 .f32) (x2 : Vec F S1024x1 .f32) (x3 : Vec F S1x512 .f32) (xo4 : Vec F S8x128 .f32) : Vec F S8x128 .f32 :=
  (VO1).view.read (Elt F) ((VO1).view.writes (Elt F) (hVO1.unread xo4) (kernelRun0_B c i arg2 harg2 arg3 harg3 arg4 harg4 arg5 harg5 arg6 harg6 hc0 x0 x1 x2 x3 xo4).1)

/-- Stores over known contents of a whole buffer read back the same through any whole buffer of the shape: a covered
    element reads the covering store's payload, an uncovered one the contents it had. -/
theorem read_writes_unread_whole1 {m m' : Memref sig .tc .vmem S8x128 .f32} (hm : m.IsWhole) (hm' : m'.IsWhole)
    (x : Vec F S8x128 .f32) (L : List (View.Piece (Elt F) S8x128 .f32)) :
    m.view.read (Elt F) (m.view.writes (Elt F) (hm.unread x) L) = m'.view.read (Elt F) (m'.view.writes (Elt F) (hm'.unread x) L) := by
  funext y
  by_cases h : ∃ p ∈ L, y ∈ p.1.set
  · exact View.read_writes_apply_eq _ _ _ _ y L h
  · have hn : ∀ p ∈ L, y ∉ p.1.set := fun p hp hy => h ⟨p, hp, hy⟩
    rw [View.read_writes_apply_of_forall_not_mem _ _ y L hn, View.read_writes_apply_of_forall_not_mem _ _ y L hn,
      hm.read_unread, hm'.read_unread]

/-! ## The accumulation over the points -/

/-- What the result window's staging buffer holds after the body at position `n`. -/
def outsAt1 (c : Dev nD) : (n : ℕ) → n < cfg1.N → Vec F S8x128 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩)
      ((hcondX1 ⟨0, hn⟩).mpr (Nat.zero_mod _)) (iblk1 V c 0 ⟨0, hn⟩) (iblk1 V c 1 ⟨0, hn⟩) (iblk1 V c 2 ⟨0, hn⟩) (iblk1 V c 3 ⟨0, hn⟩)
  | n + 1, hn =>
    if h0 : (n + 1) % 8 = 0 then
      out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩)
        ((hcondX1 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩)
        (fun h => h0 ((hcondX1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)
        (outsAt1 c n (Nat.lt_of_succ_lt hn))

theorem outsAt1_A (c : Dev nD) (t : Fin cfg1.N) (h0 : t.val % 8 = 0) :
    outsAt1 V c t.val t.isLt = out1_A c (grid1.coords t) (ms1_0 t) (hs1_0 t) (ms1_1 t) (hs1_1 t) (ms1_2 t) (hs1_2 t) (ms1_3 t) (hs1_3 t) (ms1_4 t) (hs1_4 t)
      ((hcondX1 t).mpr h0) (iblk1 V c 0 t) (iblk1 V c 1 t) (iblk1 V c 2 t) (iblk1 V c 3 t) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = out1_B c (grid1.coords t) (ms1_0 t) (hs1_0 t) (ms1_1 t) (hs1_1 t) (ms1_2 t) (hs1_2 t) (ms1_3 t) (hs1_3 t) (ms1_4 t) (hs1_4 t)
      (fun h => h0 ((hcondX1 t).mp h)) (iblk1 V c 0 t) (iblk1 V c 1 t) (iblk1 V c 2 t) (iblk1 V c 3 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The proof data of pipeline 1 on core `c`. The two windows that read one array each hold it at half the share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q w := (match w with | ⟨0, _⟩ => fullShare.left | ⟨1, _⟩ => fullShare.right | _ => fullShare)
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a point with j > 0 the result window's staging buffer holds what the body left at the point before: the point
    is not the first and the buffer was not written back between (write-backs follow the points with j = 7). -/
theorem before1_4_B (c : Dev nD) (t : Fin cfg1.N) (h0 : ¬t.val % 8 = 0) (d) :
    (dat1 V c).before 4 t d = outsAt1 V c (t.val - 1) (Nat.lt_of_le_of_lt (Nat.sub_le _ _) t.isLt) := by
  have hN : t.val < 32 := lt_of_lt_of_eq t.isLt (show cfg1.N = 32 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
/-- The body at any point: the inputs' memrefs hold their blocks; the closed form of the condition says which case the
    point is in; at j > 0 the result block is what the point before left; so the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [cc1_eq_cc0]
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val % 8 = 0
  · rw [outsAt1_A V c t h0]
    unfold out1_A
    iintro ⟨HΦ, Ho, ⟨%d0, H0⟩, ⟨%d1, H1⟩, ⟨%d2, H2⟩, ⟨%d3, H3⟩, ⟨%d4, H4⟩⟩
    iapply ((kernelRun0_A c (grid1.coords t) _ _ _ _ _ _ _ _ _ _ ((hcondX1 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A c _ _ _ _ _ _ _ _ _ _ _ _ _ _ _ _)
  · rw [outsAt1_B V c t h0]
    simp only [before1_4_B V c t h0]
    unfold out1_B
    iintro ⟨HΦ, Ho, ⟨%d0, H0⟩, ⟨%d1, H1⟩, ⟨%d2, H2⟩, ⟨%d3, H3⟩, ⟨%d4, H4⟩⟩
    iapply ((kernelRun0_B c (grid1.coords t) _ _ _ _ _ _ _ _ _ _ (fun h => h0 ((hcondX1 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact read_writes_unread_whole1 (hs1_4 t) hVO1 _ _

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  pallas_call 2 as a pipeline: its proof data and the body obligation, at the contents `V` the region is entered from.

  A grid point t = 8·i + j handles the tile of rows 1024·i … and columns 512·j …. The four input windows hold their
  blocks of the arrays whether or not they were fetched at the point (an unfetched window's index has not moved).
  The result window's block index depends on i only, so its staging buffer is carried through the eight points of a
  row of tiles and written back after the last: at j = 0 the body zeroes it and adds the tile's sum into the corner;
  at j > 0 it holds what the point before left and the corner grows by the tile's sum. `outsAt2` is that
  recursion; the proof data's `after` for the result window is `outsAt2`, for an input window its block.
-/
import proofs.«141671_j53652731461797_1_alg».proof.Proof.KI.RunA
import proofs.«141671_j53652731461797_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## This call's body is the first call's

The three pallas_calls run one kernel function on grids of one shape; the printed copies are the same term. -/

set_option maxRecDepth 65536 in
theorem cc2_eq_cc0 : @cc2__rbf_sum_kernel F _ _ = @cc0__rbf_sum_kernel F _ _ := rfl

/-- The branch condition over this call's grid: it holds at the points divisible by 8. -/
theorem hcondX2 : ∀ t : Fin cfg2.N, cond0 (grid2.coords t) ↔ t.val % 8 = 0 :=
  (by decide +kernel : ∀ t : Fin grid2.N, cond0 (grid2.coords t) ↔ t.val % 8 = 0)

abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S8x128 .f32 := win2_4.stage (cfg2.slots t 4)
abbrev hs2_4 (t : Fin cfg2.N) : (ms2_4 t).IsWhole := hstage2_4 ((cfg2.slots t 4).cast nbuf2_4)

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the result block -/

/-- One staging buffer of the result window, through which block contents are stated (the choice does not matter). -/
abbrev VO2 : Memref sig .tc .vmem S8x128 .f32 := (Memref.whole cc2_stg4_0 : Memref sig .tc .vmem S8x128 .f32)
theorem hVO2 : (VO2).IsWhole := Memref.isWhole_whole _

/-- The first case's stores tile the block, so they cover it. -/
theorem cover2_A (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : cond0 i)
    (x0 : Vec F S1024x2048 .f32) (x1 : Vec F S512x2048 .f32) (x2 : Vec F S1024x1 .f32) (x3 : Vec F S1x512 .f32) (y : S8x128.Idx) :
    ∃ pc ∈ (kernelRun0_A c i arg2 harg2 arg3 harg3 arg4 harg4 arg5 harg5 arg6 harg6 hc0 x0 x1 x2 x3).1, y ∈ pc.1.set :=
  View.cover_of_tiledL (kernelRun0_A c i arg2 harg2 arg3 harg3 arg4 harg4 arg5 harg5 arg6 harg6 hc0 x0 x1 x2 x3).1 S8x128.size (by sl_kernel_rfl) y

/-- What the first case leaves in the block: its stores read back (over anything). -/
def out2_A (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : cond0 i)
    (x0 : Vec F S1024x2048 .f32) (x1 : Vec F S512x2048 .f32) (x2 : Vec F S1024x1 .f32) (x3 : Vec F S1x512 .f32) : Vec F S8x128 .f32 :=
  (VO2).view.read (Elt F) ((VO2).view.writes (Elt F) (VO2).view.junk (kernelRun0_A c i arg2 harg2 arg3 harg3 arg4 harg4 arg5 harg5 arg6 harg6 hc0 x0 x1 x2 x3).1)

/-- What the second case leaves in the block: its one store read back over the block `xo4` it found. -/
def out2_B (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : ¬cond0 i)
    (x0 : Vec F S1024x2048 .f32) (x1 : Vec F S512x2048 .f32) (x2 : Vec F S1024x1 .f32) (x3 : Vec F S1x512 .f32) (xo4 : Vec F S8x128 .f32) : Vec F S8x128 .f32 :=
  (VO2).view.read (Elt F) ((VO2).view.writes (Elt F) (hVO2.unread xo4) (kernelRun0_B c i arg2 harg2 arg3 harg3 arg4 harg4 arg5 harg5 arg6 harg6 hc0 x0 x1 x2 x3 xo4).1)

/-- Stores over known contents of a whole buffer read back the same through any whole buffer of the shape: a covered
    element reads the covering store's payload, an uncovered one the contents it had. -/
theorem read_writes_unread_whole2 {m m' : Memref sig .tc .vmem S8x128 .f32} (hm : m.IsWhole) (hm' : m'.IsWhole)
    (x : Vec F S8x128 .f32) (L : List (View.Piece (Elt F) S8x128 .f32)) :
    m.view.read (Elt F) (m.view.writes (Elt F) (hm.unread x) L) = m'.view.read (Elt F) (m'.view.writes (Elt F) (hm'.unread x) L) := by
  funext y
  by_cases h : ∃ p ∈ L, y ∈ p.1.set
  · exact View.read_writes_apply_eq _ _ _ _ y L h
  · have hn : ∀ p ∈ L, y ∉ p.1.set := fun p hp hy => h ⟨p, hp, hy⟩
    rw [View.read_writes_apply_of_forall_not_mem _ _ y L hn, View.read_writes_apply_of_forall_not_mem _ _ y L hn,
      hm.read_unread, hm'.read_unread]

/-! ## The accumulation over the points -/

/-- What the result window's staging buffer holds after the body at position `n`. -/
def outsAt2 (c : Dev nD) : (n : ℕ) → n < cfg2.N → Vec F S8x128 .f32
  | 0, hn => out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩)
      ((hcondX2 ⟨0, hn⟩).mpr (Nat.zero_mod _)) (iblk2 V c 0 ⟨0, hn⟩) (iblk2 V c 1 ⟨0, hn⟩) (iblk2 V c 2 ⟨0, hn⟩) (iblk2 V c 3 ⟨0, hn⟩)
  | n + 1, hn =>
    if h0 : (n + 1) % 8 = 0 then
      out2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩)
        ((hcondX2 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩)
    else
      out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩)
        (fun h => h0 ((hcondX2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩)
        (outsAt2 c n (Nat.lt_of_succ_lt hn))

theorem outsAt2_A (c : Dev nD) (t : Fin cfg2.N) (h0 : t.val % 8 = 0) :
    outsAt2 V c t.val t.isLt = out2_A c (grid2.coords t) (ms2_0 t) (hs2_0 t) (ms2_1 t) (hs2_1 t) (ms2_2 t) (hs2_2 t) (ms2_3 t) (hs2_3 t) (ms2_4 t) (hs2_4 t)
      ((hcondX2 t).mpr h0) (iblk2 V c 0 t) (iblk2 V c 1 t) (iblk2 V c 2 t) (iblk2 V c 3 t) := by
  obtain ⟨n, hn⟩ := t
  cases n with
  | zero => exact rfl
  | succ n => exact (dif_pos h0).trans rfl

theorem outsAt2_B (c : Dev nD) (t : Fin cfg2.N) (h0 : ¬t.val % 8 = 0) :
    outsAt2 V c t.val t.isLt = out2_B c (grid2.coords t) (ms2_0 t) (hs2_0 t) (ms2_1 t) (hs2_1 t) (ms2_2 t) (hs2_2 t) (ms2_3 t) (hs2_3 t) (ms2_4 t) (hs2_4 t)
      (fun h => h0 ((hcondX2 t).mp h)) (iblk2 V c 0 t) (iblk2 V c 1 t) (iblk2 V c 2 t) (iblk2 V c 3 t)
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The proof data of pipeline 2 on core `c`. The two windows that read one array each hold it at half the share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outsAt2 V c t.val t.isLt
  Φ _ := Pipeline.ΦA spec2 c
  q w := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outsAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- At a point with j > 0 the result window's staging buffer holds what the body left at the point before: the point
    is not the first and the buffer was not written back between (write-backs follow the points with j = 7). -/
theorem before2_4_B (c : Dev nD) (t : Fin cfg2.N) (h0 : ¬t.val % 8 = 0) (d) :
    (dat2 V c).before 4 t d = outsAt2 V c (t.val - 1) (Nat.lt_of_le_of_lt (Nat.sub_le _ _) t.isLt) := by
  have hN : t.val < 32 := lt_of_lt_of_eq t.isLt (show cfg2.N = 32 from N_2)
  rw [Dat.before_out_kept _ 4 rfl t (by omega) (Bool.eq_false_iff.mpr fun h => by have := (flush2_4 _).mp h; dsimp only at this; omega)
    (fun _ => rfl) (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 1600000 in
/-- The body at any point: the inputs' memrefs hold their blocks; the closed form of the condition says which case the
    point is in; at j > 0 the result block is what the point before left; so the case's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [cc2_eq_cc0]
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  by_cases h0 : t.val % 8 = 0
  · rw [outsAt2_A V c t h0]
    unfold out2_A
    iintro ⟨HΦ, Ho, ⟨%d0, H0⟩, ⟨%d1, H1⟩, ⟨%d2, H2⟩, ⟨%d3, H3⟩, ⟨%d4, H4⟩⟩
    iapply ((kernelRun0_A c (grid2.coords t) _ _ _ _ _ _ _ _ _ _ ((hcondX2 t).mpr h0) (iblk2 V c 0 t) (iblk2 V c 1 t) (iblk2 V c 2 t) (iblk2 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_A c _ _ _ _ _ _ _ _ _ _ _ _ _ _ _ _)
  · rw [outsAt2_B V c t h0]
    simp only [before2_4_B V c t h0]
    unfold out2_B
    iintro ⟨HΦ, Ho, ⟨%d0, H0⟩, ⟨%d1, H1⟩, ⟨%d2, H2⟩, ⟨%d3, H3⟩, ⟨%d4, H4⟩⟩
    iapply ((kernelRun0_B c (grid2.coords t) _ _ _ _ _ _ _ _ _ _ (fun h => h0 ((hcondX2 t).mp h)) (iblk2 V c 0 t) (iblk2 V c 1 t) (iblk2 V c 2 t) (iblk2 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact read_writes_unread_whole2 (hs2_4 t) hVO2 _ _

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Arrays.lean ====
/-
  The arrays of the three pipelines, as separation-logic entailments.

  A pipeline's windows each hold their array; the launch hands the pipeline the DISTINCT buffers behind those arrays,
  each whole at the full share. In the first two calls two input windows read one array, so the five windows stand on
  four buffers: the shared buffer's full share is the composite of its two halves, one half for each of the two
  windows, and the other windows hold their buffers at the full share. In the third call the five arrays are five
  buffers and the two sides are the same conjunction re-indexed.
-/
import proofs.«141671_j53652731461797_1_alg».proof.Proof.Gen.KernelIdeal.Launch
import Idealize.ShloMosaic.Lib.Pipeline.Frame
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Call 0: windows 0 and 1 both read `main_arg0` -/

/-- The buffers behind call 0's arrays are four: the shared input, the two row-norm inputs and the output. -/
theorem arrBufs0_eq (c : Dev nD) (V : (b : Ref sig .tc) → Buf (Elt F) ((c : Thread nD τ).loc b)) :
    (Pipeline.arrBufs spec0 c V : sProp 𝕄)
      = iprop((((c : Thread nD τ).loc main_arg0) ↦{fullShare} V main_arg0) ∗ (((c : Thread nD τ).loc main_v4) ↦{fullShare} V main_v4)
          ∗ (((c : Thread nD τ).loc main_v5) ↦{fullShare} V main_v5) ∗ (((c : Thread nD τ).loc main_v8) ↦{fullShare} V main_v8)) :=
  bigSep_eq_bigSepL_of_eq [main_arg0, main_v4, main_v5, main_v8] (by decide) (by decide) _

/-- Call 0's five windows one by one, each a whole buffer: the shared input once at each half of the full share,
    the other two inputs and the output at the full share. -/
theorem arrays0_eq (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (Fa : (w : Fin cfg0.W) → Buf (Elt F) ((cfg0.win w).arr.view.loc (c : Thread nD τ))) (hF : ∀ w, Fa w = V (Pipeline.arrRef spec0 w)) :
    (dat.arrays Fa : sProp 𝕄)
      = iprop((((c : Thread nD τ).loc main_arg0) ↦{fullShare.left} V main_arg0) ∗ (((c : Thread nD τ).loc main_arg0) ↦{fullShare.right} V main_arg0)
          ∗ (((c : Thread nD τ).loc main_v4) ↦{fullShare} V main_v4) ∗ (((c : Thread nD τ).loc main_v5) ↦{fullShare} V main_v5)
          ∗ (((c : Thread nD τ).loc main_v8) ↦{fullShare} V main_v8)) := by
  have s0 : dat.share 0 = fullShare.left := by unfold Dat.share; rw [if_neg (by decide)]; exact hq0
  have s1 : dat.share 1 = fullShare.right := by unfold Dat.share; rw [if_neg (by decide)]; exact hq1
  have s2 : dat.share 2 = fullShare := by unfold Dat.share; rw [if_neg (by decide)]; exact hq2
  have s3 : dat.share 3 = fullShare := by unfold Dat.share; rw [if_neg (by decide)]; exact hq3
  have s4 : dat.share 4 = fullShare := by unfold Dat.share; rw [if_pos (by decide)]
  unfold Dat.arrays
  rw [bigSep_W0, (arr_whole0 0).set_eq_univ, (arr_whole0 2).set_eq_univ, (arr_whole0 3).set_eq_univ,
    (arr_whole0 4).set_eq_univ, s0, s1, s2, s3, s4, hF 0, hF 1, hF 2, hF 3, hF 4]

/-- The distinct buffers at the full share give the windows' arrays: the shared input's full share is split into its halves. -/
theorem arrays_of_arrBufs0 (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (Fa : (w : Fin cfg0.W) → Buf (Elt F) ((cfg0.win w).arr.view.loc (c : Thread nD τ))) (hF : ∀ w, Fa w = V (Pipeline.arrRef spec0 w)) :
    (Pipeline.arrBufs spec0 c V : sProp 𝕄) ⊢ dat.arrays Fa := by
  rw [arrBufs0_eq, arrays0_eq c dat hq0 hq1 hq2 hq3 V Fa hF]
  exact (Laws.sep_mono_left (pointsTo_share (PosShare.mem_left_op_right fullShare)).1).trans Laws.sep_assoc.1

/-- The windows' arrays give back the distinct buffers at the full share: the two halves of the shared input, at one
    contents, are joined. -/
theorem arrBufs_of_arrays0 (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (Fa : (w : Fin cfg0.W) → Buf (Elt F) ((cfg0.win w).arr.view.loc (c : Thread nD τ))) (hF : ∀ w, Fa w = V (Pipeline.arrRef spec0 w)) :
    (dat.arrays Fa : sProp 𝕄) ⊢ Pipeline.arrBufs spec0 c V := by
  rw [arrBufs0_eq, arrays0_eq c dat hq0 hq1 hq2 hq3 V Fa hF]
  exact Laws.sep_assoc.2.trans (Laws.sep_mono_left (pointsTo_share (PosShare.mem_left_op_right fullShare)).2)

/-! ## Call 1: windows 0 and 1 both read `main_arg1` -/

/-- The buffers behind call 1's arrays are four: the shared input, the two row-norm inputs and the output. -/
theorem arrBufs1_eq (c : Dev nD) (V : (b : Ref sig .tc) → Buf (Elt F) ((c : Thread nD τ).loc b)) :
    (Pipeline.arrBufs spec1 c V : sProp 𝕄)
      = iprop((((c : Thread nD τ).loc main_arg1) ↦{fullShare} V main_arg1) ∗ (((c : Thread nD τ).loc main_v6) ↦{fullShare} V main_v6)
          ∗ (((c : Thread nD τ).loc main_v7) ↦{fullShare} V main_v7) ∗ (((c : Thread nD τ).loc main_v10) ↦{fullShare} V main_v10)) :=
  bigSep_eq_bigSepL_of_eq [main_arg1, main_v6, main_v7, main_v10] (by decide) (by decide) _

/-- Call 1's five windows one by one, each a whole buffer: the shared input once at each half of the full share,
    the other two inputs and the output at the full share. -/
theorem arrays1_eq (c : Dev nD) (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (Fa : (w : Fin cfg1.W) → Buf (Elt F) ((cfg1.win w).arr.view.loc (c : Thread nD τ))) (hF : ∀ w, Fa w = V (Pipeline.arrRef spec1 w)) :
    (dat.arrays Fa : sProp 𝕄)
      = iprop((((c : Thread nD τ).loc main_arg1) ↦{fullShare.left} V main_arg1) ∗ (((c : Thread nD τ).loc main_arg1) ↦{fullShare.right} V main_arg1)
          ∗ (((c : Thread nD τ).loc main_v6) ↦{fullShare} V main_v6) ∗ (((c : Thread nD τ).loc main_v7) ↦{fullShare} V main_v7)
          ∗ (((c : Thread nD τ).loc main_v10) ↦{fullShare} V main_v10)) := by
  have s0 : dat.share 0 = fullShare.left := by unfold Dat.share; rw [if_neg (by decide)]; exact hq0
  have s1 : dat.share 1 = fullShare.right := by unfold Dat.share; rw [if_neg (by decide)]; exact hq1
  have s2 : dat.share 2 = fullShare := by unfold Dat.share; rw [if_neg (by decide)]; exact hq2
  have s3 : dat.share 3 = fullShare := by unfold Dat.share; rw [if_neg (by decide)]; exact hq3
  have s4 : dat.share 4 = fullShare := by unfold Dat.share; rw [if_pos (by decide)]
  unfold Dat.arrays
  rw [bigSep_W1, (arr_whole1 0).set_eq_univ, (arr_whole1 2).set_eq_univ, (arr_whole1 3).set_eq_univ,
    (arr_whole1 4).set_eq_univ, s0, s1, s2, s3, s4, hF 0, hF 1, hF 2, hF 3, hF 4]

/-- The distinct buffers at the full share give the windows' arrays: the shared input's full share is split into its halves. -/
theorem arrays_of_arrBufs1 (c : Dev nD) (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (Fa : (w : Fin cfg1.W) → Buf (Elt F) ((cfg1.win w).arr.view.loc (c : Thread nD τ))) (hF : ∀ w, Fa w = V (Pipeline.arrRef spec1 w)) :
    (Pipeline.arrBufs spec1 c V : sProp 𝕄) ⊢ dat.arrays Fa := by
  rw [arrBufs1_eq, arrays1_eq c dat hq0 hq1 hq2 hq3 V Fa hF]
  exact (Laws.sep_mono_left (pointsTo_share (PosShare.mem_left_op_right fullShare)).1).trans Laws.sep_assoc.1

/-- The windows' arrays give back the distinct buffers at the full share: the two halves of the shared input, at one
    contents, are joined. -/
theorem arrBufs_of_arrays1 (c : Dev nD) (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (Fa : (w : Fin cfg1.W) → Buf (Elt F) ((cfg1.win w).arr.view.loc (c : Thread nD τ))) (hF : ∀ w, Fa w = V (Pipeline.arrRef spec1 w)) :
    (dat.arrays Fa : sProp 𝕄) ⊢ Pipeline.arrBufs spec1 c V := by
  rw [arrBufs1_eq, arrays1_eq c dat hq0 hq1 hq2 hq3 V Fa hF]
  exact Laws.sep_assoc.2.trans (Laws.sep_mono_left (pointsTo_share (PosShare.mem_left_op_right fullShare)).2)

/-! ## Call 2: five windows on five buffers -/

/-- Every window of call 2 holds its array at the full share. -/
theorem share2 (c : Dev nD) (dat : Dat τ (Elt F) Unit ℕ (UR sig nD τ) ℕ cfg2 c) (hq : ∀ w, dat.q w = fullShare) (w : Fin cfg2.W) :
    dat.share w = fullShare := by
  unfold Dat.share
  split
  · rfl
  · exact hq w

/-- The windows' arrays are the buffers behind them, window by window. -/
theorem arrays2_eq (c : Dev nD) (dat : Dat τ (Elt F) Unit ℕ (UR sig nD τ) ℕ cfg2 c) (hq : ∀ w, dat.q w = fullShare)
    (V : (b : Ref sig .tc) → Buf (Elt F) ((c : Thread nD τ).loc b))
    (Fa : (w : Fin cfg2.W) → Buf (Elt F) ((cfg2.win w).arr.view.loc (c : Thread nD τ))) (hF : ∀ w, Fa w = V (Pipeline.arrRef spec2 w)) :
    (Pipeline.arrBufs spec2 c V : sProp 𝕄) = dat.arrays Fa := by
  classical
  unfold Dat.arrays Pipeline.arrBufs
  rw [show Finset.univ.image (Pipeline.arrRef spec2) = Finset.univ.map ⟨Pipeline.arrRef spec2, winFacts2.arr_inj⟩ from
      (Finset.map_eq_image ⟨Pipeline.arrRef spec2, winFacts2.arr_inj⟩ Finset.univ).symm, bigSep_map]
  exact bigSep_congr fun w _ => by rw [(arr_whole2 w).set_eq_univ, share2 c dat hq, hF]; rfl

theorem arrays_of_arrBufs2 (c : Dev nD) (dat : Dat τ (Elt F) Unit ℕ (UR sig nD τ) ℕ cfg2 c) (hq : ∀ w, dat.q w = fullShare)
    (V : (b : Ref sig .tc) → Buf (Elt F) ((c : Thread nD τ).loc b))
    (Fa : (w : Fin cfg2.W) → Buf (Elt F) ((cfg2.win w).arr.view.loc (c : Thread nD τ))) (hF : ∀ w, Fa w = V (Pipeline.arrRef spec2 w)) :
    (Pipeline.arrBufs spec2 c V : sProp 𝕄) ⊢ dat.arrays Fa :=
  Entails.of_eq (arrays2_eq c dat hq V Fa hF)

theorem arrBufs_of_arrays2 (c : Dev nD) (dat : Dat τ (Elt F) Unit ℕ (UR sig nD τ) ℕ cfg2 c) (hq : ∀ w, dat.q w = fullShare)
    (V : (b : Ref sig .tc) → Buf (Elt F) ((c : Thread nD τ).loc b))
    (Fa : (w : Fin cfg2.W) → Buf (Elt F) ((cfg2.win w).arr.view.loc (c : Thread nD τ))) (hF : ∀ w, Fa w = V (Pipeline.arrRef spec2 w)) :
    (dat.arrays Fa : sProp 𝕄) ⊢ Pipeline.arrBufs spec2 c V :=
  Entails.of_eq (arrays2_eq c dat hq V Fa hF).symm

end Cert.KernelIdeal.Hand

end
-- ==== Proof.KI.Run.lean ====
/-
  The run of the whole program: four stretches of host operations around three pallas_calls.

  Between two items a core's unscoped buffers are held whole at known contents: the launch memory, then each
  host stretch applied, then after each pallas_call its result array at what the pipeline's write-backs leave and every
  other buffer as it was (the call's other arrays are inputs). Each call is entered by splitting its arrays out of
  those buffers — the array two windows read is split into two half shares — and left by putting them back. The
  generator register and the core's (empty) debts ride along. At the end every unscoped buffer is read off the last
  contents, which gives both the arguments unchanged and the result's value.
-/
import proofs.«141671_j53652731461797_1_alg».proof.Proof.KI.Region0
import proofs.«141671_j53652731461797_1_alg».proof.Proof.KI.Region1
import proofs.«141671_j53652731461797_1_alg».proof.Proof.KI.Region2
import proofs.«141671_j53652731461797_1_alg».proof.Proof.KI.Arrays
import proofs.«141671_j53652731461797_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch. -/
abbrev W1 : Dev nD → Valuation τ sig (Elt F) := fun c => StableHlo.after hostOps0 (W0 m c)

/-- The contents pallas_call 0 is entered from, read at the TensorCore's references. -/
abbrev V1 : (c : Dev nD) → (b : Ref sig .tc) → Buf (Elt F) ((c : Thread nD τ).loc b) := fun c b => W1 m c b
/-- What its write-backs leave in its result array. -/
def X0 (c : Dev nD) : Buf (Elt F) ((c : Thread nD τ).loc main_v8) := (dat0 (V1 m) c).arrAt 4 cfg0.N
/-- The contents it is left at: its result array at `X0`, every other buffer as entered (its other arrays are inputs). -/
def W2 (c : Dev nD) : Valuation τ sig (Elt F) := Function.update (W1 m c) main_v8 (X0 m c)
theorem W2_out (c : Dev nD) : W2 m c main_v8 = X0 m c := by unfold W2; exact Function.update_self ..
theorem W2_of_ne (c : Dev nD) (b : Ref sig .tc) (hb : b ≠ main_v8) : W2 m c b = W1 m c b := by
  unfold W2; exact Function.update_of_ne (StableHlo.devRef_ne_of_ne hb) ..
abbrev V2 : (c : Dev nD) → (b : Ref sig .tc) → Buf (Elt F) ((c : Thread nD τ).loc b) := fun c b => W2 m c b

/-- After the second host stretch. -/
abbrev W3 : Dev nD → Valuation τ sig (Elt F) := fun c => StableHlo.after hostOps1 (W2 m c)

/-- The contents pallas_call 1 is entered from, read at the TensorCore's references. -/
abbrev V3 : (c : Dev nD) → (b : Ref sig .tc) → Buf (Elt F) ((c : Thread nD τ).loc b) := fun c b => W3 m c b
/-- What its write-backs leave in its result array. -/
def X1 (c : Dev nD) : Buf (Elt F) ((c : Thread nD τ).loc main_v10) := (dat1 (V3 m) c).arrAt 4 cfg1.N
/-- The contents it is left at: its result array at `X1`, every other buffer as entered (its other arrays are inputs). -/
def W4 (c : Dev nD) : Valuation τ sig (Elt F) := Function.update (W3 m c) main_v10 (X1 m c)
theorem W4_out (c : Dev nD) : W4 m c main_v10 = X1 m c := by unfold W4; exact Function.update_self ..
theorem W4_of_ne (c : Dev nD) (b : Ref sig .tc) (hb : b ≠ main_v10) : W4 m c b = W3 m c b := by
  unfold W4; exact Function.update_of_ne (StableHlo.devRef_ne_of_ne hb) ..
abbrev V4 : (c : Dev nD) → (b : Ref sig .tc) → Buf (Elt F) ((c : Thread nD τ).loc b) := fun c b => W4 m c b

/-- After the third host stretch. -/
abbrev W5 : Dev nD → Valuation τ sig (Elt F) := fun c => StableHlo.after hostOps2 (W4 m c)

/-- The contents pallas_call 2 is entered from, read at the TensorCore's references. -/
abbrev V5 : (c : Dev nD) → (b : Ref sig .tc) → Buf (Elt F) ((c : Thread nD τ).loc b) := fun c b => W5 m c b
/-- What its write-backs leave in its result array. -/
def X2 (c : Dev nD) : Buf (Elt F) ((c : Thread nD τ).loc main_v12) := (dat2 (V5 m) c).arrAt 4 cfg2.N
/-- The contents it is left at: its result array at `X2`, every other buffer as entered (its other arrays are inputs). -/
def W6 (c : Dev nD) : Valuation τ sig (Elt F) := Function.update (W5 m c) main_v12 (X2 m c)
theorem W6_out (c : Dev nD) : W6 m c main_v12 = X2 m c := by unfold W6; exact Function.update_self ..
theorem W6_of_ne (c : Dev nD) (b : Ref sig .tc) (hb : b ≠ main_v12) : W6 m c b = W5 m c b := by
  unfold W6; exact Function.update_of_ne (StableHlo.devRef_ne_of_ne hb) ..
abbrev V6 : (c : Dev nD) → (b : Ref sig .tc) → Buf (Elt F) ((c : Thread nD τ).loc b) := fun c b => W6 m c b

/-- After the last host stretch. -/
abbrev W7 : Dev nD → Valuation τ sig (Elt F) := fun c => StableHlo.after hostOps3 (W6 m c)

/-! ## The proof data family and what rides along -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## Entering and leaving a call: its arrays out of the unscoped buffers and back -/

/-- Call 0's arrays after its run are the exit contents' (its result array what the write-backs left, its inputs as entered). -/
theorem hF0 (c : Dev nD) : ∀ w, (dat0 (V1 m) c).arrAt w cfg0.N = V2 m c (Pipeline.arrRef spec0 w)
  | ⟨0, _⟩ => ((dat0 (V1 m) c).arrAt_in 0 rfl _).trans ((A_eq0 (V1 m) c 0).trans (W2_of_ne m c _ (by decide)).symm)
  | ⟨1, _⟩ => ((dat0 (V1 m) c).arrAt_in 1 rfl _).trans ((A_eq0 (V1 m) c 1).trans (W2_of_ne m c _ (by decide)).symm)
  | ⟨2, _⟩ => ((dat0 (V1 m) c).arrAt_in 2 rfl _).trans ((A_eq0 (V1 m) c 2).trans (W2_of_ne m c _ (by decide)).symm)
  | ⟨3, _⟩ => ((dat0 (V1 m) c).arrAt_in 3 rfl _).trans ((A_eq0 (V1 m) c 3).trans (W2_of_ne m c _ (by decide)).symm)
  | ⟨4, _⟩ => (W2_out m c).symm
/-- Every buffer that is none of call 0's arrays is left as entered. -/
theorem hrest0 (c : Dev nD) : ∀ b, b ∉ Finset.univ.image (Pipeline.arrRef spec0) → V2 m c b = V1 m c b :=
  fun b hb => W2_of_ne m c b fun e => hb (Finset.mem_image.mpr ⟨4, Finset.mem_univ _, e ▸ rfl⟩)

/-- Entering call 0: its arrays split out of the unscoped buffers at the entry contents, the rest beside them. -/
theorem enter0 (c : Dev nD) :
    (StableHlo.held (c : Thread nD τ) (Pipeline.ucRefs τ sig) (W1 m c) : sProp 𝕄)
      ⊢ iprop((pdats m 0 c).arrays ((pdats m 0 c).arrAt · 0) ∗ Pipeline.unscopedRest spec0 c (V1 m c)) := by
  show _ ⊢ iprop((dat0 (V1 m) c).arrays ((dat0 (V1 m) c).arrAt · 0) ∗ Pipeline.unscopedRest spec0 c (V1 m c))
  rw [← Pipeline.unscopedBufs_held c (W1 m c), Pipeline.unscopedBufs_split₀ cfgs 0 (winFacts₀0).arr_unscoped c (V1 m c)]
  exact sep_mono (arrays_of_arrBufs0 c (dat0 (V1 m) c) rfl rfl rfl rfl (V1 m c) _ (fun _ => rfl)) .rfl

/-- Leaving call 0: its arrays at what the run left and the rest as entered are the unscoped buffers at the exit contents. -/
theorem leave0 (c : Dev nD) :
    iprop((pdats m 0 c).arrays ((pdats m 0 c).arrAt · (Pipeline.pin (pcfgs (F := F)) adm 0).N) ∗ Pipeline.unscopedRest spec0 c (V1 m c))
      ⊢ (StableHlo.held (c : Thread nD τ) (Pipeline.ucRefs τ sig) (W2 m c) : sProp 𝕄) := by
  show iprop((dat0 (V1 m) c).arrays ((dat0 (V1 m) c).arrAt · cfg0.N) ∗ Pipeline.unscopedRest spec0 c (V1 m c)) ⊢ _
  rw [← Pipeline.unscopedBufs_held c (W2 m c), Pipeline.unscopedBufs_split₀ cfgs 0 (winFacts₀0).arr_unscoped c (V2 m c)]
  refine sep_mono (arrBufs_of_arrays0 c (dat0 (V1 m) c) rfl rfl rfl rfl (V2 m c) _ (hF0 m c)) (Entails.of_eq ?_)
  unfold Pipeline.unscopedRest
  exact bigSep_congr fun b hb => by rw [hrest0 m c b (Finset.mem_sdiff.mp hb).2]

/-- Call 1's arrays after its run are the exit contents' (its result array what the write-backs left, its inputs as entered). -/
theorem hF1 (c : Dev nD) : ∀ w, (dat1 (V3 m) c).arrAt w cfg1.N = V4 m c (Pipeline.arrRef spec1 w)
  | ⟨0, _⟩ => ((dat1 (V3 m) c).arrAt_in 0 rfl _).trans ((A_eq1 (V3 m) c 0).trans (W4_of_ne m c _ (by decide)).symm)
  | ⟨1, _⟩ => ((dat1 (V3 m) c).arrAt_in 1 rfl _).trans ((A_eq1 (V3 m) c 1).trans (W4_of_ne m c _ (by decide)).symm)
  | ⟨2, _⟩ => ((dat1 (V3 m) c).arrAt_in 2 rfl _).trans ((A_eq1 (V3 m) c 2).trans (W4_of_ne m c _ (by decide)).symm)
  | ⟨3, _⟩ => ((dat1 (V3 m) c).arrAt_in 3 rfl _).trans ((A_eq1 (V3 m) c 3).trans (W4_of_ne m c _ (by decide)).symm)
  | ⟨4, _⟩ => (W4_out m c).symm
/-- Every buffer that is none of call 1's arrays is left as entered. -/
theorem hrest1 (c : Dev nD) : ∀ b, b ∉ Finset.univ.image (Pipeline.arrRef spec1) → V4 m c b = V3 m c b :=
  fun b hb => W4_of_ne m c b fun e => hb (Finset.mem_image.mpr ⟨4, Finset.mem_univ _, e ▸ rfl⟩)

/-- Entering call 1: its arrays split out of the unscoped buffers at the entry contents, the rest beside them. -/
theorem enter1 (c : Dev nD) :
    (StableHlo.held (c : Thread nD τ) (Pipeline.ucRefs τ sig) (W3 m c) : sProp 𝕄)
      ⊢ iprop((pdats m 1 c).arrays ((pdats m 1 c).arrAt · 0) ∗ Pipeline.unscopedRest spec1 c (V3 m c)) := by
  show _ ⊢ iprop((dat1 (V3 m) c).arrays ((dat1 (V3 m) c).arrAt · 0) ∗ Pipeline.unscopedRest spec1 c (V3 m c))
  rw [← Pipeline.unscopedBufs_held c (W3 m c), Pipeline.unscopedBufs_split₀ cfgs 1 (winFacts₀1).arr_unscoped c (V3 m c)]
  exact sep_mono (arrays_of_arrBufs1 c (dat1 (V3 m) c) rfl rfl rfl rfl (V3 m c) _ (fun _ => rfl)) .rfl

/-- Leaving call 1: its arrays at what the run left and the rest as entered are the unscoped buffers at the exit contents. -/
theorem leave1 (c : Dev nD) :
    iprop((pdats m 1 c).arrays ((pdats m 1 c).arrAt · (Pipeline.pin (pcfgs (F := F)) adm 1).N) ∗ Pipeline.unscopedRest spec1 c (V3 m c))
      ⊢ (StableHlo.held (c : Thread nD τ) (Pipeline.ucRefs τ sig) (W4 m c) : sProp 𝕄) := by
  show iprop((dat1 (V3 m) c).arrays ((dat1 (V3 m) c).arrAt · cfg1.N) ∗ Pipeline.unscopedRest spec1 c (V3 m c)) ⊢ _
  rw [← Pipeline.unscopedBufs_held c (W4 m c), Pipeline.unscopedBufs_split₀ cfgs 1 (winFacts₀1).arr_unscoped c (V4 m c)]
  refine sep_mono (arrBufs_of_arrays1 c (dat1 (V3 m) c) rfl rfl rfl rfl (V4 m c) _ (hF1 m c)) (Entails.of_eq ?_)
  unfold Pipeline.unscopedRest
  exact bigSep_congr fun b hb => by rw [hrest1 m c b (Finset.mem_sdiff.mp hb).2]

/-- Call 2's arrays after its run are the exit contents' (its result array what the write-backs left, its inputs as entered). -/
theorem hF2 (c : Dev nD) : ∀ w, (dat2 (V5 m) c).arrAt w cfg2.N = V6 m c (Pipeline.arrRef spec2 w)
  | ⟨0, _⟩ => ((dat2 (V5 m) c).arrAt_in 0 rfl _).trans ((A_eq2 (V5 m) c 0).trans (W6_of_ne m c _ (by decide)).symm)
  | ⟨1, _⟩ => ((dat2 (V5 m) c).arrAt_in 1 rfl _).trans ((A_eq2 (V5 m) c 1).trans (W6_of_ne m c _ (by decide)).symm)
  | ⟨2, _⟩ => ((dat2 (V5 m) c).arrAt_in 2 rfl _).trans ((A_eq2 (V5 m) c 2).trans (W6_of_ne m c _ (by decide)).symm)
  | ⟨3, _⟩ => ((dat2 (V5 m) c).arrAt_in 3 rfl _).trans ((A_eq2 (V5 m) c 3).trans (W6_of_ne m c _ (by decide)).symm)
  | ⟨4, _⟩ => (W6_out m c).symm
/-- Every buffer that is none of call 2's arrays is left as entered. -/
theorem hrest2 (c : Dev nD) : ∀ b, b ∉ Finset.univ.image (Pipeline.arrRef spec2) → V6 m c b = V5 m c b :=
  fun b hb => W6_of_ne m c b fun e => hb (Finset.mem_image.mpr ⟨4, Finset.mem_univ _, e ▸ rfl⟩)

/-- Entering call 2: its arrays split out of the unscoped buffers at the entry contents, the rest beside them. -/
theorem enter2 (c : Dev nD) :
    (StableHlo.held (c : Thread nD τ) (Pipeline.ucRefs τ sig) (W5 m c) : sProp 𝕄)
      ⊢ iprop((pdats m 2 c).arrays ((pdats m 2 c).arrAt · 0) ∗ Pipeline.unscopedRest spec2 c (V5 m c)) := by
  show _ ⊢ iprop((dat2 (V5 m) c).arrays ((dat2 (V5 m) c).arrAt · 0) ∗ Pipeline.unscopedRest spec2 c (V5 m c))
  rw [← Pipeline.unscopedBufs_held c (W5 m c), Pipeline.unscopedBufs_split₀ cfgs 2 (winFacts2.to₀).arr_unscoped c (V5 m c)]
  exact sep_mono (arrays_of_arrBufs2 c (dat2 (V5 m) c) (fun _ => rfl) (V5 m c) _ (fun _ => rfl)) .rfl

/-- Leaving call 2: its arrays at what the run left and the rest as entered are the unscoped buffers at the exit contents. -/
theorem leave2 (c : Dev nD) :
    iprop((pdats m 2 c).arrays ((pdats m 2 c).arrAt · (Pipeline.pin (pcfgs (F := F)) adm 2).N) ∗ Pipeline.unscopedRest spec2 c (V5 m c))
      ⊢ (StableHlo.held (c : Thread nD τ) (Pipeline.ucRefs τ sig) (W6 m c) : sProp 𝕄) := by
  show iprop((dat2 (V5 m) c).arrays ((dat2 (V5 m) c).arrAt · cfg2.N) ∗ Pipeline.unscopedRest spec2 c (V5 m c)) ⊢ _
  rw [← Pipeline.unscopedBufs_held c (W6 m c), Pipeline.unscopedBufs_split₀ cfgs 2 (winFacts2.to₀).arr_unscoped c (V6 m c)]
  refine sep_mono (arrBufs_of_arrays2 c (dat2 (V5 m) c) (fun _ => rfl) (V6 m c) _ (hF2 m c)) (Entails.of_eq ?_)
  unfold Pipeline.unscopedRest
  exact bigSep_congr fun b hb => by rw [hrest2 m c b (Finset.mem_sdiff.mp hb).2]

/-! ## The calls as segments -/

set_option backward.isDefEq.respectTransparency.types false in
/-- Call 0 over the thread state: entered from every unscoped buffer at `W1`, left at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have henter := enter0 m c
    iintro ⟨⟨Hub, Hp, HO⟩, -, -⟩
    ihave H := henter $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave0 m c); isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have henter := enter1 m c
    iintro ⟨⟨Hub, Hp, HO⟩, -, -⟩
    ihave H := henter $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave1 m c); isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at `W5`, left at `W6`. -/
def reg2 : Pipeline.RegionSeg (pcfgs (F := F)) adm (pdats m) () defs₀ 𝒱₀ L lv 2 where
  win := winFacts2.to₀
  block_pos := block_pos2
  stage_whole := stage_whole2
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have henter := enter2 m c
    iintro ⟨⟨Hub, Hp, HO⟩, -, -⟩
    ihave H := henter $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave2 m c); isplitl [Ha] <;> iassumption
    isplitl [HY]; · iexact HY
    unfold Pipeline.Dat.owesAt Pipeline.owesWithin
    icases HO with ⟨%W, -, HO⟩; iexists W; iexact HO

/-- The last host stretch's state is the final one: the buffers and the generator register, beside the core owing nothing. -/
theorem last_chain (c : Dev nD) :
    iprop(StableHlo.held (c : Thread nD τ) (Pipeline.ucRefs τ sig) (W7 m c) ∗ R c)
      ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
theorem main_run (c : Dev nD) : main (F := F) c = Pipeline.Seg.run (segs m) := (main_chain c).trans (by chain_rfl)

set_option backward.isDefEq.respectTransparency.types false in
/-- Every weakly fair execution of @main from memory `m` with zero counters terminates, and in every final memory each
    unscoped TensorCore buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => last_chain m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-! ## The frame -/

/-- An argument array is written by no host stretch and is no call's result, so it holds its launch contents throughout. -/
theorem W7_main_arg0 (c : Dev nD) : W7 m c main_arg0 = m ((c : Thread nD τ).loc main_arg0) :=
  (StableHlo.after_of_writes_sub hostOps3 _ hostOps3_writes (show main_arg0 ∉ hostOps3_W by decide)).trans <|
  (W6_of_ne m c main_arg0 (by decide)).trans <|
  (StableHlo.after_of_writes_sub hostOps2 _ hostOps2_writes (show main_arg0 ∉ hostOps2_W by decide)).trans <|
  (W4_of_ne m c main_arg0 (by decide)).trans <|
  (StableHlo.after_of_writes_sub hostOps1 _ hostOps1_writes (show main_arg0 ∉ hostOps1_W by decide)).trans <|
  (W2_of_ne m c main_arg0 (by decide)).trans <|
  (StableHlo.after_of_writes_sub hostOps0 _ hostOps0_writes (show main_arg0 ∉ hostOps0_W by decide)).trans rfl
theorem W7_main_arg1 (c : Dev nD) : W7 m c main_arg1 = m ((c : Thread nD τ).loc main_arg1) :=
  (StableHlo.after_of_writes_sub hostOps3 _ hostOps3_writes (show main_arg1 ∉ hostOps3_W by decide)).trans <|
  (W6_of_ne m c main_arg1 (by decide)).trans <|
  (StableHlo.after_of_writes_sub hostOps2 _ hostOps2_writes (show main_arg1 ∉ hostOps2_W by decide)).trans <|
  (W4_of_ne m c main_arg1 (by decide)).trans <|
  (StableHlo.after_of_writes_sub hostOps1 _ hostOps1_writes (show main_arg1 ∉ hostOps1_W by decide)).trans <|
  (W2_of_ne m c main_arg1 (by decide)).trans <|
  (StableHlo.after_of_writes_sub hostOps0 _ hostOps0_writes (show main_arg1 ∉ hostOps0_W by decide)).trans rfl

/-- The program runs to the end and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W7_main_arg0 m c), (h c _ (mem_uc main_arg1 (by decide))).trans (W7_main_arg1 m c)⟩) (run_all m ρ)

end Cert.KernelIdeal.Hand

end
-- ==== Proof.Spec.lean ====
/-
  The mathematics of the statement, free of either program.

  For two 4096 × 2048 matrices `a`, `b` over the extended reals the Gaussian-kernel matrix of the pair has entries
  exp(−d(i,j) / 2048²), where d(i,j) = ‖a_i‖² + ‖b_j‖² − 2·⟨a_i, b_j⟩ is the squared distance of row `i` of `a` and row `j`
  of `b`, spelt through the squared norms and the inner product. The maximum-mean-discrepancy statistic is
  mean K(a,a) + mean K(b,b) − 2 · mean K(a,b), each mean the sum of the 4096² entries divided by 2²⁴.

  One program scales d by the literal −2⁻²² and adds the entries up tile by tile (4 × 8 tiles of 1024 × 512 entries);
  the other multiplies d by −1, divides by 2²², and adds all entries up at once. Both spellings are kept here, over
  the same literals the programs print, so that each program's value is one of these terms and the equality of the two
  is a statement about extended reals alone.
-/
import Idealize.ShloMosaic.PureOps.Ideal
import Idealize.ShloMosaic.Lib.ValueIdx

noncomputable section

open scoped BigOperators

namespace Cert.Mmd

open Idealize.ShloMosaic Idealize.ShloMosaic.ValueIdx

/-- A 4096 × 2048 matrix over the extended reals. -/
abbrev Mat : Type := (⟨2, ![4096, 2048]⟩ : Shape).Idx → EReal

/-- Every entry is a real number. -/
def IsReal (a : Mat) : Prop := ∀ i, ∃ x : ℝ, a i = (x : EReal)

/-- The squared norm of row `r`. -/
def rowSq (a : Mat) (r : Fin 4096) : EReal := ∑ k : Fin 2048, a (ix2 r k) * a (ix2 r k)

/-- The inner product of row `i` of `a` and row `j` of `b`. -/
def rowDot (a b : Mat) (i j : Fin 4096) : EReal := ∑ k : Fin 2048, a (ix2 i k) * b (ix2 j k)

/-- The squared distance of row `i` of `a` and row `j` of `b`: ‖a_i‖² + ‖b_j‖² − 2·⟨a_i, b_j⟩ (the `2` the f32 literal). -/
def sqDist (a b : Mat) (i j : Fin 4096) : EReal :=
  (rowSq a i + rowSq b j) - Ideal.ofBits .f32 0x40000000#32 * rowDot a b i j

/-- The Gaussian entry with the distance scaled by the literal −2⁻²². -/
def gaussK (a b : Mat) (i j : Fin 4096) : EReal :=
  Ideal.exp (Ideal.ofBits .f32 0xB4800000#32 * sqDist a b i j)

/-- The Gaussian entry with the distance multiplied by −1 and divided by 2²². -/
def gaussR (a b : Mat) (i j : Fin 4096) : EReal :=
  Ideal.exp (Ideal.div (Ideal.ofBits .f32 0xBF800000#32 * sqDist a b i j) (Ideal.ofBits .f32 0x4A800000#32))

/-- Row `p` of the `i`-th strip of 1024 rows. -/
def rowOf (i : Fin 4) (p : Fin 1024) : Fin 4096 := ⟨1024 * i.val + p.val, by omega⟩

/-- Column `q` of the `j`-th strip of 512 columns. -/
def colOf (j : Fin 8) (q : Fin 512) : Fin 4096 := ⟨512 * j.val + q.val, by omega⟩

/-- The sum of the 1024 × 512 Gaussian entries of tile (i, j), rows first. -/
def tile (a b : Mat) (i : Fin 4) (j : Fin 8) : EReal :=
  ∑ p : Fin 1024, ∑ q : Fin 512, gaussK a b (rowOf i p) (colOf j q)

/-- All entries, added tile by tile. -/
def sumK (a b : Mat) : EReal := ∑ i : Fin 4, ∑ j : Fin 8, tile a b i j

/-- All entries, added at once. -/
def sumR (a b : Mat) : EReal := ∑ i : Fin 4096, ∑ j : Fin 4096, gaussR a b i j

/-- The statistic from the three sums: each divided by 2²⁴ (the literal), then xx + yy − 2·xy. -/
def combine (xx yy xy : EReal) : EReal :=
  (Ideal.div xx (Ideal.ofBits .f32 0x4B800000#32) + Ideal.div yy (Ideal.ofBits .f32 0x4B800000#32))
    - Ideal.ofBits .f32 0x40000000#32 * Ideal.div xy (Ideal.ofBits .f32 0x4B800000#32)

/-- The statistic, tile by tile with the scale −2⁻²². -/
def resultK (a b : Mat) : EReal := combine (sumK a a) (sumK b b) (sumK a b)

/-- The statistic, all at once with the quotient by 2²². -/
def resultR (a b : Mat) : EReal := combine (sumR a a) (sumR b b) (sumR a b)

end Cert.Mmd

end
-- ==== Proof.LibMinOps.lean ====
/-
  Minima read at an index over the extended reals, and tile-by-tile regrouping.

  For an a × b matrix, the minimum over a row (a vector reduction along the columns from +∞) read at row p, and the
  minimum over a column (the reduction along the rows) read at column q, are the infima of the entries; for an
  a × b × c array the host's reduce with a minimum body from +∞ over the last axis, read at (p, q), and over the middle
  axis, read at (p, j), likewise. An infimum or a sum over T·W consecutive positions is the infimum or the sum over the T
  tiles of each tile's infimum or sum, position W·i + j being entry j of tile i. A vector laid out as one row reads
  entry q at (0, q), and a rank-3 array with a leading unit axis viewed as a matrix reads (0, r, k) at (r, k).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.MinOps

open Idealize.ShloMosaic Idealize.ShloMosaic.ValueIdx

variable {a b c : Nat}

/-- The f32 word of +∞ is the top of the extended reals. -/
theorem ofBits_posInf : Ideal.ofBits .f32 0x7F800000#32 = (⊤ : EReal) := by simp [Ideal.ofBits, Ideal.ieee]

/-- The fold of min from the top over a finite type is the infimum. -/
theorem fold_min_top {ι : Type} [Fintype ι] [DecidableEq ι] (f : ι → EReal) :
    (Finset.univ : Finset ι).fold min ⊤ f = ⨅ k, f k := by
  rw [← Finset.inf_univ_eq_iInf]
  generalize (Finset.univ : Finset ι) = s
  refine Finset.induction_on s ?_ ?_
  · simp
  · intro x s hx ih
    rw [Finset.fold_insert hx, Finset.inf_insert, ih]

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext d; apply Fin.ext
  fin_cases d <;> rfl

/-- Column q with row k put back is (k, q). -/
theorem lift_col (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext d; apply Fin.ext
  fin_cases d <;> rfl

/-- A vector reduction's row minimum from +∞: the infimum of the row's entries. -/
theorem rowMin_vector (src : FVec Ideal ⟨2, ![a, b]⟩ .f32)
    (h : (⟨2, ![a, b]⟩ : Shape).Reduces [1] (⟨1, ![a]⟩ : Shape)) (p : Fin a) :
    multiReduction .minimumf [1] ⟨1, ![a]⟩ src 0x7F800000#32 h (.inl rfl) rfl (ix1 p) = ⨅ j : Fin b, src (ix2 p j) := by
  refine (multiReduction_minimumf_eq_fold src _ h (.inl rfl) rfl (ix1 p)).trans ?_
  refine (h.fold_filter_drop_single _ _ src (ix1 p)).trans ?_
  have hf : (src ∘ h.lift (ix1 p)) = fun k : Fin b => src (ix2 p k) := funext fun k => congrArg src (lift_row h p k)
  refine (congrArg (fun f => Finset.fold min (Ideal.ofBits .f32 0x7F800000#32) f (Finset.univ : Finset (Fin b))) hf).trans ?_
  rw [ofBits_posInf]; exact fold_min_top _

/-- A vector reduction's column minimum from +∞: the infimum of the column's entries. -/
theorem colMin_vector (src : FVec Ideal ⟨2, ![a, b]⟩ .f32)
    (h : (⟨2, ![a, b]⟩ : Shape).Reduces [0] (⟨1, ![b]⟩ : Shape)) (q : Fin b) :
    multiReduction .minimumf [0] ⟨1, ![b]⟩ src 0x7F800000#32 h (.inl rfl) rfl (ix1 q) = ⨅ p : Fin a, src (ix2 p q) := by
  refine (multiReduction_minimumf_eq_fold src _ h (.inl rfl) rfl (ix1 q)).trans ?_
  refine (h.fold_filter_drop_single _ _ src (ix1 q)).trans ?_
  have hf : (src ∘ h.lift (ix1 q)) = fun k : Fin a => src (ix2 k q) := funext fun k => congrArg src (lift_col h q k)
  refine (congrArg (fun f => Finset.fold min (Ideal.ofBits .f32 0x7F800000#32) f (Finset.univ : Finset (Fin a))) hf).trans ?_
  rw [ofBits_posInf]; exact fold_min_top _

/-- (p, q) with last coordinate k put back is (p, q, k). -/
theorem lift_last (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- (p, j) with middle coordinate k put back is (p, k, j). -/
theorem lift_mid (h : (⟨3, ![a, b, c]⟩ : Shape).Reduces [1] (⟨2, ![a, c]⟩ : Shape)) (p : Fin a) (j : Fin c)
    (k : Fin ((⟨3, ![a, b, c]⟩ : Shape).size 1)) : h.lift (ix2 p j) k = ix3 p (⟨k.val, k.isLt⟩ : Fin b) j := by
  funext d; apply Fin.ext
  fin_cases d <;> rfl

/-- The host's minimum over the last axis from +∞, at (p, q): the infimum of the entries (p, q, j). -/
theorem hostMin_last (x : FVec Ideal ⟨3, ![a, b, c]⟩ .f32) (init : (⟨0, ![]⟩ : Shape).Idx → Ideal .f32)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < (⟨0, ![]⟩ : Shape).numel)
    (hinit : init (Shape.Idx.first hu) = (⊤ : EReal)) (p : Fin a) (q : Fin b) :
    Host.reduce FloatOps.minimumf x init h' hu (ix2 p q) = ⨅ j : Fin c, x (ix3 p q j) := by
  rw [Host.reduce_eq_fold_single FloatOps.minimumf x init h' h hu, hinit]
  have hf : (x ∘ h.lift (ix2 p q)) = fun k : Fin c => x (ix3 p q k) := funext fun k => congrArg x (lift_last h p q k)
  refine (congrArg (fun f => Finset.fold min (⊤ : EReal) f (Finset.univ : Finset (Fin c))) hf).trans ?_
  exact fold_min_top _

/-- The host's minimum over the middle axis from +∞, at (p, j): the infimum of the entries (p, q, j). -/
theorem hostMin_mid (x : FVec Ideal ⟨3, ![a, b, c]⟩ .f32) (init : (⟨0, ![]⟩ : Shape).Idx → Ideal .f32)
    (h' : (⟨3, ![a, b, c]⟩ : Shape).ReducesTo [1] (⟨2, ![a, c]⟩ : Shape))
    (h : (⟨3, ![a, b, c]⟩ : Shape).Reduces [1] (⟨2, ![a, c]⟩ : Shape)) (hu : 0 < (⟨0, ![]⟩ : Shape).numel)
    (hinit : init (Shape.Idx.first hu) = (⊤ : EReal)) (p : Fin a) (j : Fin c) :
    Host.reduce FloatOps.minimumf x init h' hu (ix2 p j) = ⨅ q : Fin b, x (ix3 p q j) := by
  rw [Host.reduce_eq_fold_single FloatOps.minimumf x init h' h hu, hinit]
  have hf : (x ∘ h.lift (ix2 p j)) = fun k : Fin b => x (ix3 p k j) := funext fun k => congrArg x (lift_mid h p j k)
  refine (congrArg (fun f => Finset.fold min (⊤ : EReal) f (Finset.univ : Finset (Fin b))) hf).trans ?_
  exact fold_min_top _

/-- Entry j of tile i of N = T·W consecutive positions: position W·i + j. -/
def tile {T W N : ℕ} (h : T * W = N) (i : Fin T) (j : Fin W) : Fin N := Fin.cast h (finProdFinEquiv (i, j))

theorem tile_val {T W N : ℕ} (h : T * W = N) (i : Fin T) (j : Fin W) : (tile h i j).val = W * i.val + j.val := by
  simp [tile, finProdFinEquiv, Nat.add_comm]

/-- An infimum over N = T·W positions, tile by tile. -/
theorem iInf_tile {T W N : ℕ} (h : T * W = N) (f : Fin N → EReal) :
    ⨅ k, f k = ⨅ i : Fin T, ⨅ j : Fin W, f (tile h i j) := by
  subst h
  rw [← Equiv.iInf_comp (g := f) finProdFinEquiv, iInf_prod]
  rfl

/-- A sum over N = T·W positions, tile by tile. -/
theorem sum_tile {M : Type} [AddCommMonoid M] {T W N : ℕ} (h : T * W = N) (f : Fin N → M) :
    ∑ k, f k = ∑ i : Fin T, ∑ j : Fin W, f (tile h i j) := by
  subst h
  rw [← Equiv.sum_comp finProdFinEquiv f, Fintype.sum_prod_type]
  rfl

/-- An infimum over T·W positions, tile by tile: position W·i + j is entry j of tile i. -/
theorem iInf_tiles {T W : ℕ} (f : Fin (T * W) → EReal) :
    ⨅ k, f k = ⨅ i : Fin T, ⨅ j : Fin W, f (finProdFinEquiv (i, j)) := by
  rw [← Equiv.iInf_comp (g := f) finProdFinEquiv, iInf_prod]

/-- A sum over T·W positions, tile by tile. -/
theorem sum_tiles {M : Type} [AddCommMonoid M] {T W : ℕ} (f : Fin (T * W) → M) :
    ∑ k, f k = ∑ i : Fin T, ∑ j : Fin W, f (finProdFinEquiv (i, j)) := by
  rw [← Equiv.sum_comp finProdFinEquiv f, Fintype.sum_prod_type]

/-- A vector of n entries laid out as one row reads entry q at (0, q). -/
theorem rowCast_apply {α : Type} (v : (⟨1, ![b]⟩ : Shape).Idx → α) (h : (⟨1, ![b]⟩ : Shape).ShapeCasts ⟨2, ![1, b]⟩) (q : Fin b) :
    shapeCast ⟨2, ![1, b]⟩ v h (ix2 (0 : Fin 1) q) = v (ix1 q) :=
  shapeCast_apply v h (ix2 (0 : Fin 1) q) (ix1 q) (by
    rw [Shape.rowMajor_val_one, Shape.rowMajor_val_two]; show q.val = 0 * b + q.val; omega)

/-- A vector stood up as a column reads entry p at (p, 0). -/
theorem colCast_apply {α : Type} (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply {α : Type} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A row spread over a rows reads its entry (0, q) at every (p, q). -/
theorem rowBcast_apply {α : Type} (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A rank-3 array with a leading unit axis viewed as a matrix reads (0, r, k) at (r, k). -/
theorem dropLead_apply {α : Type} (v : (⟨3, ![1, a, b]⟩ : Shape).Idx → α) (h : (⟨3, ![1, a, b]⟩ : Shape).ShapeCasts ⟨2, ![a, b]⟩)
    (r : Fin a) (k : Fin b) : shapeCast ⟨2, ![a, b]⟩ v h (ix2 r k) = v (ix3 (0 : Fin 1) r k) :=
  shapeCast_apply v h (ix2 r k) (ix3 (0 : Fin 1) r k) (by
    rw [Shape.rowMajor_val_three, Shape.rowMajor_val_two]
    show (0 * a + r.val) * b + k.val = r.val * b + k.val
    rw [Nat.zero_mul, Nat.zero_add])

/-- A vector reduction's row sum from zero: the sum of the row's entries. -/
theorem rowSum_vector (src : FVec Ideal ⟨2, ![a, b]⟩ .f32)
    (h : (⟨2, ![a, b]⟩ : Shape).Reduces [1] (⟨1, ![a]⟩ : Shape)) (p : Fin a) :
    multiReduction .add [1] ⟨1, ![a]⟩ src 0x00000000#32 h (.inl rfl) rfl (ix1 p) = ∑ j : Fin b, src (ix2 p j) := by
  refine (Ideal.multiReduction_add_single src 0x00000000#32 h (.inl rfl) rfl (ix1 p)).trans ?_
  exact Finset.sum_congr rfl fun k _ => congrArg src (lift_row h p k)

/-- A vector reduction's column sum from zero: the sum of the column's entries. -/
theorem colSum_vector (src : FVec Ideal ⟨2, ![a, b]⟩ .f32)
    (h : (⟨2, ![a, b]⟩ : Shape).Reduces [0] (⟨1, ![b]⟩ : Shape)) (q : Fin b) :
    multiReduction .add [0] ⟨1, ![b]⟩ src 0x00000000#32 h (.inl rfl) rfl (ix1 q) = ∑ p : Fin a, src (ix2 p q) := by
  refine (Ideal.multiReduction_add_single src 0x00000000#32 h (.inl rfl) rfl (ix1 q)).trans ?_
  exact Finset.sum_congr rfl fun k _ => congrArg src (lift_col h q k)

end Idealize.ShloMosaic.MinOps

end
-- ==== Proof.HostAt.lean ====
/-
  The host stretches of the kernel's main function, read at an index over the extended reals.

  Between the three calls the main function runs plain array operations. The first stretch squares the two 4096 × 2048
  arguments entrywise and sums each row, from zero, into the squared norms ‖a_r‖² and ‖b_r‖², and lays each vector
  out once as a column and once as a row. The stretch after each call sums, from zero, all 32 × 128 entries of the
  array that call left (the per-tile totals) into a scalar. The last stretch divides the three scalars by 2²⁴ and
  forms xx + yy − 2·xy. Each is read here from arbitrary contents of the buffers before the stretch.
-/
import proofs.«141671_j53652731461797_1_alg».proof.Proof.Gen.KernelIdeal.Launch
import proofs.«141671_j53652731461797_1_alg».proof.Proof.Gen.KernelIdeal.Regions
import Idealize.ShloMosaic.Lib.StableHlo.Run
import Idealize.ShloMosaic.Lib.IdealHost
import proofs.«141671_j53652731461797_1_alg».proof.Proof.Spec
import proofs.«141671_j53652731461797_1_alg».proof.Proof.LibMinOps

noncomputable section

open scoped BigOperators

namespace Cert.Mmd.Host

open Idealize.ShloMosaic Idealize.ShloMosaic.ValueIdx Idealize.ShloMosaic.TcCoe Cert.KernelIdeal Cert.KernelIdeal.Gen

variable [Cert.KernelIdeal.Facts]

/-- The host's sum of all entries of a 32 × 128 array from the zero word: the double sum over rows and lanes. -/
theorem total_apply (x : FVec Ideal S32x128 .f32) :
    Host.reduceAdd (F := Ideal) x (constant (F := Ideal) S_ .f32 0x00000000#32) reducesTo_S32x128_S_d0_1 h_S_ ix0
      = ∑ r : Fin 32, ∑ l : Fin 128, x (ix2 r l) := by
  rw [hostReduceAdd_apply, Ideal.hostReduceAdd_total _ (fun b => b.elim0)]
  show Ideal.ofBits .f32 0x00000000#32 + _ = _
  rw [Ideal.ofBits_zero_f32, zero_add, sum_idx2]

/-- After the second stretch the scalar it writes holds the sum of all entries of the array the first call left. -/
theorem after1_v9 (W : Valuation τ sig (Elt Ideal)) :
    (StableHlo.after (hostOps1 (F := Ideal)) W main_v9 ix0 : EReal)
      = (∑ r : Fin 32, ∑ l : Fin 128, W main_v8 (ix2 r l) : EReal) := by
  have e : (StableHlo.after (hostOps1 (F := Ideal)) W main_v9 : S_.Idx → EReal)
      = Host.reduceAdd (F := Ideal) (W main_v8 : S32x128.Idx → EReal) (constant (F := Ideal) S_ .f32 0x00000000#32)
          reducesTo_S32x128_S_d0_1 h_S_ := by
    after_results
  exact (congrFun e ix0).trans (total_apply _)

/-- After the third stretch the scalar it writes holds the sum of all entries of the array the second call left. -/
theorem after2_v11 (W : Valuation τ sig (Elt Ideal)) :
    (StableHlo.after (hostOps2 (F := Ideal)) W main_v11 ix0 : EReal)
      = (∑ r : Fin 32, ∑ l : Fin 128, W main_v10 (ix2 r l) : EReal) := by
  have e : (StableHlo.after (hostOps2 (F := Ideal)) W main_v11 : S_.Idx → EReal)
      = Host.reduceAdd (F := Ideal) (W main_v10 : S32x128.Idx → EReal) (constant (F := Ideal) S_ .f32 0x00000000#32)
          reducesTo_S32x128_S_d0_1 h_S_ := by
    after_results
  exact (congrFun e ix0).trans (total_apply _)

/-- After the last stretch the result scalar holds the statistic of the three sums: the first two read from the scalars
    the earlier stretches wrote, the third the sum of all entries of the array the third call left. -/
theorem after3_v19 (W : Valuation τ sig (Elt Ideal)) :
    (StableHlo.after (hostOps3 (F := Ideal)) W main_v19 ix0 : EReal)
      = Cert.Mmd.combine (W main_v9 ix0 : EReal) (W main_v11 ix0 : EReal)
          (∑ r : Fin 32, ∑ l : Fin 128, W main_v12 (ix2 r l) : EReal) := by
  have e : (StableHlo.after (hostOps3 (F := Ideal)) W main_v19 : S_.Idx → EReal)
      = subf
          (addf (Host.divf (W main_v9 : S_.Idx → EReal) (constant (F := Ideal) S_ .f32 0x4B800000#32))
            (Host.divf (W main_v11 : S_.Idx → EReal) (constant (F := Ideal) S_ .f32 0x4B800000#32)))
          (mulf (constant (F := Ideal) S_ .f32 0x40000000#32)
            (Host.divf
              (Host.reduceAdd (F := Ideal) (W main_v12 : S32x128.Idx → EReal) (constant (F := Ideal) S_ .f32 0x00000000#32)
                reducesTo_S32x128_S_d0_1 h_S_)
              (constant (F := Ideal) S_ .f32 0x4B800000#32))) := by
    after_results
  refine (congrFun e ix0).trans ?_
  show (Ideal.div (W main_v9 ix0 : EReal) (Ideal.ofBits .f32 0x4B800000#32)
        + Ideal.div (W main_v11 ix0 : EReal) (Ideal.ofBits .f32 0x4B800000#32))
      - Ideal.ofBits .f32 0x40000000#32 *
          Ideal.div (Host.reduceAdd (F := Ideal) (W main_v12 : S32x128.Idx → EReal) (constant (F := Ideal) S_ .f32 0x00000000#32)
              reducesTo_S32x128_S_d0_1 h_S_ ix0) (Ideal.ofBits .f32 0x4B800000#32) = _
  rw [total_apply]
  rfl

end Cert.Mmd.Host

end
-- ==== Proof.HostAt0.lean ====
/-
  The first host stretch of the kernel's main function, read at an index over the extended reals: it squares the two
  4096 × 2048 arguments entrywise, sums each row from zero into the squared norms ‖a_r‖² and ‖b_r‖², lays each vector
  out once as a column and once as a row, and leaves the arguments as they were.
-/
import proofs.«141671_j53652731461797_1_alg».proof.Proof.Gen.KernelIdeal.Launch
import proofs.«141671_j53652731461797_1_alg».proof.Proof.Gen.KernelIdeal.Regions
import Idealize.ShloMosaic.Lib.StableHlo.Run
import Idealize.ShloMosaic.Lib.IdealHost
import proofs.«141671_j53652731461797_1_alg».proof.Proof.Spec
import proofs.«141671_j53652731461797_1_alg».proof.Proof.LibMinOps

noncomputable section

open scoped BigOperators

namespace Cert.Mmd.Host

open Idealize.ShloMosaic Idealize.ShloMosaic.ValueIdx Idealize.ShloMosaic.TcCoe Cert.KernelIdeal Cert.KernelIdeal.Gen

variable [Cert.KernelIdeal.Facts]

/-- The host's sum along the rows of the entrywise square of a 4096 × 2048 matrix, from the zero word, read at row r:
    the squared norm of that row. -/
theorem rowSq_apply (x : FVec Ideal S4096x2048 .f32) (r : Fin 4096) :
    Host.reduceAdd (F := Ideal) (mulf x x) (constant (F := Ideal) S_ .f32 0x00000000#32) reducesTo_S4096x2048_S4096_d1 h_S_ (ix1 r)
      = Cert.Mmd.rowSq x r := by
  have h : S4096x2048.Reduces [1] S4096 := by decide
  rw [hostReduceAdd_apply, Ideal.hostReduceAdd_single _ h]
  show Ideal.ofBits .f32 0x00000000#32 + _ = _
  rw [Ideal.ofBits_zero_f32, zero_add]
  exact Finset.sum_congr rfl fun k _ => congrArg (mulf x x) (MinOps.lift_row h r k)

/-- The vector of squared row norms of a matrix, as the first stretch computes it. -/
def normsOf (x : FVec Ideal S4096x2048 .f32) : FVec Ideal S4096 .f32 :=
  Host.reduceAdd (F := Ideal) (mulf x x) (constant (F := Ideal) S_ .f32 0x00000000#32) reducesTo_S4096x2048_S4096_d1 h_S_

/-- After the first stretch the column of squared row norms of the first argument. -/
theorem after0_v4 (W : Valuation τ sig (Elt Ideal)) (r : Fin 4096) :
    (StableHlo.after (hostOps0 (F := Ideal)) W main_v4 (ix2 r (0 : Fin 1)) : EReal) = Cert.Mmd.rowSq (W main_arg0 : Cert.Mmd.Mat) r := by
  have e : (StableHlo.after (hostOps0 (F := Ideal)) W main_v4 : S4096x1.Idx → EReal)
      = shapeCast S4096x1 (normsOf (W main_arg0 : S4096x2048.Idx → EReal)) shapeCasts_S4096_S4096x1 := by
    after_results; rfl
  refine (congrFun e _).trans ?_
  rw [MinOps.colCast_apply]; exact rowSq_apply _ r

/-- After the first stretch the row of squared row norms of the first argument. -/
theorem after0_v5 (W : Valuation τ sig (Elt Ideal)) (r : Fin 4096) :
    (StableHlo.after (hostOps0 (F := Ideal)) W main_v5 (ix2 (0 : Fin 1) r) : EReal) = Cert.Mmd.rowSq (W main_arg0 : Cert.Mmd.Mat) r := by
  have e : (StableHlo.after (hostOps0 (F := Ideal)) W main_v5 : S1x4096.Idx → EReal)
      = shapeCast S1x4096 (normsOf (W main_arg0 : S4096x2048.Idx → EReal)) shapeCasts_S4096_S1x4096 := by
    after_results; rfl
  refine (congrFun e _).trans ?_
  rw [MinOps.rowCast_apply]; exact rowSq_apply _ r

/-- After the first stretch the column of squared row norms of the second argument. -/
theorem after0_v6 (W : Valuation τ sig (Elt Ideal)) (r : Fin 4096) :
    (StableHlo.after (hostOps0 (F := Ideal)) W main_v6 (ix2 r (0 : Fin 1)) : EReal) = Cert.Mmd.rowSq (W main_arg1 : Cert.Mmd.Mat) r := by
  have e : (StableHlo.after (hostOps0 (F := Ideal)) W main_v6 : S4096x1.Idx → EReal)
      = shapeCast S4096x1 (normsOf (W main_arg1 : S4096x2048.Idx → EReal)) shapeCasts_S4096_S4096x1 := by
    after_results; rfl
  refine (congrFun e _).trans ?_
  rw [MinOps.colCast_apply]; exact rowSq_apply _ r

/-- After the first stretch the row of squared row norms of the second argument. -/
theorem after0_v7 (W : Valuation τ sig (Elt Ideal)) (r : Fin 4096) :
    (StableHlo.after (hostOps0 (F := Ideal)) W main_v7 (ix2 (0 : Fin 1) r) : EReal) = Cert.Mmd.rowSq (W main_arg1 : Cert.Mmd.Mat) r := by
  have e : (StableHlo.after (hostOps0 (F := Ideal)) W main_v7 : S1x4096.Idx → EReal)
      = shapeCast S1x4096 (normsOf (W main_arg1 : S4096x2048.Idx → EReal)) shapeCasts_S4096_S1x4096 := by
    after_results; rfl
  refine (congrFun e _).trans ?_
  rw [MinOps.rowCast_apply]; exact rowSq_apply _ r

/-- The first stretch leaves the first argument as it was. -/
theorem after0_arg0 (W : Valuation τ sig (Elt Ideal)) : StableHlo.after (hostOps0 (F := Ideal)) W main_arg0 = W main_arg0 :=
  StableHlo.after_of_writes_sub hostOps0 _ hostOps0_writes (by decide)

/-- The first stretch leaves the second argument as it was. -/
theorem after0_arg1 (W : Valuation τ sig (Elt Ideal)) : StableHlo.after (hostOps0 (F := Ideal)) W main_arg1 = W main_arg1 :=
  StableHlo.after_of_writes_sub hostOps0 _ hostOps0_writes (by decide)

end Cert.Mmd.Host

end
-- ==== Proof.TileOf.lean ====
/-
  The sum of a tile's Gaussian entries written over four arrays: the two matrices, a column holding the first one's
  squared row norms and a row holding the second one's. When the column and the row do hold those norms it is the
  tile sum of the specification.
-/
import proofs.«141671_j53652731461797_1_alg».proof.Proof.Spec

noncomputable section

open scoped BigOperators

namespace Cert.Mmd

open Idealize.ShloMosaic Idealize.ShloMosaic.ValueIdx

/-- The sum over tile (i, j) of exp(−2⁻²² · ((n_p + m_q) − 2·⟨x_p, y_q⟩)), the squared norms n, m read from a column and a row. -/
def tileOf (A0 A1 : (⟨2, ![4096, 2048]⟩ : Shape).Idx → EReal) (A2 : (⟨2, ![4096, 1]⟩ : Shape).Idx → EReal)
    (A3 : (⟨2, ![1, 4096]⟩ : Shape).Idx → EReal) (i : Fin 4) (j : Fin 8) : EReal :=
  ∑ p : Fin 1024, ∑ q : Fin 512,
    Ideal.exp (Ideal.ofBits .f32 0xB4800000#32 * ((A2 (ix2 (rowOf i p) (0 : Fin 1)) + A3 (ix2 (0 : Fin 1) (colOf j q)))
      - Ideal.ofBits .f32 0x40000000#32 * ∑ k : Fin 2048, A0 (ix2 (rowOf i p) k) * A1 (ix2 (colOf j q) k)))

/-- With the column and the row holding the squared row norms, the sum is the specification's tile sum. -/
theorem tileOf_eq_tile (a b : Mat) (A2 : (⟨2, ![4096, 1]⟩ : Shape).Idx → EReal) (A3 : (⟨2, ![1, 4096]⟩ : Shape).Idx → EReal)
    (h2 : ∀ r : Fin 4096, A2 (ix2 r (0 : Fin 1)) = rowSq a r) (h3 : ∀ r : Fin 4096, A3 (ix2 (0 : Fin 1) r) = rowSq b r)
    (i : Fin 4) (j : Fin 8) : tileOf a b A2 A3 i j = tile a b i j := by
  unfold tileOf tile
  refine Finset.sum_congr rfl fun p _ => Finset.sum_congr rfl fun q _ => ?_
  rw [h2, h3]
  rfl

end Cert.Mmd

end
-- ==== Proof.KI.ValueChain.lean ====
/-
  The kernel's result, assembled from the three calls' totals.

  The last host stretch forms the statistic from three scalars: the sums of all entries of the three 32 × 128 arrays
  the calls leave. Each such sum is, tile by tile, the sum of the Gaussian entries of a pair of matrices, read over
  the arrays the call was entered with: the two matrices, a column of squared row norms and a row of them. Those entry
  contents are walked back to the launch: an argument is written by no host stretch and is no call's result, so it
  holds its launch contents; a column or a row of norms is written by the first stretch only, which fills it with the
  squared row norms of an argument. So the three sums are the specification's tile-by-tile sums of the pairs (a, a),
  (b, b), (a, b), and the result is the statistic of the two inputs.
-/
import proofs.«141671_j53652731461797_1_alg».proof.Proof.KI.Run
import proofs.«141671_j53652731461797_1_alg».proof.Proof.HostAt
import proofs.«141671_j53652731461797_1_alg».proof.Proof.HostAt0
import proofs.«141671_j53652731461797_1_alg».proof.Proof.TileOf
import proofs.«141671_j53652731461797_1_alg».proof.Proof.Spec

noncomputable section

open scoped BigOperators

namespace Cert.KernelIdeal.Hand

open Cert.KernelIdeal Cert.KernelIdeal.Gen
open Idealize.ShloMosaic Idealize.ShloMosaic.TcCoe Idealize.ShloMosaic.ValueIdx
open Cert.Mmd

/-! ## A buffer no later stretch writes and no earlier call leaves is as the first stretch left it -/

section Walk

variable {F : FTy → Type} [FloatOps F]
variable (m : (ℓ : Loc nD τ sig) → Buf (Elt F) ℓ) (c : Dev nD)

/-- Entering the second call: a buffer the second stretch does not write, other than the first call's result. -/
theorem W3_of (b : Ref sig .tc) (h1 : b ∉ hostOps1_W) (h8 : b ≠ main_v8) : W3 m c b = W1 m c b :=
  (StableHlo.after_of_writes_sub hostOps1 _ hostOps1_writes h1).trans (W2_of_ne m c b h8)

/-- Entering the third call: a buffer neither later stretch writes, other than the first two calls' results. -/
theorem W5_of (b : Ref sig .tc) (h2 : b ∉ hostOps2_W) (h10 : b ≠ main_v10) (h1 : b ∉ hostOps1_W) (h8 : b ≠ main_v8) :
    W5 m c b = W1 m c b :=
  (StableHlo.after_of_writes_sub hostOps2 _ hostOps2_writes h2).trans ((W4_of_ne m c b h10).trans (W3_of m c b h1 h8))

end Walk

variable (m : (ℓ : Loc nD τ sig) → Buf (Elt Ideal) ℓ) (c : Dev nD)

/-! ## After the first stretch: the arguments and their squared row norms -/

theorem W1_arg0 : W1 m c main_arg0 = m ((c : Thread nD τ).loc main_arg0) := Host.after0_arg0 (W0 m c)
theorem W1_arg1 : W1 m c main_arg1 = m ((c : Thread nD τ).loc main_arg1) := Host.after0_arg1 (W0 m c)

theorem W1_v4 (r : Fin 4096) : (W1 m c main_v4 (ix2 r (0 : Fin 1)) : EReal) = rowSq (m ((c : Thread nD τ).loc main_arg0)) r :=
  Host.after0_v4 (W0 m c) r
theorem W1_v5 (r : Fin 4096) : (W1 m c main_v5 (ix2 (0 : Fin 1) r) : EReal) = rowSq (m ((c : Thread nD τ).loc main_arg0)) r :=
  Host.after0_v5 (W0 m c) r
theorem W1_v6 (r : Fin 4096) : (W1 m c main_v6 (ix2 r (0 : Fin 1)) : EReal) = rowSq (m ((c : Thread nD τ).loc main_arg1)) r :=
  Host.after0_v6 (W0 m c) r
theorem W1_v7 (r : Fin 4096) : (W1 m c main_v7 (ix2 (0 : Fin 1) r) : EReal) = rowSq (m ((c : Thread nD τ).loc main_arg1)) r :=
  Host.after0_v7 (W0 m c) r

/-! ## What each call is entered with -/

theorem V1_arg0 : V1 m c main_arg0 = m ((c : Thread nD τ).loc main_arg0) := W1_arg0 m c
theorem V1_v4 (r : Fin 4096) : (V1 m c main_v4 (ix2 r (0 : Fin 1)) : EReal) = rowSq (m ((c : Thread nD τ).loc main_arg0)) r := W1_v4 m c r
theorem V1_v5 (r : Fin 4096) : (V1 m c main_v5 (ix2 (0 : Fin 1) r) : EReal) = rowSq (m ((c : Thread nD τ).loc main_arg0)) r := W1_v5 m c r

theorem V3_arg1 : V3 m c main_arg1 = m ((c : Thread nD τ).loc main_arg1) :=
  (W3_of m c main_arg1 (by decide) (by decide)).trans (W1_arg1 m c)
theorem V3_v6 (r : Fin 4096) : (V3 m c main_v6 (ix2 r (0 : Fin 1)) : EReal) = rowSq (m ((c : Thread nD τ).loc main_arg1)) r :=
  (congrFun (W3_of m c main_v6 (by decide) (by decide)) _).trans (W1_v6 m c r)
theorem V3_v7 (r : Fin 4096) : (V3 m c main_v7 (ix2 (0 : Fin 1) r) : EReal) = rowSq (m ((c : Thread nD τ).loc main_arg1)) r :=
  (congrFun (W3_of m c main_v7 (by decide) (by decide)) _).trans (W1_v7 m c r)

theorem V5_arg0 : V5 m c main_arg0 = m ((c : Thread nD τ).loc main_arg0) :=
  (W5_of m c main_arg0 (by decide) (by decide) (by decide) (by decide)).trans (W1_arg0 m c)
theorem V5_arg1 : V5 m c main_arg1 = m ((c : Thread nD τ).loc main_arg1) :=
  (W5_of m c main_arg1 (by decide) (by decide) (by decide) (by decide)).trans (W1_arg1 m c)
theorem V5_v4 (r : Fin 4096) : (V5 m c main_v4 (ix2 r (0 : Fin 1)) : EReal) = rowSq (m ((c : Thread nD τ).loc main_arg0)) r :=
  (congrFun (W5_of m c main_v4 (by decide) (by decide) (by decide) (by decide)) _).trans (W1_v4 m c r)
theorem V5_v7 (r : Fin 4096) : (V5 m c main_v7 (ix2 (0 : Fin 1) r) : EReal) = rowSq (m ((c : Thread nD τ).loc main_arg1)) r :=
  (congrFun (W5_of m c main_v7 (by decide) (by decide) (by decide) (by decide)) _).trans (W1_v7 m c r)

/-! ## A call's tiles, over its entry contents, are the specification's -/

/-- The tile sums over four arrays that are the two matrices and their squared row norms add up to the tile-by-tile sum. -/
theorem tiles_eq_sumK (a b : Mat) (A0 A1 : Mat) (A2 : (⟨2, ![4096, 1]⟩ : Shape).Idx → EReal) (A3 : (⟨2, ![1, 4096]⟩ : Shape).Idx → EReal)
    (e0 : A0 = a) (e1 : A1 = b) (h2 : ∀ r : Fin 4096, A2 (ix2 r (0 : Fin 1)) = rowSq a r)
    (h3 : ∀ r : Fin 4096, A3 (ix2 (0 : Fin 1) r) = rowSq b r) :
    (∑ i : Fin 4, ∑ j : Fin 8, tileOf A0 A1 A2 A3 i j) = sumK a b := by
  subst e0 e1
  unfold sumK
  exact Finset.sum_congr rfl fun i _ => Finset.sum_congr rfl fun j _ => tileOf_eq_tile _ _ _ _ h2 h3 i j

/-! ## The three scalars the last stretch reads -/

/-- The first scalar is written by the second stretch, from the first call's result, and by nothing later. -/
theorem W6_v9 : (W6 m c main_v9 ix0 : EReal) = (∑ r : Fin 32, ∑ l : Fin 128, X0 m c (ix2 r l) : EReal) := by
  have e : W6 m c main_v9 = W3 m c main_v9 :=
    (W6_of_ne m c main_v9 (by decide)).trans
      ((StableHlo.after_of_writes_sub hostOps2 _ hostOps2_writes (show main_v9 ∉ hostOps2_W by decide)).trans
        (W4_of_ne m c main_v9 (by decide)))
  refine (congrFun e ix0).trans ((Host.after1_v9 (W2 m c)).trans ?_)
  rw [W2_out]

/-- The second scalar is written by the third stretch, from the second call's result. -/
theorem W6_v11 : (W6 m c main_v11 ix0 : EReal) = (∑ r : Fin 32, ∑ l : Fin 128, X1 m c (ix2 r l) : EReal) := by
  refine (congrFun (W6_of_ne m c main_v11 (by decide)) ix0).trans ((Host.after2_v11 (W4 m c)).trans ?_)
  rw [W4_out]

/-- The third call's result is read as that call left it. -/
theorem W6_v12 : (∑ r : Fin 32, ∑ l : Fin 128, W6 m c main_v12 (ix2 r l) : EReal) = (∑ r : Fin 32, ∑ l : Fin 128, X2 m c (ix2 r l) : EReal) := by
  rw [W6_out]

/-! ## The result -/

/-- Given each call's total as the sum of its tiles over its entry contents, the result scalar is the statistic, tile by tile. -/
theorem result_of_totals
    (h0 : (∑ r : Fin 32, ∑ l : Fin 128, X0 m c (ix2 r l) : EReal)
      = ∑ i : Fin 4, ∑ j : Fin 8, tileOf (V1 m c main_arg0) (V1 m c main_arg0) (V1 m c main_v4) (V1 m c main_v5) i j)
    (h1 : (∑ r : Fin 32, ∑ l : Fin 128, X1 m c (ix2 r l) : EReal)
      = ∑ i : Fin 4, ∑ j : Fin 8, tileOf (V3 m c main_arg1) (V3 m c main_arg1) (V3 m c main_v6) (V3 m c main_v7) i j)
    (h2 : (∑ r : Fin 32, ∑ l : Fin 128, X2 m c (ix2 r l) : EReal)
      = ∑ i : Fin 4, ∑ j : Fin 8, tileOf (V5 m c main_arg0) (V5 m c main_arg1) (V5 m c main_v4) (V5 m c main_v7) i j) :
    W7 m c main_v19 = fun _ => resultK (m ((c : Thread nD τ).loc main_arg0)) (m ((c : Thread nD τ).loc main_arg1)) := by
  funext idx
  obtain rfl : idx = ix0 := eq_ix0 idx
  have e9 : (W6 m c main_v9 ix0 : EReal) = sumK (m ((c : Thread nD τ).loc main_arg0)) (m ((c : Thread nD τ).loc main_arg0)) :=
    (W6_v9 m c).trans (h0.trans (tiles_eq_sumK _ _ _ _ _ _ (V1_arg0 m c) (V1_arg0 m c) (V1_v4 m c) (V1_v5 m c)))
  have e11 : (W6 m c main_v11 ix0 : EReal) = sumK (m ((c : Thread nD τ).loc main_arg1)) (m ((c : Thread nD τ).loc main_arg1)) :=
    (W6_v11 m c).trans (h1.trans (tiles_eq_sumK _ _ _ _ _ _ (V3_arg1 m c) (V3_arg1 m c) (V3_v6 m c) (V3_v7 m c)))
  have e12 : (∑ r : Fin 32, ∑ l : Fin 128, W6 m c main_v12 (ix2 r l) : EReal)
      = sumK (m ((c : Thread nD τ).loc main_arg0)) (m ((c : Thread nD τ).loc main_arg1)) :=
    (W6_v12 m c).trans (h2.trans (tiles_eq_sumK _ _ _ _ _ _ (V5_arg0 m c) (V5_arg1 m c) (V5_v4 m c) (V5_v7 m c)))
  exact (Host.after3_v19 (W6 m c)).trans (congr (congr (congrArg combine e9) e11) e12)

end Cert.KernelIdeal.Hand

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.PayloadAt.lean ====
/-
  The arithmetic of the kernel's body, read at an index over the extended reals.

  Each of the three calls runs the same body. On the first step of the inner grid axis it stores a block of zeros;
  on every step it adds to the running total kept at position (0, 0) the sum over a 1024 × 512 tile of
  exp(−2⁻²² · (‖x_p‖² + ‖y_q‖² − 2·⟨x_p, y_q⟩)), the squared norms read from a column and a row handed in, the inner
  product taken from the product of the block of x rows with the transposed block of y rows. Over the extended
  reals the narrowing of the operands is the identity, the product into the zero matrix is the sum over the 2048
  shared coordinates, and the two reductions (along the columns, then along the rows) are the plain double sum.
-/
import proofs.«141671_j53652731461797_1_alg».proof.Proof.Gen.KernelIdeal.Skeleton
import proofs.«141671_j53652731461797_1_alg».proof.Proof.LibMinOps
import proofs.«141671_j53652731461797_1_alg».proof.Proof.LibPlainDot

noncomputable section

open scoped BigOperators

namespace Cert.Mmd.Pay

open Idealize.ShloMosaic Idealize.ShloMosaic.ValueIdx Cert.KernelIdeal

variable [Cert.KernelIdeal.Facts]
open Cert.KernelIdeal.Facts₀ Cert.KernelIdeal.Facts

/-- The block stored on the first step is zero everywhere. -/
theorem pay1_apply (i : Cert.KernelIdeal.S8x128.Idx) : Cert.KernelIdeal.Gen.k0_pay1 (F := Ideal) i = 0 :=
  Ideal.ofBits_zero_f32

/-- The same for the second call. -/
theorem k1_pay1_apply (i : Cert.KernelIdeal.S8x128.Idx) : Cert.KernelIdeal.Gen.k1_pay1 (F := Ideal) i = 0 :=
  Ideal.ofBits_zero_f32

/-- The same for the third call. -/
theorem k2_pay1_apply (i : Cert.KernelIdeal.S8x128.Idx) : Cert.KernelIdeal.Gen.k2_pay1 (F := Ideal) i = 0 :=
  Ideal.ofBits_zero_f32

/-- The product of the first block with the transposed second block, read at (p, q): the inner product of row p of the
    first block and row q of the second. -/
theorem dot_apply (v3 : FVec Ideal S1024x2048 .f32) (v5 : FVec Ideal S512x2048 .f32) (p : Fin 1024) (q : Fin 512) :
    matmul dot_S1024x2048_S2048x512_S1024x512_1_0_0_1_n_n none
        (truncf .bf16 v3 bitsLt_bf16_f32 : FVec Ideal S1024x2048 .bf16)
        (transpose S2048x512 [1, 0] (truncf .bf16 v5 bitsLt_bf16_f32 : FVec Ideal S512x2048 .bf16) transposes_S512x2048_p1_0_S2048x512)
        (constant S1024x512 .f32 0x00000000#32) (ix2 p q)
      = ∑ k : Fin 2048, v3 (ix2 p k) * v5 (ix2 q k) := by
  refine (PlainDot.matmul_zero_apply (M := 1024) (K := 2048) (N := 512) none _ _ p q).trans ?_
  refine Finset.sum_congr rfl fun k _ => ?_
  refine congrArg (fun x => v3 (ix2 p k) * x) ?_
  exact transpose_apply [1, 0] _ transposes_S512x2048_p1_0_S2048x512 (ix2 k q) (ix2 q k) fun b => by
    match b with
    | ⟨0, _⟩ => rfl
    | ⟨1, _⟩ => rfl

/-- The tile of Gaussian entries as the body computes it from the four blocks it reads. -/
def tileMat (v3 : FVec Ideal S1024x2048 .f32) (v5 : FVec Ideal S512x2048 .f32) (v9 : FVec Ideal S1024x1 .f32)
    (v11 : FVec Ideal S1x512 .f32) : FVec Ideal S1024x512 .f32 :=
  exp (mulf (broadcast S1024x512 (Scalar.ofBits .f32 0xB4800000#32))
    (subf
      (addf (broadcastTo S1024x512 (shapeCast S1024x1 v9 shapeCasts_S1024x1_S1024x1) broadcasts_S1024x1_S1024x512)
        (broadcastTo S1024x512 (shapeCast S1x512 v11 shapeCasts_S1x512_S1x512) broadcasts_S1x512_S1024x512))
      (mulf (broadcast S1024x512 (Scalar.ofBits .f32 0x40000000#32))
        (matmul dot_S1024x2048_S2048x512_S1024x512_1_0_0_1_n_n none
          (truncf .bf16 v3 bitsLt_bf16_f32 : FVec Ideal S1024x2048 .bf16)
          (transpose S2048x512 [1, 0] (truncf .bf16 v5 bitsLt_bf16_f32 : FVec Ideal S512x2048 .bf16) transposes_S512x2048_p1_0_S2048x512)
          (constant S1024x512 .f32 0x00000000#32)))))

/-- Entry (p, q) of the tile: the exponential of the scaled squared distance, the squared norms read from the column
    and the row handed in and the inner product from the matrix product. -/
theorem tileMat_apply (v3 : FVec Ideal S1024x2048 .f32) (v5 : FVec Ideal S512x2048 .f32) (v9 : FVec Ideal S1024x1 .f32)
    (v11 : FVec Ideal S1x512 .f32) (p : Fin 1024) (q : Fin 512) :
    tileMat v3 v5 v9 v11 (ix2 p q)
      = Ideal.exp (Ideal.ofBits .f32 0xB4800000#32 * ((v9 (ix2 p (0 : Fin 1)) + v11 (ix2 (0 : Fin 1) q))
          - Ideal.ofBits .f32 0x40000000#32 * ∑ k : Fin 2048, v3 (ix2 p k) * v5 (ix2 q k))) := by
  show Ideal.exp (Ideal.ofBits .f32 0xB4800000#32 *
      ((broadcastTo S1024x512 (shapeCast S1024x1 v9 shapeCasts_S1024x1_S1024x1) broadcasts_S1024x1_S1024x512 (ix2 p q)
          + broadcastTo S1024x512 (shapeCast S1x512 v11 shapeCasts_S1x512_S1x512) broadcasts_S1x512_S1024x512 (ix2 p q))
        - Ideal.ofBits .f32 0x40000000#32 *
          matmul dot_S1024x2048_S2048x512_S1024x512_1_0_0_1_n_n none
            (truncf .bf16 v3 bitsLt_bf16_f32 : FVec Ideal S1024x2048 .bf16)
            (transpose S2048x512 [1, 0] (truncf .bf16 v5 bitsLt_bf16_f32 : FVec Ideal S512x2048 .bf16) transposes_S512x2048_p1_0_S2048x512)
            (constant S1024x512 .f32 0x00000000#32) (ix2 p q))) = _
  rw [dot_apply, shapeCast_self, shapeCast_self, MinOps.colBcast_apply, MinOps.rowBcast_apply]

/-- The body's value is the accumulator plus the tile's sum, as the two reductions and the re-layouts around them spell it. -/
theorem pay2_eq (v3 : Vec Ideal S1024x2048 .f32) (v5 : Vec Ideal S512x2048 .f32) (v9 : Vec Ideal S1024x1 .f32)
    (v11 : Vec Ideal S1x512 .f32) (v26 : Vec Ideal S1x1 .f32) :
    Cert.KernelIdeal.Gen.k0_pay2 (F := Ideal) v3 v5 v9 v11 v26
      = addf (shapeCast S1x1 v26 shapeCasts_S1x1_S1x1)
          (shapeCast S1x1
            (multiReduction (F := Ideal) .add [0] S1
              (shapeCast S1024x1
                (multiReduction (F := Ideal) .add [1] S1024 (tileMat v3 v5 v9 v11) 0x00000000#32 reduces_S1024x512_S1024 (.inl rfl) rfl)
                shapeCasts_S1024_S1024x1)
              0x00000000#32 reduces_S1024x1_S1 (.inl rfl) rfl)
            shapeCasts_S1_S1x1) := rfl

/-- The value stored at (0, 0): the running total plus the double sum of the tile's Gaussian entries. -/
theorem pay2_apply (v3 : Vec Ideal S1024x2048 .f32) (v5 : Vec Ideal S512x2048 .f32) (v9 : Vec Ideal S1024x1 .f32)
    (v11 : Vec Ideal S1x512 .f32) (v26 : Vec Ideal S1x1 .f32) (i : S1x1.Idx) :
    Cert.KernelIdeal.Gen.k0_pay2 (F := Ideal) v3 v5 v9 v11 v26 i
      = v26 (ix2 (0 : Fin 1) (0 : Fin 1)) + ∑ p : Fin 1024, ∑ q : Fin 512,
          Ideal.exp (Ideal.ofBits .f32 0xB4800000#32 * ((v9 (ix2 p (0 : Fin 1)) + v11 (ix2 (0 : Fin 1) q))
            - Ideal.ofBits .f32 0x40000000#32 * ∑ k : Fin 2048, v3 (ix2 p k) * v5 (ix2 q k))) := by
  obtain ⟨a, b, rfl⟩ : ∃ (a : Fin 1) (b : Fin 1), i = ix2 a b := ⟨i 0, i 1, eq_ix2 i⟩
  obtain rfl : a = 0 := Subsingleton.elim _ _
  obtain rfl : b = 0 := Subsingleton.elim _ _
  rw [pay2_eq, addf_apply, shapeCast_self, MinOps.rowCast_apply, MinOps.colSum_vector]
  refine congrArg (fun x => v26 (ix2 (0 : Fin 1) (0 : Fin 1)) + x) ?_
  refine Finset.sum_congr rfl fun p _ => ?_
  rw [MinOps.colCast_apply, MinOps.rowSum_vector]
  exact Finset.sum_congr rfl fun q _ => tileMat_apply v3 v5 v9 v11 p q

/-- The second call's body is the first call's, term for term. -/
theorem k1_pay2_eq : @Cert.KernelIdeal.Gen.k1_pay2 = @Cert.KernelIdeal.Gen.k0_pay2 := rfl

/-- The third call's body is the first call's, term for term. -/
theorem k2_pay2_eq : @Cert.KernelIdeal.Gen.k2_pay2 = @Cert.KernelIdeal.Gen.k0_pay2 := rfl

/-- The value the second call stores at (0, 0). -/
theorem k1_pay2_apply (v3 : Vec Ideal S1024x2048 .f32) (v5 : Vec Ideal S512x2048 .f32) (v9 : Vec Ideal S1024x1 .f32)
    (v11 : Vec Ideal S1x512 .f32) (v26 : Vec Ideal S1x1 .f32) (i : S1x1.Idx) :
    Cert.KernelIdeal.Gen.k1_pay2 (F := Ideal) v3 v5 v9 v11 v26 i
      = v26 (ix2 (0 : Fin 1) (0 : Fin 1)) + ∑ p : Fin 1024, ∑ q : Fin 512,
          Ideal.exp (Ideal.ofBits .f32 0xB4800000#32 * ((v9 (ix2 p (0 : Fin 1)) + v11 (ix2 (0 : Fin 1) q))
            - Ideal.ofBits .f32 0x40000000#32 * ∑ k : Fin 2048, v3 (ix2 p k) * v5 (ix2 q k))) :=
  pay2_apply v3 v5 v9 v11 v26 i

/-- The value the third call stores at (0, 0). -/
theorem k2_pay2_apply (v3 : Vec Ideal S1024x2048 .f32) (v5 : Vec Ideal S512x2048 .f32) (v9 : Vec Ideal S1024x1 .f32)
    (v11 : Vec Ideal S1x512 .f32) (v26 : Vec Ideal S1x1 .f32) (i : S1x1.Idx) :
    Cert.KernelIdeal.Gen.k2_pay2 (F := Ideal) v3 v5 v9 v11 v26 i
      = v26 (ix2 (0 : Fin 1) (0 : Fin 1)) + ∑ p : Fin 1024, ∑ q : Fin 512,
          Ideal.exp (Ideal.ofBits .f32 0xB4800000#32 * ((v9 (ix2 p (0 : Fin 1)) + v11 (ix2 (0 : Fin 1) q))
            - Ideal.ofBits .f32 0x40000000#32 * ∑ k : Fin 2048, v3 (ix2 p k) * v5 (ix2 q k))) :=
  pay2_apply v3 v5 v9 v11 v26 i

end Cert.Mmd.Pay

end
-- ==== Proof.KI.Out0.lean ====
/-
  What the body leaves in the 8 × 128 result block of the first call, read at an index over the extended reals.

  Where the inner grid coordinate is zero the body zeroes the block, reads the corner back (zero) and stores
  0 + S into the corner, S the sum of the tile's Gaussian entries formed from the four blocks it read: the corner
  holds 0 + S and every other entry zero. Elsewhere it reads the corner c it finds and stores c + S into it: the
  corner holds c + S and every other entry is what it was. The stores are read newest first: an index under the
  newest store reads its payload, any other index what the earlier stores or the earlier contents left.
-/
import proofs.«141671_j53652731461797_1_alg».proof.Proof.KI.Region0
import proofs.«141671_j53652731461797_1_alg».proof.Proof.PayloadAt
import proofs.«141671_j53652731461797_1_alg».proof.Proof.TileOf
import Idealize.ShloMosaic.Lib.Pipeline.Value
import Idealize.ShloMosaic.Lib.WritesUnit
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

theorem hz : (![0, 0] : Fin 2 → Nat) = fun _ => 0 := funext fun a => by fin_cases a <;> rfl

/-! ## What each case leaves in the result block, at an index -/

/-- The sum of the tile's Gaussian entries from the four blocks the body reads. -/
def blockSum (x0 : Vec Ideal S1024x2048 .f32) (x1 : Vec Ideal S512x2048 .f32) (x2 : Vec Ideal S1024x1 .f32)
    (x3 : Vec Ideal S1x512 .f32) : EReal :=
  ∑ p : Fin 1024, ∑ q : Fin 512,
    Ideal.exp (Ideal.ofBits .f32 0xB4800000#32 * ((x2 (ix2 p (0 : Fin 1)) + x3 (ix2 (0 : Fin 1) q))
      - Ideal.ofBits .f32 0x40000000#32 * ∑ k : Fin 2048, x0 (ix2 p k) * x1 (ix2 q k)))

/-- The corner read back from the freshly zeroed block is zero. -/
theorem readback_zero (arg6 : Memref sig .tc .vmem S8x128 .f32)
    (j : (Rect.unit (s := S8x128) ![0, 0] ![1, 1] inb_S8x128_S1x1_0_0).toLoadRect.shape.Idx) :
    arg6.view.readCov (Val := Elt Ideal)
      [(⟨Rect.unit (s := S8x128) ![0, 0] ![8, 128] inb_S8x128_S8x128_0_0, k0_pay1 (F := Ideal)⟩ : View.Piece (Elt Ideal) S8x128 .f32)]
      (Rect.unit (s := S8x128) ![0, 0] ![1, 1] inb_S8x128_S1x1_0_0).toLoadRect j = 0 := by
  rw [View.readCov_eq_canon']
  show View.canon _ _ = 0
  rw [View.canon_unit_zero (S := S8x128) hz]
  exact Cert.Mmd.Pay.pay1_apply _

/-- Where the inner grid coordinate is zero the body leaves the tile's sum (added to zero) in the corner and zero elsewhere. -/
theorem out0_A_apply (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : cond0 i)
    (x0 : Vec Ideal S1024x2048 .f32) (x1 : Vec Ideal S512x2048 .f32) (x2 : Vec Ideal S1024x1 .f32) (x3 : Vec Ideal S1x512 .f32)
    (a : Fin 8) (b : Fin 128) :
    out0_A (F := Ideal) c i arg2 harg2 arg3 harg3 arg4 harg4 arg5 harg5 arg6 harg6 hc0 x0 x1 x2 x3 (ix2 a b)
      = if a.val = 0 ∧ b.val = 0 then 0 + blockSum x0 x1 x2 x3 else 0 := by
  unfold out0_A kernelRun0_A
  dsimp only
  sl_unfold_words
  simp only [View.readAt_eq_ld, harg2.read_unread, harg3.read_unread, harg4.read_unread, harg5.read_unread,
    View.ld_unit_zero (S := S1024x2048) hz, View.ld_unit_zero (S := S512x2048) hz, View.ld_unit_zero (S := S1024x1) hz, View.ld_unit_zero (S := S1x512) hz]
  by_cases h : a.val = 0 ∧ b.val = 0
  · rw [if_pos h]
    refine (View.read_writes_cons_unit_of_mem _ _ inb_S8x128_S1x1_0_0 _ _ (ix2 a b) (ix2 (0 : Fin 1) (0 : Fin 1)) rfl (fun d => ?_)).trans ?_
    · match d with
      | ⟨0, _⟩ => exact h.1
      | ⟨1, _⟩ => exact h.2
    · rw [Cert.Mmd.Pay.pay2_apply, readback_zero]
      rfl
  · rw [if_neg h]
    have hrest : (VO0).view.read (Elt Ideal) ((VO0).view.writes (Elt Ideal) (VO0).view.junk
        [(⟨Rect.unit ![0, 0] ![8, 128] inb_S8x128_S8x128_0_0, k0_pay1 (F := Ideal)⟩ : View.Piece (Elt Ideal) S8x128 .f32)]) (ix2 a b) = 0 := by
      refine (View.read_writes_cons_unit_of_mem _ _ inb_S8x128_S8x128_0_0 _ _ (ix2 a b) (ix2 a b) rfl (fun d => ?_)).trans (Cert.Mmd.Pay.pay1_apply _)
      match d with
      | ⟨0, _⟩ => exact (Nat.zero_add _).symm
      | ⟨1, _⟩ => exact (Nat.zero_add _).symm
    by_cases ha : a.val = 0
    · have hb : b.val ≠ 0 := fun hb => h ⟨ha, hb⟩
      refine (View.read_writes_cons_unit_of_not_mem _ _ inb_S8x128_S1x1_0_0 _ _ (ix2 a b) rfl (1 : Fin 2) (Or.inr ?_)).trans hrest
      show 0 + 1 ≤ b.val
      omega
    · refine (View.read_writes_cons_unit_of_not_mem _ _ inb_S8x128_S1x1_0_0 _ _ (ix2 a b) rfl (0 : Fin 2) (Or.inr ?_)).trans hrest
      show 0 + 1 ≤ a.val
      omega

/-- Where the inner grid coordinate is not zero the body adds the tile's sum to the corner it found and leaves the rest. -/
theorem out0_B_apply (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : ¬cond0 i)
    (x0 : Vec Ideal S1024x2048 .f32) (x1 : Vec Ideal S512x2048 .f32) (x2 : Vec Ideal S1024x1 .f32) (x3 : Vec Ideal S1x512 .f32)
    (xo4 : Vec Ideal S8x128 .f32) (a : Fin 8) (b : Fin 128) :
    out0_B (F := Ideal) c i arg2 harg2 arg3 harg3 arg4 harg4 arg5 harg5 arg6 harg6 hc0 x0 x1 x2 x3 xo4 (ix2 a b)
      = if a.val = 0 ∧ b.val = 0 then xo4 (ix2 (0 : Fin 8) (0 : Fin 128)) + blockSum x0 x1 x2 x3 else xo4 (ix2 a b) := by
  unfold out0_B kernelRun0_B
  dsimp only
  sl_unfold_words
  simp only [View.readAt_eq_ld, harg2.read_unread, harg3.read_unread, harg4.read_unread, harg5.read_unread, harg6.read_unread,
    View.ld_unit_zero (S := S1024x2048) hz, View.ld_unit_zero (S := S512x2048) hz, View.ld_unit_zero (S := S1024x1) hz, View.ld_unit_zero (S := S1x512) hz]
  by_cases h : a.val = 0 ∧ b.val = 0
  · rw [if_pos h]
    refine (View.read_writes_cons_unit_of_mem _ _ inb_S8x128_S1x1_0_0 _ _ (ix2 a b) (ix2 (0 : Fin 1) (0 : Fin 1)) rfl (fun d => ?_)).trans ?_
    · match d with
      | ⟨0, _⟩ => exact h.1
      | ⟨1, _⟩ => exact h.2
    · rw [Cert.Mmd.Pay.pay2_apply]
      refine congrArg₂ (· + ·) ?_ rfl
      exact congrArg xo4 (funext fun d => Fin.ext (by
        match d with
        | ⟨0, _⟩ => rfl
        | ⟨1, _⟩ => rfl))
  · rw [if_neg h]
    have hrest : (VO0).view.read (Elt Ideal) ((VO0).view.writes (Elt Ideal) (hVO0.unread xo4) []) (ix2 a b) = xo4 (ix2 a b) :=
      congrFun (hVO0.read_unread xo4) (ix2 a b)
    by_cases ha : a.val = 0
    · have hb : b.val ≠ 0 := fun hb => h ⟨ha, hb⟩
      refine (View.read_writes_cons_unit_of_not_mem _ _ inb_S8x128_S1x1_0_0 _ _ (ix2 a b) rfl (1 : Fin 2) (Or.inr ?_)).trans hrest
      show 0 + 1 ≤ b.val
      omega
    · refine (View.read_writes_cons_unit_of_not_mem _ _ inb_S8x128_S1x1_0_0 _ _ (ix2 a b) rfl (0 : Fin 2) (Or.inr ?_)).trans hrest
      show 0 + 1 ≤ a.val
      omega

end Cert.KernelIdeal.Hand

end
-- ==== Proof.CornerSum.lean ====
/-
  Three facts about finite sums in a commutative monoid.

  A 32 × 128 table that vanishes off the corners (8·i, 0) of its four 8 × 128 blocks sums to the sum of its four
  corner values: in each row only the entry of column 0 can be nonzero, the 32 rows are the 4 blocks of 8 rows, and
  in each block only row 0 of the block can be nonzero. A running total started from zero with one addend per
  step is, after the last step, the sum of all the addends.
-/
import proofs.«141671_j53652731461797_1_alg».proof.Proof.Spec

open scoped BigOperators

namespace Cert.Mmd

/-- The 32 rows are the 4 blocks of 8 rows. -/
theorem sum_blocks {M : Type*} [AddCommMonoid M] (h : Fin 32 → M) :
    ∑ r : Fin 32, h r = ∑ i : Fin 4, ∑ p : Fin 8, h ⟨8 * i.val + p.val, by omega⟩ := by
  rw [← Fintype.sum_prod_type' (fun (i : Fin 4) (p : Fin 8) => h ⟨8 * i.val + p.val, by omega⟩)]
  refine (Fintype.sum_equiv (finProdFinEquiv : Fin 4 × Fin 8 ≃ Fin 32) _ _ (fun x => ?_)).symm
  refine congrArg h (Fin.ext ?_)
  simp only [finProdFinEquiv_apply_val]
  omega

/-- A table that vanishes off the four block corners sums to the sum of its corner values. -/
theorem sum_of_corners {M : Type*} [AddCommMonoid M] (G : Fin 32 → Fin 128 → M) (g : Fin 4 → M)
    (hc : ∀ i : Fin 4, G ⟨8 * i.val, by omega⟩ 0 = g i)
    (hz : ∀ r l, ¬ (l.val = 0 ∧ r.val % 8 = 0) → G r l = 0) : ∑ r, ∑ l, G r l = ∑ i, g i := by
  -- in a row only column 0 counts
  have hrow : ∀ r : Fin 32, ∑ l : Fin 128, G r l = G r 0 := fun r =>
    Fintype.sum_eq_single (0 : Fin 128) (fun l hl => hz r l (fun h => hl (Fin.ext h.1)))
  rw [Fintype.sum_congr _ _ hrow, sum_blocks (fun r => G r 0)]
  refine Fintype.sum_congr _ _ (fun i => ?_)
  -- in a block only its first row counts
  have hblk : ∀ p : Fin 8, p ≠ 0 → G ⟨8 * i.val + p.val, by omega⟩ 0 = 0 := fun p hp =>
    hz _ _ (fun h => hp (Fin.ext (by
      have h2 : (8 * i.val + p.val) % 8 = 0 := h.2
      show p.val = 0
      omega)))
  rw [Fintype.sum_eq_single (0 : Fin 8) hblk]
  exact hc i

/-- The table given by its corner values: zero except at (8·i, 0), where it is `g i`. -/
theorem sum_corner {M : Type*} [AddCommMonoid M] (g : Fin 4 → M) :
    (∑ r : Fin 32, ∑ l : Fin 128, (if l.val = 0 ∧ r.val % 8 = 0 then g ⟨r.val / 8, by omega⟩ else 0))
      = ∑ i : Fin 4, g i := by
  refine sum_of_corners (fun r l => if l.val = 0 ∧ r.val % 8 = 0 then g ⟨r.val / 8, by omega⟩ else 0) g
    (fun i => ?_) (fun r l h => if_neg h)
  have hcond : ((0 : Fin 128).val = 0 ∧ (8 * i.val) % 8 = 0) := ⟨rfl, by omega⟩
  refine (if_pos hcond).trans (congrArg g (Fin.ext ?_))
  show 8 * i.val / 8 = i.val
  omega

/-- A running total started from zero, one addend per step, is the sum after the last step. -/
theorem prefix_sum {M : Type*} [AddCommMonoid M] (f : Fin 8 → M) (acc : ℕ → M) (h0 : acc 0 = 0 + f 0)
    (hs : ∀ j : ℕ, (hj : j + 1 < 8) → acc (j + 1) = acc j + f ⟨j + 1, hj⟩) : acc 7 = ∑ j : Fin 8, f j := by
  have e1 : acc 1 = acc 0 + f 1 := hs 0 (by omega)
  have e2 : acc 2 = acc 1 + f 2 := hs 1 (by omega)
  have e3 : acc 3 = acc 2 + f 3 := hs 2 (by omega)
  have e4 : acc 4 = acc 3 + f 4 := hs 3 (by omega)
  have e5 : acc 5 = acc 4 + f 5 := hs 4 (by omega)
  have e6 : acc 6 = acc 5 + f 6 := hs 5 (by omega)
  have e7 : acc 7 = acc 6 + f 7 := hs 6 (by omega)
  rw [Fin.sum_univ_eight, e7, e6, e5, e4, e3, e2, e1, h0, zero_add]

end Cert.Mmd
-- ==== Proof.KI.Value0.lean ====
/-
  The result array of the first call, over the extended reals: the sum of all its entries is the sum over the 4 × 8
  tiles of the tiles' Gaussian sums.

  A grid point t = 8·i + j reads rows 1024·i … of the first operand, rows 512·j … of the second, and the matching
  pieces of the column and the row of squared norms, so the sum the body forms there is the tile sum of (i, j) over
  the arrays the call finds. Along a row of tiles the corner of the 8 × 128 result block runs through the partial
  sums 0 + T(i,0), … + T(i,j) and every other entry stays zero; after j = 7 the block is written to rows 8·i … of
  the 32 × 128 result array. So the array holds the row totals at (8·i, 0) and zero elsewhere, and its entries add
  up to the sum of all the tile sums.
-/
import proofs.«141671_j53652731461797_1_alg».proof.Proof.KI.Region0
import proofs.«141671_j53652731461797_1_alg».proof.Proof.KI.Out0
import proofs.«141671_j53652731461797_1_alg».proof.Proof.CornerSum
import proofs.«141671_j53652731461797_1_alg».proof.Proof.PayloadAt
import proofs.«141671_j53652731461797_1_alg».proof.Proof.TileOf
import Idealize.ShloMosaic.Lib.Pipeline.Value
import Idealize.ShloMosaic.Lib.WritesUnit
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

/-! ## The windows' blocks at a point, read off the arrays -/

theorem hN0 : cfg0.N = 32 := N_0

/-- The row of tiles a point is in. -/
def ti (t : Fin cfg0.N) : Fin 4 := ⟨t.val / 8, by have h : t.val < 32 := lt_of_lt_of_eq t.isLt hN0; omega⟩
/-- The tile's place in its row. -/
def tj (t : Fin cfg0.N) : Fin 8 := ⟨t.val % 8, by omega⟩

/-- The printed index maps over the grid: the row windows move with t / 8, the column windows with t % 8. -/
theorem idx_facts0 : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0 :=
  (by decide +kernel : ∀ t : Fin grid0.N, _)

variable (V : (c : Dev nD) → (b : Ref sig .tc) → Buf (Elt Ideal) ((c : Thread nD τ).loc b))

/-- The block of x rows at a point: rows 1024·i … of the first array. -/
theorem iblk0_0_apply (c : Dev nD) (t : Fin cfg0.N) (p : Fin 1024) (k : Fin 2048) :
    iblk0 (F := Ideal) V c 0 t (ix2 p k) = V c main_arg0 (ix2 (Cert.Mmd.rowOf (ti t) p) k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 1024 + 1 * p.val = 1024 * (t.val / 8) + p.val; rw [e0]; omega
  | ⟨1, _⟩ => show win0_0.index t (1 : Fin 2) * 2048 + 1 * k.val = k.val; rw [e1]; omega

/-- The block of y rows at a point: rows 512·j … of the same array. -/
theorem iblk0_1_apply (c : Dev nD) (t : Fin cfg0.N) (q : Fin 512) (k : Fin 2048) :
    iblk0 (F := Ideal) V c 1 t (ix2 q k) = V c main_arg0 (ix2 (Cert.Mmd.colOf (tj t) q) k) := by
  obtain ⟨-, -, e0, e1, -⟩ := idx_facts0 t
  unfold iblk0
  rw [View.read_apply]
  show V c main_arg0 _ = V c main_arg0 _
  congr 1
  funext a
  apply Fin.ext
  match a with
  | ⟨0, _⟩ => show win0_1.index t (0 : Fin 2) * 512 + 1 * q.val = 512 * (t.val % 8) + q.val; rw [e0]; omega
  | ⟨1, _⟩ => show win0_1.index t (1 : Fin 2) * 2048 + 1 * k.val = k.val; rw [e1]; omega

/-- The block of the column of squared norms at a point. -/
theorem iblk0_2_apply (c : Dev nD) (t : Fin cfg0.N) (p : Fin 1024) :
    iblk0 (F := Ideal) V c 2 t (ix2 p (0 : Fin 1)) = V c main_v4 (ix2 (Cert.Mmd.rowOf (ti t) p) (0 : Fin 1)) := by
  obtain ⟨-, -, -, -, e0, e1, -⟩ := idx_facts0 t
  unfold iblk0
  rw [View.read_apply]
  show V c main_v4 _ = V c main_v4 _
  congr 1
  funext a
  apply Fin.ext
  match a with
  | ⟨0, _⟩ => show win0_2.index t (0 : Fin 2) * 1024 + 1 * p.val = 1024 * (t.val / 8) + p.val; rw [e0]; omega
  | ⟨1, _⟩ => show win0_2.index t (1 : Fin 2) * 1 + 1 * 0 = 0; rw [e1]

/-- The block of the row of squared norms at a point. -/
theorem iblk0_3_apply (c : Dev nD) (t : Fin cfg0.N) (q : Fin 512) :
    iblk0 (F := Ideal) V c 3 t (ix2 (0 : Fin 1) q) = V c main_v5 (ix2 (0 : Fin 1) (Cert.Mmd.colOf (tj t) q)) := by
  obtain ⟨-, -, -, -, -, -, e0, e1, -⟩ := idx_facts0 t
  unfold iblk0
  rw [View.read_apply]
  show V c main_v5 _ = V c main_v5 _
  congr 1
  funext a
  apply Fin.ext
  match a with
  | ⟨0, _⟩ => show win0_3.index t (0 : Fin 2) * 1 + 1 * 0 = 0; rw [e0]
  | ⟨1, _⟩ => show win0_3.index t (1 : Fin 2) * 512 + 1 * q.val = 512 * (t.val % 8) + q.val; rw [e1]; omega

/-- The tile's sum over the arrays the region finds. -/
def tileAt (c : Dev nD) (i : Fin 4) (j : Fin 8) : EReal :=
  Cert.Mmd.tileOf (V c main_arg0) (V c main_arg0) (V c main_v4) (V c main_v5) i j

/-- The sum the body forms from its four blocks at a point is the tile's sum over the arrays. -/
theorem blockSum_at (c : Dev nD) (t : Fin cfg0.N) :
    blockSum (iblk0 (F := Ideal) V c 0 t) (iblk0 (F := Ideal) V c 1 t) (iblk0 (F := Ideal) V c 2 t) (iblk0 (F := Ideal) V c 3 t)
      = tileAt V c (ti t) (tj t) := by
  unfold blockSum tileAt Cert.Mmd.tileOf
  simp only [iblk0_0_apply, iblk0_1_apply, iblk0_2_apply, iblk0_3_apply]

/-! ## The accumulation along a row of tiles -/

theorem outsAt0_congr (c : Dev nD) {n n' : ℕ} (h : n = n') (hn : n < cfg0.N) (hn' : n' < cfg0.N) :
    outsAt0 (F := Ideal) V c n hn = outsAt0 (F := Ideal) V c n' hn' := by
  subst h; rfl

/-- Off the corner the result window's staging buffer holds zero after every point. -/
theorem outsAt0_off (c : Dev nD) : ∀ (n : ℕ) (hn : n < cfg0.N) (a : Fin 8) (b : Fin 128), ¬(a.val = 0 ∧ b.val = 0) →
    outsAt0 (F := Ideal) V c n hn (ix2 a b) = 0
  | 0, hn, a, b, h => by
    refine (congrFun (outsAt0_A V c ⟨0, hn⟩ rfl) (ix2 a b)).trans ?_
    rw [out0_A_apply, if_neg h]
  | n + 1, hn, a, b, h => by
    by_cases h0 : (n + 1) % 8 = 0
    · refine (congrFun (outsAt0_A V c ⟨n + 1, hn⟩ h0) (ix2 a b)).trans ?_
      rw [out0_A_apply, if_neg h]
    · refine (congrFun (outsAt0_B V c ⟨n + 1, hn⟩ h0) (ix2 a b)).trans ?_
      rw [out0_B_apply, if_neg h]
      exact outsAt0_off c n _ a b h

/-- At the first tile of a row the corner holds that tile's sum. -/
theorem outsAt0_corner_A (c : Dev nD) (t : Fin cfg0.N) (h0 : t.val % 8 = 0) :
    outsAt0 (F := Ideal) V c t.val t.isLt (ix2 (0 : Fin 8) (0 : Fin 128)) = 0 + tileAt V c (ti t) (tj t) := by
  rw [outsAt0_A V c t h0, out0_A_apply, if_pos ⟨rfl, rfl⟩, blockSum_at]

/-- At a later tile of a row the corner grows by that tile's sum. -/
theorem outsAt0_corner_B (c : Dev nD) (t : Fin cfg0.N) (h0 : ¬t.val % 8 = 0) :
    outsAt0 (F := Ideal) V c t.val t.isLt (ix2 (0 : Fin 8) (0 : Fin 128))
      = outsAt0 (F := Ideal) V c (t.val - 1) (Nat.lt_of_le_of_lt (Nat.sub_le _ _) t.isLt) (ix2 (0 : Fin 8) (0 : Fin 128))
        + tileAt V c (ti t) (tj t) := by
  rw [outsAt0_B V c t h0, out0_B_apply, if_pos ⟨rfl, rfl⟩, blockSum_at]

/-- After the last tile of row i the corner holds the sum of the row's eight tiles. -/
theorem row_total (c : Dev nD) (i : Fin 4) (hn : 8 * i.val + 7 < cfg0.N) :
    outsAt0 (F := Ideal) V c (8 * i.val + 7) hn (ix2 (0 : Fin 8) (0 : Fin 128)) = ∑ j : Fin 8, tileAt V c i j := by
  have hi := i.isLt
  have key := Cert.Mmd.prefix_sum (fun j : Fin 8 => tileAt V c i j)
    (fun j => if h : 8 * i.val + j < cfg0.N then outsAt0 (F := Ideal) V c (8 * i.val + j) h (ix2 (0 : Fin 8) (0 : Fin 128)) else 0)
    (by
      have hb : 8 * i.val + 0 < cfg0.N := by rw [hN0]; omega
      rw [dif_pos hb]
      refine (outsAt0_corner_A V c ⟨8 * i.val + 0, hb⟩ (by show (8 * i.val + 0) % 8 = 0; omega)).trans ?_
      refine congrArg₂ (fun a b => 0 + tileAt V c a b) (Fin.ext ?_) (Fin.ext ?_)
      · show (8 * i.val + 0) / 8 = i.val; omega
      · show (8 * i.val + 0) % 8 = 0; omega)
    (fun j hj => by
      have hb : 8 * i.val + (j + 1) < cfg0.N := by rw [hN0]; omega
      have hb' : 8 * i.val + j < cfg0.N := by rw [hN0]; omega
      rw [dif_pos hb, dif_pos hb']
      refine (outsAt0_corner_B V c ⟨8 * i.val + (j + 1), hb⟩ (by show ¬(8 * i.val + (j + 1)) % 8 = 0; omega)).trans ?_
      refine congrArg₂ (· + ·) ?_ (congrArg₂ (fun a b => tileAt V c a b) (Fin.ext ?_) (Fin.ext ?_))
      · exact congrFun (outsAt0_congr V c (by show 8 * i.val + (j + 1) - 1 = 8 * i.val + j; omega) _ _) _
      · show (8 * i.val + (j + 1)) / 8 = i.val; omega
      · show (8 * i.val + (j + 1)) % 8 = j + 1; omega)
  rw [dif_pos hn] at key
  exact key

/-! ## The result array -/

/-- What the result array ends holding: the row totals at the corners of its four blocks, zero elsewhere. -/
def G0 (c : Dev nD) : S32x128.Idx → EReal := fun y =>
  if (y 1).val = 0 ∧ (y 0).val % 8 = 0 then
    ∑ j : Fin 8, tileAt V c ⟨(y 0).val / 8, by have h : (y 0).val < 32 := (y 0).isLt; omega⟩ j
  else 0

/-- What the write-back after the last tile of a row writes is that row's block of the table. -/
theorem flushed0_eq (c : Dev nD) (t : Fin cfg0.N) (hf : (cfg0.win 4).flush t = true) :
    (dat0 (F := Ideal) V c).flushed 4 t = ((cfg0.win 4).blk t).view.read (Elt Ideal) (G0 V c) := by
  have h7 : t.val % 8 = 7 := (flush0_4 t).mp hf
  have hN : t.val < 32 := lt_of_lt_of_eq t.isLt hN0
  obtain ⟨-, -, -, -, -, -, -, -, e0, e1⟩ := idx_facts0 t
  show (cfg0.win 4).cut (grid0.coords t) ((dat0 (F := Ideal) V c).after 4 t) = _
  rw [after0_4]
  funext y
  obtain ⟨a, b, rfl⟩ : ∃ (a : Fin 8) (b : Fin 128), y = ix2 a b := ⟨y 0, y 1, eq_ix2 y⟩
  rw [View.read_apply]
  show outsAt0 (F := Ideal) V c t.val t.isLt (ix2 a b) = G0 V c (((cfg0.win 4).blk t).view.emb (ix2 a b))
  have hy0 : ((((cfg0.win 4).blk t).view.emb (ix2 a b)) (0 : Fin 2)).val = t.val / 8 * 8 + a.val := by
    show win0_4.index t (0 : Fin 2) * 8 + 1 * a.val = _
    rw [e0]; omega
  have hy1 : ((((cfg0.win 4).blk t).view.emb (ix2 a b)) (1 : Fin 2)).val = b.val := by
    show win0_4.index t (1 : Fin 2) * 128 + 1 * b.val = _
    rw [e1]; omega
  have ha := a.isLt
  unfold G0
  by_cases h : a.val = 0 ∧ b.val = 0
  · obtain ⟨ha0, hb0⟩ := h
    obtain rfl : a = 0 := Fin.ext ha0
    obtain rfl : b = 0 := Fin.ext hb0
    rw [if_pos ⟨by rw [hy1]; rfl, by rw [hy0]; show (t.val / 8 * 8 + 0) % 8 = 0; omega⟩]
    have hb : 8 * (ti t).val + 7 < cfg0.N := by rw [hN0]; show 8 * (t.val / 8) + 7 < 32; omega
    refine (congrFun (outsAt0_congr V c (show t.val = 8 * (ti t).val + 7 by show t.val = 8 * (t.val / 8) + 7; omega) t.isLt hb) _).trans ?_
    rw [row_total]
    refine Finset.sum_congr rfl fun j _ => congrArg (fun i => tileAt V c i j) (Fin.ext ?_)
    show t.val / 8 = ((((cfg0.win 4).blk t).view.emb (ix2 (0 : Fin 8) (0 : Fin 128))) (0 : Fin 2)).val / 8
    rw [hy0]; show t.val / 8 = (t.val / 8 * 8 + 0) / 8; omega
  · rw [outsAt0_off V c _ _ a b h, if_neg]
    rw [hy0, hy1]
    rintro ⟨hb0, ha0⟩
    exact h ⟨by omega, hb0⟩

/-- An index of the array is in a point's block iff each coordinate is in the block's range on its axis. -/
theorem mem_blk0 (t : Fin cfg0.N) (i : S32x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v8).slice (win0_4.rect t)).set ↔ _
  rw [View.set_slice_whole, Rect.mem_set_unit]
  exact Iff.rfl

/-- The result array after the call. -/
theorem final0 (c : Dev nD) : (dat0 (F := Ideal) V c).arrAt 4 cfg0.N = G0 V c :=
  (dat0 (F := Ideal) V c).arrAt_eq_of_cover 4 (G0 V c) (flushed0_eq V c) fun i => by
    have h0 : (i 0).val < 32 := (i 0).isLt
    have h1 : (i 1).val < 128 := (i 1).isLt
    have hb : 8 * ((i 0).val / 8) + 7 < cfg0.N := by rw [hN0]; omega
    refine ⟨⟨8 * ((i 0).val / 8) + 7, hb⟩, (flush0_4 _).mpr (by show (8 * ((i 0).val / 8) + 7) % 8 = 7; omega), ?_⟩
    rw [mem_blk0]
    obtain ⟨-, -, -, -, -, -, -, -, e0, e1⟩ := idx_facts0 ⟨8 * ((i 0).val / 8) + 7, hb⟩
    intro a
    match a with
    | ⟨0, _⟩ =>
      show win0_4.index ⟨8 * ((i 0).val / 8) + 7, hb⟩ (0 : Fin 2) * 8 ≤ (i 0).val ∧ (i 0).val < win0_4.index ⟨8 * ((i 0).val / 8) + 7, hb⟩ (0 : Fin 2) * 8 + 8
      rw [e0]; show (8 * ((i 0).val / 8) + 7) / 8 * 8 ≤ (i 0).val ∧ (i 0).val < (8 * ((i 0).val / 8) + 7) / 8 * 8 + 8; omega
    | ⟨1, _⟩ =>
      show win0_4.index ⟨8 * ((i 0).val / 8) + 7, hb⟩ (1 : Fin 2) * 128 ≤ (i 1).val ∧ (i 1).val < win0_4.index ⟨8 * ((i 0).val / 8) + 7, hb⟩ (1 : Fin 2) * 128 + 128
      rw [e1]; omega

/-- The sum of all entries of the result array of the first call: the sum over all tiles of the tile sums. -/
theorem total0 (c : Dev nD) :
    (∑ r : Fin 32, ∑ l : Fin 128, ((dat0 (F := Ideal) V c).arrAt 4 cfg0.N) (ix2 r l) : EReal)
      = ∑ i : Fin 4, ∑ j : Fin 8, Cert.Mmd.tileOf (V c main_arg0) (V c main_arg0) (V c main_v4) (V c main_v5) i j := by
  rw [final0]
  refine Cert.Mmd.sum_of_corners (fun r l => G0 V c (ix2 r l)) (fun i => ∑ j : Fin 8, tileAt V c i j) (fun i => ?_) (fun r l h => if_neg h)
  unfold G0
  rw [if_pos ⟨rfl, by show 8 * i.val % 8 = 0; omega⟩]
  refine Finset.sum_congr rfl fun j _ => congrArg (fun i' => tileAt V c i' j) (Fin.ext ?_)
  show 8 * i.val / 8 = i.val; omega

end Cert.KernelIdeal.Hand

end
-- ==== Proof.KI.Out1.lean ====
/-
  What the body leaves in the 8 × 128 result block of the second call, read at an index over the extended reals: the
  second call runs the first call's body, so the two cases read exactly as there — the tile's sum added to zero in
  the corner over a zeroed block where the inner grid coordinate is zero, the tile's sum added to the corner found and
  the rest kept elsewhere.
-/
import proofs.«141671_j53652731461797_1_alg».proof.Proof.KI.Region1
import proofs.«141671_j53652731461797_1_alg».proof.Proof.KI.Out0
import proofs.«141671_j53652731461797_1_alg».proof.Proof.PayloadAt
import Idealize.ShloMosaic.Lib.Pipeline.Value
import Idealize.ShloMosaic.Lib.WritesUnit
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

/-- Where the inner grid coordinate is zero the body leaves the tile's sum (added to zero) in the corner and zero elsewhere. -/
theorem out1_A_apply (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : cond0 i)
    (x0 : Vec Ideal S1024x2048 .f32) (x1 : Vec Ideal S512x2048 .f32) (x2 : Vec Ideal S1024x1 .f32) (x3 : Vec Ideal S1x512 .f32)
    (a : Fin 8) (b : Fin 128) :
    out1_A (F := Ideal) c i arg2 harg2 arg3 harg3 arg4 harg4 arg5 harg5 arg6 harg6 hc0 x0 x1 x2 x3 (ix2 a b)
      = if a.val = 0 ∧ b.val = 0 then 0 + blockSum x0 x1 x2 x3 else 0 := by
  unfold out1_A kernelRun0_A
  dsimp only
  sl_unfold_words
  simp only [View.readAt_eq_ld, harg2.read_unread, harg3.read_unread, harg4.read_unread, harg5.read_unread,
    View.ld_unit_zero (S := S1024x2048) hz, View.ld_unit_zero (S := S512x2048) hz, View.ld_unit_zero (S := S1024x1) hz, View.ld_unit_zero (S := S1x512) hz]
  by_cases h : a.val = 0 ∧ b.val = 0
  · rw [if_pos h]
    refine (View.read_writes_cons_unit_of_mem _ _ inb_S8x128_S1x1_0_0 _ _ (ix2 a b) (ix2 (0 : Fin 1) (0 : Fin 1)) rfl (fun d => ?_)).trans ?_
    · match d with
      | ⟨0, _⟩ => exact h.1
      | ⟨1, _⟩ => exact h.2
    · rw [Cert.Mmd.Pay.pay2_apply, readback_zero]
      rfl
  · rw [if_neg h]
    have hrest : (VO1).view.read (Elt Ideal) ((VO1).view.writes (Elt Ideal) (VO1).view.junk
        [(⟨Rect.unit ![0, 0] ![8, 128] inb_S8x128_S8x128_0_0, k0_pay1 (F := Ideal)⟩ : View.Piece (Elt Ideal) S8x128 .f32)]) (ix2 a b) = 0 := by
      refine (View.read_writes_cons_unit_of_mem _ _ inb_S8x128_S8x128_0_0 _ _ (ix2 a b) (ix2 a b) rfl (fun d => ?_)).trans (Cert.Mmd.Pay.pay1_apply _)
      match d with
      | ⟨0, _⟩ => exact (Nat.zero_add _).symm
      | ⟨1, _⟩ => exact (Nat.zero_add _).symm
    by_cases ha : a.val = 0
    · have hb : b.val ≠ 0 := fun hb => h ⟨ha, hb⟩
      refine (View.read_writes_cons_unit_of_not_mem _ _ inb_S8x128_S1x1_0_0 _ _ (ix2 a b) rfl (1 : Fin 2) (Or.inr ?_)).trans hrest
      show 0 + 1 ≤ b.val
      omega
    · refine (View.read_writes_cons_unit_of_not_mem _ _ inb_S8x128_S1x1_0_0 _ _ (ix2 a b) rfl (0 : Fin 2) (Or.inr ?_)).trans hrest
      show 0 + 1 ≤ a.val
      omega

/-- Where the inner grid coordinate is not zero the body adds the tile's sum to the corner it found and leaves the rest. -/
theorem out1_B_apply (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : ¬cond0 i)
    (x0 : Vec Ideal S1024x2048 .f32) (x1 : Vec Ideal S512x2048 .f32) (x2 : Vec Ideal S1024x1 .f32) (x3 : Vec Ideal S1x512 .f32)
    (xo4 : Vec Ideal S8x128 .f32) (a : Fin 8) (b : Fin 128) :
    out1_B (F := Ideal) c i arg2 harg2 arg3 harg3 arg4 harg4 arg5 harg5 arg6 harg6 hc0 x0 x1 x2 x3 xo4 (ix2 a b)
      = if a.val = 0 ∧ b.val = 0 then xo4 (ix2 (0 : Fin 8) (0 : Fin 128)) + blockSum x0 x1 x2 x3 else xo4 (ix2 a b) := by
  unfold out1_B kernelRun0_B
  dsimp only
  sl_unfold_words
  simp only [View.readAt_eq_ld, harg2.read_unread, harg3.read_unread, harg4.read_unread, harg5.read_unread, harg6.read_unread,
    View.ld_unit_zero (S := S1024x2048) hz, View.ld_unit_zero (S := S512x2048) hz, View.ld_unit_zero (S := S1024x1) hz, View.ld_unit_zero (S := S1x512) hz]
  by_cases h : a.val = 0 ∧ b.val = 0
  · rw [if_pos h]
    refine (View.read_writes_cons_unit_of_mem _ _ inb_S8x128_S1x1_0_0 _ _ (ix2 a b) (ix2 (0 : Fin 1) (0 : Fin 1)) rfl (fun d => ?_)).trans ?_
    · match d with
      | ⟨0, _⟩ => exact h.1
      | ⟨1, _⟩ => exact h.2
    · rw [Cert.Mmd.Pay.pay2_apply]
      refine congrArg₂ (· + ·) ?_ rfl
      exact congrArg xo4 (funext fun d => Fin.ext (by
        match d with
        | ⟨0, _⟩ => rfl
        | ⟨1, _⟩ => rfl))
  · rw [if_neg h]
    have hrest : (VO1).view.read (Elt Ideal) ((VO1).view.writes (Elt Ideal) (hVO1.unread xo4) []) (ix2 a b) = xo4 (ix2 a b) :=
      congrFun (hVO1.read_unread xo4) (ix2 a b)
    by_cases ha : a.val = 0
    · have hb : b.val ≠ 0 := fun hb => h ⟨ha, hb⟩
      refine (View.read_writes_cons_unit_of_not_mem _ _ inb_S8x128_S1x1_0_0 _ _ (ix2 a b) rfl (1 : Fin 2) (Or.inr ?_)).trans hrest
      show 0 + 1 ≤ b.val
      omega
    · refine (View.read_writes_cons_unit_of_not_mem _ _ inb_S8x128_S1x1_0_0 _ _ (ix2 a b) rfl (0 : Fin 2) (Or.inr ?_)).trans hrest
      show 0 + 1 ≤ a.val
      omega

end Cert.KernelIdeal.Hand

end
-- ==== Proof.KI.Value1.lean ====
/-
  The result array of the second call, over the extended reals: the sum of all its entries is the sum over the 4 × 8
  tiles of the tiles' Gaussian sums.

  A grid point t = 8·i + j reads rows 1024·i … of the call's first operand, rows 512·j … of its second, and the matching
  pieces of the column and the row of squared norms, so the sum the body forms there is the tile sum of (i, j) over
  the arrays the call finds. Along a row of tiles the corner of the 8 × 128 result block runs through the partial
  sums 0 + T(i,0), … + T(i,j) and every other entry stays zero; after j = 7 the block is written to rows 8·i … of
  the 32 × 128 result array. So the array holds the row totals at (8·i, 0) and zero elsewhere, and its entries add
  up to the sum of all the tile sums.
-/
import proofs.«141671_j53652731461797_1_alg».proof.Proof.KI.Region1
import proofs.«141671_j53652731461797_1_alg».proof.Proof.KI.Out0
import proofs.«141671_j53652731461797_1_alg».proof.Proof.KI.Out1
import proofs.«141671_j53652731461797_1_alg».proof.Proof.CornerSum
import proofs.«141671_j53652731461797_1_alg».proof.Proof.PayloadAt
import proofs.«141671_j53652731461797_1_alg».proof.Proof.TileOf
import Idealize.ShloMosaic.Lib.Pipeline.Value
import Idealize.ShloMosaic.Lib.WritesUnit
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

/-! ## The windows' blocks at a point, read off the arrays -/

theorem hN1 : cfg1.N = 32 := N_1

/-- The row of tiles a point is in. -/
def ti1 (t : Fin cfg1.N) : Fin 4 := ⟨t.val / 8, by have h : t.val < 32 := lt_of_lt_of_eq t.isLt hN1; omega⟩
/-- The tile's place in its row. -/
def tj1 (t : Fin cfg1.N) : Fin 8 := ⟨t.val % 8, by omega⟩

/-- The printed index maps over the grid: the row windows move with t / 8, the column windows with t % 8. -/
theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = t.val % 8
    ∧ win1_4.index t (0 : Fin 2) = t.val / 8 ∧ win1_4.index t (1 : Fin 2) = 0 :=
  (by decide +kernel : ∀ t : Fin grid1.N, _)

variable (V : (c : Dev nD) → (b : Ref sig .tc) → Buf (Elt Ideal) ((c : Thread nD τ).loc b))

/-- The block of x rows at a point: rows 1024·i … of the first array. -/
theorem iblk1_0_apply (c : Dev nD) (t : Fin cfg1.N) (p : Fin 1024) (k : Fin 2048) :
    iblk1 (F := Ideal) V c 0 t (ix2 p k) = V c main_arg1 (ix2 (Cert.Mmd.rowOf (ti1 t) p) k) := by
  obtain ⟨e0, e1, -⟩ := idx_facts1 t
  unfold iblk1
  rw [View.read_apply]
  show V c main_arg1 _ = V c main_arg1 _
  congr 1
  funext a
  apply Fin.ext
  match a with
  | ⟨0, _⟩ => show win1_0.index t (0 : Fin 2) * 1024 + 1 * p.val = 1024 * (t.val / 8) + p.val; rw [e0]; omega
  | ⟨1, _⟩ => show win1_0.index t (1 : Fin 2) * 2048 + 1 * k.val = k.val; rw [e1]; omega

/-- The block of y rows at a point: rows 512·j … of the same array. -/
theorem iblk1_1_apply (c : Dev nD) (t : Fin cfg1.N) (q : Fin 512) (k : Fin 2048) :
    iblk1 (F := Ideal) V c 1 t (ix2 q k) = V c main_arg1 (ix2 (Cert.Mmd.colOf (tj1 t) q) k) := by
  obtain ⟨-, -, e0, e1, -⟩ := idx_facts1 t
  unfold iblk1
  rw [View.read_apply]
  show V c main_arg1 _ = V c main_arg1 _
  congr 1
  funext a
  apply Fin.ext
  match a with
  | ⟨0, _⟩ => show win1_1.index t (0 : Fin 2) * 512 + 1 * q.val = 512 * (t.val % 8) + q.val; rw [e0]; omega
  | ⟨1, _⟩ => show win1_1.index t (1 : Fin 2) * 2048 + 1 * k.val = k.val; rw [e1]; omega

/-- The block of the column of squared norms at a point. -/
theorem iblk1_2_apply (c : Dev nD) (t : Fin cfg1.N) (p : Fin 1024) :
    iblk1 (F := Ideal) V c 2 t (ix2 p (0 : Fin 1)) = V c main_v6 (ix2 (Cert.Mmd.rowOf (ti1 t) p) (0 : Fin 1)) := by
  obtain ⟨-, -, -, -, e0, e1, -⟩ := idx_facts1 t
  unfold iblk1
  rw [View.read_apply]
  show V c main_v6 _ = V c main_v6 _
  congr 1
  funext a
  apply Fin.ext
  match a with
  | ⟨0, _⟩ => show win1_2.index t (0 : Fin 2) * 1024 + 1 * p.val = 1024 * (t.val / 8) + p.val; rw [e0]; omega
  | ⟨1, _⟩ => show win1_2.index t (1 : Fin 2) * 1 + 1 * 0 = 0; rw [e1]

/-- The block of the row of squared norms at a point. -/
theorem iblk1_3_apply (c : Dev nD) (t : Fin cfg1.N) (q : Fin 512) :
    iblk1 (F := Ideal) V c 3 t (ix2 (0 : Fin 1) q) = V c main_v7 (ix2 (0 : Fin 1) (Cert.Mmd.colOf (tj1 t) q)) := by
  obtain ⟨-, -, -, -, -, -, e0, e1, -⟩ := idx_facts1 t
  unfold iblk1
  rw [View.read_apply]
  show V c main_v7 _ = V c main_v7 _
  congr 1
  funext a
  apply Fin.ext
  match a with
  | ⟨0, _⟩ => show win1_3.index t (0 : Fin 2) * 1 + 1 * 0 = 0; rw [e0]
  | ⟨1, _⟩ => show win1_3.index t (1 : Fin 2) * 512 + 1 * q.val = 512 * (t.val % 8) + q.val; rw [e1]; omega

/-- The tile's sum over the arrays the region finds. -/
def tileAt1 (c : Dev nD) (i : Fin 4) (j : Fin 8) : EReal :=
  Cert.Mmd.tileOf (V c main_arg1) (V c main_arg1) (V c main_v6) (V c main_v7) i j

/-- The sum the body forms from its four blocks at a point is the tile's sum over the arrays. -/
theorem blockSum_at1 (c : Dev nD) (t : Fin cfg1.N) :
    blockSum (iblk1 (F := Ideal) V c 0 t) (iblk1 (F := Ideal) V c 1 t) (iblk1 (F := Ideal) V c 2 t) (iblk1 (F := Ideal) V c 3 t)
      = tileAt1 V c (ti1 t) (tj1 t) := by
  unfold blockSum tileAt1 Cert.Mmd.tileOf
  simp only [iblk1_0_apply, iblk1_1_apply, iblk1_2_apply, iblk1_3_apply]

/-! ## The accumulation along a row of tiles -/

theorem outsAt1_congr (c : Dev nD) {n n' : ℕ} (h : n = n') (hn : n < cfg1.N) (hn' : n' < cfg1.N) :
    outsAt1 (F := Ideal) V c n hn = outsAt1 (F := Ideal) V c n' hn' := by
  subst h; rfl

/-- Off the corner the result window's staging buffer holds zero after every point. -/
theorem outsAt1_off (c : Dev nD) : ∀ (n : ℕ) (hn : n < cfg1.N) (a : Fin 8) (b : Fin 128), ¬(a.val = 0 ∧ b.val = 0) →
    outsAt1 (F := Ideal) V c n hn (ix2 a b) = 0
  | 0, hn, a, b, h => by
    refine (congrFun (outsAt1_A V c ⟨0, hn⟩ rfl) (ix2 a b)).trans ?_
    rw [out1_A_apply, if_neg h]
  | n + 1, hn, a, b, h => by
    by_cases h0 : (n + 1) % 8 = 0
    · refine (congrFun (outsAt1_A V c ⟨n + 1, hn⟩ h0) (ix2 a b)).trans ?_
      rw [out1_A_apply, if_neg h]
    · refine (congrFun (outsAt1_B V c ⟨n + 1, hn⟩ h0) (ix2 a b)).trans ?_
      rw [out1_B_apply, if_neg h]
      exact outsAt1_off c n _ a b h

/-- At the first tile of a row the corner holds that tile's sum. -/
theorem outsAt1_corner_A (c : Dev nD) (t : Fin cfg1.N) (h0 : t.val % 8 = 0) :
    outsAt1 (F := Ideal) V c t.val t.isLt (ix2 (0 : Fin 8) (0 : Fin 128)) = 0 + tileAt1 V c (ti1 t) (tj1 t) := by
  rw [outsAt1_A V c t h0, out1_A_apply, if_pos ⟨rfl, rfl⟩, blockSum_at1]

/-- At a later tile of a row the corner grows by that tile's sum. -/
theorem outsAt1_corner_B (c : Dev nD) (t : Fin cfg1.N) (h0 : ¬t.val % 8 = 0) :
    outsAt1 (F := Ideal) V c t.val t.isLt (ix2 (0 : Fin 8) (0 : Fin 128))
      = outsAt1 (F := Ideal) V c (t.val - 1) (Nat.lt_of_le_of_lt (Nat.sub_le _ _) t.isLt) (ix2 (0 : Fin 8) (0 : Fin 128))
        + tileAt1 V c (ti1 t) (tj1 t) := by
  rw [outsAt1_B V c t h0, out1_B_apply, if_pos ⟨rfl, rfl⟩, blockSum_at1]

/-- After the last tile of row i the corner holds the sum of the row's eight tiles. -/
theorem row_total1 (c : Dev nD) (i : Fin 4) (hn : 8 * i.val + 7 < cfg1.N) :
    outsAt1 (F := Ideal) V c (8 * i.val + 7) hn (ix2 (0 : Fin 8) (0 : Fin 128)) = ∑ j : Fin 8, tileAt1 V c i j := by
  have hi := i.isLt
  have key := Cert.Mmd.prefix_sum (fun j : Fin 8 => tileAt1 V c i j)
    (fun j => if h : 8 * i.val + j < cfg1.N then outsAt1 (F := Ideal) V c (8 * i.val + j) h (ix2 (0 : Fin 8) (0 : Fin 128)) else 0)
    (by
      have hb : 8 * i.val + 0 < cfg1.N := by rw [hN1]; omega
      rw [dif_pos hb]
      refine (outsAt1_corner_A V c ⟨8 * i.val + 0, hb⟩ (by show (8 * i.val + 0) % 8 = 0; omega)).trans ?_
      refine congrArg₂ (fun a b => 0 + tileAt1 V c a b) (Fin.ext ?_) (Fin.ext ?_)
      · show (8 * i.val + 0) / 8 = i.val; omega
      · show (8 * i.val + 0) % 8 = 0; omega)
    (fun j hj => by
      have hb : 8 * i.val + (j + 1) < cfg1.N := by rw [hN1]; omega
      have hb' : 8 * i.val + j < cfg1.N := by rw [hN1]; omega
      rw [dif_pos hb, dif_pos hb']
      refine (outsAt1_corner_B V c ⟨8 * i.val + (j + 1), hb⟩ (by show ¬(8 * i.val + (j + 1)) % 8 = 0; omega)).trans ?_
      refine congrArg₂ (· + ·) ?_ (congrArg₂ (fun a b => tileAt1 V c a b) (Fin.ext ?_) (Fin.ext ?_))
      · exact congrFun (outsAt1_congr V c (by show 8 * i.val + (j + 1) - 1 = 8 * i.val + j; omega) _ _) _
      · show (8 * i.val + (j + 1)) / 8 = i.val; omega
      · show (8 * i.val + (j + 1)) % 8 = j + 1; omega)
  rw [dif_pos hn] at key
  exact key

/-! ## The result array -/

/-- What the result array ends holding: the row totals at the corners of its four blocks, zero elsewhere. -/
def G1 (c : Dev nD) : S32x128.Idx → EReal := fun y =>
  if (y 1).val = 0 ∧ (y 0).val % 8 = 0 then
    ∑ j : Fin 8, tileAt1 V c ⟨(y 0).val / 8, by have h : (y 0).val < 32 := (y 0).isLt; omega⟩ j
  else 0

/-- What the write-back after the last tile of a row writes is that row's block of the table. -/
theorem flushed1_eq (c : Dev nD) (t : Fin cfg1.N) (hf : (cfg1.win 4).flush t = true) :
    (dat1 (F := Ideal) V c).flushed 4 t = ((cfg1.win 4).blk t).view.read (Elt Ideal) (G1 V c) := by
  have h7 : t.val % 8 = 7 := (flush1_4 t).mp hf
  have hN : t.val < 32 := lt_of_lt_of_eq t.isLt hN1
  obtain ⟨-, -, -, -, -, -, -, -, e0, e1⟩ := idx_facts1 t
  show (cfg1.win 4).cut (grid1.coords t) ((dat1 (F := Ideal) V c).after 4 t) = _
  rw [after1_4]
  funext y
  obtain ⟨a, b, rfl⟩ : ∃ (a : Fin 8) (b : Fin 128), y = ix2 a b := ⟨y 0, y 1, eq_ix2 y⟩
  rw [View.read_apply]
  show outsAt1 (F := Ideal) V c t.val t.isLt (ix2 a b) = G1 V c (((cfg1.win 4).blk t).view.emb (ix2 a b))
  have hy0 : ((((cfg1.win 4).blk t).view.emb (ix2 a b)) (0 : Fin 2)).val = t.val / 8 * 8 + a.val := by
    show win1_4.index t (0 : Fin 2) * 8 + 1 * a.val = _
    rw [e0]; omega
  have hy1 : ((((cfg1.win 4).blk t).view.emb (ix2 a b)) (1 : Fin 2)).val = b.val := by
    show win1_4.index t (1 : Fin 2) * 128 + 1 * b.val = _
    rw [e1]; omega
  have ha := a.isLt
  unfold G1
  by_cases h : a.val = 0 ∧ b.val = 0
  · obtain ⟨ha0, hb0⟩ := h
    obtain rfl : a = 0 := Fin.ext ha0
    obtain rfl : b = 0 := Fin.ext hb0
    rw [if_pos ⟨by rw [hy1]; rfl, by rw [hy0]; show (t.val / 8 * 8 + 0) % 8 = 0; omega⟩]
    have hb : 8 * (ti1 t).val + 7 < cfg1.N := by rw [hN1]; show 8 * (t.val / 8) + 7 < 32; omega
    refine (congrFun (outsAt1_congr V c (show t.val = 8 * (ti1 t).val + 7 by show t.val = 8 * (t.val / 8) + 7; omega) t.isLt hb) _).trans ?_
    rw [row_total1]
    refine Finset.sum_congr rfl fun j _ => congrArg (fun i => tileAt1 V c i j) (Fin.ext ?_)
    show t.val / 8 = ((((cfg1.win 4).blk t).view.emb (ix2 (0 : Fin 8) (0 : Fin 128))) (0 : Fin 2)).val / 8
    rw [hy0]; show t.val / 8 = (t.val / 8 * 8 + 0) / 8; omega
  · rw [outsAt1_off V c _ _ a b h, if_neg]
    rw [hy0, hy1]
    rintro ⟨hb0, ha0⟩
    exact h ⟨by omega, hb0⟩

/-- An index of the array is in a point's block iff each coordinate is in the block's range on its axis. -/
theorem mem_blk1 (t : Fin cfg1.N) (i : S32x128.Idx) :
    i ∈ ((cfg1.win 4).blk t).view.set ↔ ∀ a : Fin 2, win1_4.index t a * S8x128.size a ≤ (i a).val ∧ (i a).val < win1_4.index t a * S8x128.size a + S8x128.size a := by
  show i ∈ ((View.whole main_v10).slice (win1_4.rect t)).set ↔ _
  rw [View.set_slice_whole, Rect.mem_set_unit]
  exact Iff.rfl

/-- The result array after the call. -/
theorem final1 (c : Dev nD) : (dat1 (F := Ideal) V c).arrAt 4 cfg1.N = G1 V c :=
  (dat1 (F := Ideal) V c).arrAt_eq_of_cover 4 (G1 V c) (flushed1_eq V c) fun i => by
    have h0 : (i 0).val < 32 := (i 0).isLt
    have h1 : (i 1).val < 128 := (i 1).isLt
    have hb : 8 * ((i 0).val / 8) + 7 < cfg1.N := by rw [hN1]; omega
    refine ⟨⟨8 * ((i 0).val / 8) + 7, hb⟩, (flush1_4 _).mpr (by show (8 * ((i 0).val / 8) + 7) % 8 = 7; omega), ?_⟩
    rw [mem_blk1]
    obtain ⟨-, -, -, -, -, -, -, -, e0, e1⟩ := idx_facts1 ⟨8 * ((i 0).val / 8) + 7, hb⟩
    intro a
    match a with
    | ⟨0, _⟩ =>
      show win1_4.index ⟨8 * ((i 0).val / 8) + 7, hb⟩ (0 : Fin 2) * 8 ≤ (i 0).val ∧ (i 0).val < win1_4.index ⟨8 * ((i 0).val / 8) + 7, hb⟩ (0 : Fin 2) * 8 + 8
      rw [e0]; show (8 * ((i 0).val / 8) + 7) / 8 * 8 ≤ (i 0).val ∧ (i 0).val < (8 * ((i 0).val / 8) + 7) / 8 * 8 + 8; omega
    | ⟨1, _⟩ =>
      show win1_4.index ⟨8 * ((i 0).val / 8) + 7, hb⟩ (1 : Fin 2) * 128 ≤ (i 1).val ∧ (i 1).val < win1_4.index ⟨8 * ((i 0).val / 8) + 7, hb⟩ (1 : Fin 2) * 128 + 128
      rw [e1]; omega

/-- The sum of all entries of the result array of the second call: the sum over all tiles of the tile sums. -/
theorem total1 (c : Dev nD) :
    (∑ r : Fin 32, ∑ l : Fin 128, ((dat1 (F := Ideal) V c).arrAt 4 cfg1.N) (ix2 r l) : EReal)
      = ∑ i : Fin 4, ∑ j : Fin 8, Cert.Mmd.tileOf (V c main_arg1) (V c main_arg1) (V c main_v6) (V c main_v7) i j := by
  rw [final1]
  refine Cert.Mmd.sum_of_corners (fun r l => G1 V c (ix2 r l)) (fun i => ∑ j : Fin 8, tileAt1 V c i j) (fun i => ?_) (fun r l h => if_neg h)
  unfold G1
  rw [if_pos ⟨rfl, by show 8 * i.val % 8 = 0; omega⟩]
  refine Finset.sum_congr rfl fun j _ => congrArg (fun i' => tileAt1 V c i' j) (Fin.ext ?_)
  show 8 * i.val / 8 = i.val; omega

end Cert.KernelIdeal.Hand

end
-- ==== Proof.KI.Out2.lean ====
/-
  What the body leaves in the 8 × 128 result block of the third call, read at an index over the extended reals: the
  third call runs the first call's body, so the two cases read exactly as there — the tile's sum added to zero in
  the corner over a zeroed block where the inner grid coordinate is zero, the tile's sum added to the corner found and
  the rest kept elsewhere.
-/
import proofs.«141671_j53652731461797_1_alg».proof.Proof.KI.Region2
import proofs.«141671_j53652731461797_1_alg».proof.Proof.KI.Out0
import proofs.«141671_j53652731461797_1_alg».proof.Proof.PayloadAt
import Idealize.ShloMosaic.Lib.Pipeline.Value
import Idealize.ShloMosaic.Lib.WritesUnit
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

/-- Where the inner grid coordinate is zero the body leaves the tile's sum (added to zero) in the corner and zero elsewhere. -/
theorem out2_A_apply (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : cond0 i)
    (x0 : Vec Ideal S1024x2048 .f32) (x1 : Vec Ideal S512x2048 .f32) (x2 : Vec Ideal S1024x1 .f32) (x3 : Vec Ideal S1x512 .f32)
    (a : Fin 8) (b : Fin 128) :
    out2_A (F := Ideal) c i arg2 harg2 arg3 harg3 arg4 harg4 arg5 harg5 arg6 harg6 hc0 x0 x1 x2 x3 (ix2 a b)
      = if a.val = 0 ∧ b.val = 0 then 0 + blockSum x0 x1 x2 x3 else 0 := by
  unfold out2_A kernelRun0_A
  dsimp only
  sl_unfold_words
  simp only [View.readAt_eq_ld, harg2.read_unread, harg3.read_unread, harg4.read_unread, harg5.read_unread,
    View.ld_unit_zero (S := S1024x2048) hz, View.ld_unit_zero (S := S512x2048) hz, View.ld_unit_zero (S := S1024x1) hz, View.ld_unit_zero (S := S1x512) hz]
  by_cases h : a.val = 0 ∧ b.val = 0
  · rw [if_pos h]
    refine (View.read_writes_cons_unit_of_mem _ _ inb_S8x128_S1x1_0_0 _ _ (ix2 a b) (ix2 (0 : Fin 1) (0 : Fin 1)) rfl (fun d => ?_)).trans ?_
    · match d with
      | ⟨0, _⟩ => exact h.1
      | ⟨1, _⟩ => exact h.2
    · rw [Cert.Mmd.Pay.pay2_apply, readback_zero]
      rfl
  · rw [if_neg h]
    have hrest : (VO2).view.read (Elt Ideal) ((VO2).view.writes (Elt Ideal) (VO2).view.junk
        [(⟨Rect.unit ![0, 0] ![8, 128] inb_S8x128_S8x128_0_0, k0_pay1 (F := Ideal)⟩ : View.Piece (Elt Ideal) S8x128 .f32)]) (ix2 a b) = 0 := by
      refine (View.read_writes_cons_unit_of_mem _ _ inb_S8x128_S8x128_0_0 _ _ (ix2 a b) (ix2 a b) rfl (fun d => ?_)).trans (Cert.Mmd.Pay.pay1_apply _)
      match d with
      | ⟨0, _⟩ => exact (Nat.zero_add _).symm
      | ⟨1, _⟩ => exact (Nat.zero_add _).symm
    by_cases ha : a.val = 0
    · have hb : b.val ≠ 0 := fun hb => h ⟨ha, hb⟩
      refine (View.read_writes_cons_unit_of_not_mem _ _ inb_S8x128_S1x1_0_0 _ _ (ix2 a b) rfl (1 : Fin 2) (Or.inr ?_)).trans hrest
      show 0 + 1 ≤ b.val
      omega
    · refine (View.read_writes_cons_unit_of_not_mem _ _ inb_S8x128_S1x1_0_0 _ _ (ix2 a b) rfl (0 : Fin 2) (Or.inr ?_)).trans hrest
      show 0 + 1 ≤ a.val
      omega

/-- Where the inner grid coordinate is not zero the body adds the tile's sum to the corner it found and leaves the rest. -/
theorem out2_B_apply (c : Dev nD) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S8x128 .f32) (harg6 : arg6.IsWhole) (hc0 : ¬cond0 i)
    (x0 : Vec Ideal S1024x2048 .f32) (x1 : Vec Ideal S512x2048 .f32) (x2 : Vec Ideal S1024x1 .f32) (x3 : Vec Ideal S1x512 .f32)
    (xo4 : Vec Ideal S8x128 .f32) (a : Fin 8) (b : Fin 128) :
    out2_B (F := Ideal) c i arg2 harg2 arg3 harg3 arg4 harg4 arg5 harg5 arg6 harg6 hc0 x0 x1 x2 x3 xo4 (ix2 a b)
      = if a.val = 0 ∧ b.val = 0 then xo4 (ix2 (0 : Fin 8) (0 : Fin 128)) + blockSum x0 x1 x2 x3 else xo4 (ix2 a b) := by
  unfold out2_B kernelRun0_B
  dsimp only
  sl_unfold_words
  simp only [View.readAt_eq_ld, harg2.read_unread, harg3.read_unread, harg4.read_unread, harg5.read_unread, harg6.read_unread,
    View.ld_unit_zero (S := S1024x2048) hz, View.ld_unit_zero (S := S512x2048) hz, View.ld_unit_zero (S := S1024x1) hz, View.ld_unit_zero (S := S1x512) hz]
  by_cases h : a.val = 0 ∧ b.val = 0
  · rw [if_pos h]
    refine (View.read_writes_cons_unit_of_mem _ _ inb_S8x128_S1x1_0_0 _ _ (ix2 a b) (ix2 (0 : Fin 1) (0 : Fin 1)) rfl (fun d => ?_)).trans ?_
    · match d with
      | ⟨0, _⟩ => exact h.1
      | ⟨1, _⟩ => exact h.2
    · rw [Cert.Mmd.Pay.pay2_apply]
      refine congrArg₂ (· + ·) ?_ rfl
      exact congrArg xo4 (funext fun d => Fin.ext (by
        match d with
        | ⟨0, _⟩ => rfl
        | ⟨1, _⟩ => rfl))
  · rw [if_neg h]
    have hrest : (VO2).view.read (Elt Ideal) ((VO2).view.writes (Elt Ideal) (hVO2.unread xo4) []) (ix2 a b) = xo4 (ix2 a b) :=
      congrFun (hVO2.read_unread xo4) (ix2 a b)
    by_cases ha : a.val = 0
    · have hb : b.val ≠ 0 := fun hb => h ⟨ha, hb⟩
      refine (View.read_writes_cons_unit_of_not_mem _ _ inb_S8x128_S1x1_0_0 _ _ (ix2 a b) rfl (1 : Fin 2) (Or.inr ?_)).trans hrest
      show 0 + 1 ≤ b.val
      omega
    · refine (View.read_writes_cons_unit_of_not_mem _ _ inb_S8x128_S1x1_0_0 _ _ (ix2 a b) rfl (0 : Fin 2) (Or.inr ?_)).trans hrest
      show 0 + 1 ≤ a.val
      omega

end Cert.KernelIdeal.Hand

end
-- ==== Proof.KI.Value2.lean ====
/-
  The result array of the third call, over the extended reals: the sum of all its entries is the sum over the 4 × 8
  tiles of the tiles' Gaussian sums.

  A grid point t = 8·i + j reads rows 1024·i … of the call's first operand, rows 512·j … of its second, and the matching
  pieces of the column and the row of squared norms, so the sum the body forms there is the tile sum of (i, j) over
  the arrays the call finds. Along a row of tiles the corner of the 8 × 128 result block runs through the partial
  sums 0 + T(i,0), … + T(i,j) and every other entry stays zero; after j = 7 the block is written to rows 8·i … of
  the 32 × 128 result array. So the array holds the row totals at (8·i, 0) and zero elsewhere, and its entries add
  up to the sum of all the tile sums.
-/
import proofs.«141671_j53652731461797_1_alg».proof.Proof.KI.Region2
import proofs.«141671_j53652731461797_1_alg».proof.Proof.KI.Out0
import proofs.«141671_j53652731461797_1_alg».proof.Proof.KI.Out2
import proofs.«141671_j53652731461797_1_alg».proof.Proof.CornerSum
import proofs.«141671_j53652731461797_1_alg».proof.Proof.PayloadAt
import proofs.«141671_j53652731461797_1_alg».proof.Proof.TileOf
import Idealize.ShloMosaic.Lib.Pipeline.Value
import Idealize.ShloMosaic.Lib.WritesUnit
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

/-! ## The windows' blocks at a point, read off the arrays -/

theorem hN2 : cfg2.N = 32 := N_2

/-- The row of tiles a point is in. -/
def ti2 (t : Fin cfg2.N) : Fin 4 := ⟨t.val / 8, by have h : t.val < 32 := lt_of_lt_of_eq t.isLt hN2; omega⟩
/-- The tile's place in its row. -/
def tj2 (t : Fin cfg2.N) : Fin 8 := ⟨t.val % 8, by omega⟩

/-- The printed index maps over the grid: the row windows move with t / 8, the column windows with t % 8. -/
theorem idx_facts2 : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = 0 ∧ win2_3.index t (1 : Fin 2) = t.val % 8
    ∧ win2_4.index t (0 : Fin 2) = t.val / 8 ∧ win2_4.index t (1 : Fin 2) = 0 :=
  (by decide +kernel : ∀ t : Fin grid2.N, _)

variable (V : (c : Dev nD) → (b : Ref sig .tc) → Buf (Elt Ideal) ((c : Thread nD τ).loc b))

/-- The block of x rows at a point: rows 1024·i … of the first array. -/
theorem iblk2_0_apply (c : Dev nD) (t : Fin cfg2.N) (p : Fin 1024) (k : Fin 2048) :
    iblk2 (F := Ideal) V c 0 t (ix2 p k) = V c main_arg0 (ix2 (Cert.Mmd.rowOf (ti2 t) p) k) := by
  obtain ⟨e0, e1, -⟩ := idx_facts2 t
  unfold iblk2
  rw [View.read_apply]
  show V c main_arg0 _ = V c main_arg0 _
  congr 1
  funext a
  apply Fin.ext
  match a with
  | ⟨0, _⟩ => show win2_0.index t (0 : Fin 2) * 1024 + 1 * p.val = 1024 * (t.val / 8) + p.val; rw [e0]; omega
  | ⟨1, _⟩ => show win2_0.index t (1 : Fin 2) * 2048 + 1 * k.val = k.val; rw [e1]; omega

/-- The block of y rows at a point: rows 512·j … of the same array. -/
theorem iblk2_1_apply (c : Dev nD) (t : Fin cfg2.N) (q : Fin 512) (k : Fin 2048) :
    iblk2 (F := Ideal) V c 1 t (ix2 q k) = V c main_arg1 (ix2 (Cert.Mmd.colOf (tj2 t) q) k) := by
  obtain ⟨-, -, e0, e1, -⟩ := idx_facts2 t
  unfold iblk2
  rw [View.read_apply]
  show V c main_arg1 _ = V c main_arg1 _
  congr 1
  funext a
  apply Fin.ext
  match a with
  | ⟨0, _⟩ => show win2_1.index t (0 : Fin 2) * 512 + 1 * q.val = 512 * (t.val % 8) + q.val; rw [e0]; omega
  | ⟨1, _⟩ => show win2_1.index t (1 : Fin 2) * 2048 + 1 * k.val = k.val; rw [e1]; omega

/-- The block of the column of squared norms at a point. -/
theorem iblk2_2_apply (c : Dev nD) (t : Fin cfg2.N) (p : Fin 1024) :
    iblk2 (F := Ideal) V c 2 t (ix2 p (0 : Fin 1)) = V c main_v4 (ix2 (Cert.Mmd.rowOf (ti2 t) p) (0 : Fin 1)) := by
  obtain ⟨-, -, -, -, e0, e1, -⟩ := idx_facts2 t
  unfold iblk2
  rw [View.read_apply]
  show V c main_v4 _ = V c main_v4 _
  congr 1
  funext a
  apply Fin.ext
  match a with
  | ⟨0, _⟩ => show win2_2.index t (0 : Fin 2) * 1024 + 1 * p.val = 1024 * (t.val / 8) + p.val; rw [e0]; omega
  | ⟨1, _⟩ => show win2_2.index t (1 : Fin 2) * 1 + 1 * 0 = 0; rw [e1]

/-- The block of the row of squared norms at a point. -/
theorem iblk2_3_apply (c : Dev nD) (t : Fin cfg2.N) (q : Fin 512) :
    iblk2 (F := Ideal) V c 3 t (ix2 (0 : Fin 1) q) = V c main_v7 (ix2 (0 : Fin 1) (Cert.Mmd.colOf (tj2 t) q)) := by
  obtain ⟨-, -, -, -, -, -, e0, e1, -⟩ := idx_facts2 t
  unfold iblk2
  rw [View.read_apply]
  show V c main_v7 _ = V c main_v7 _
  congr 1
  funext a
  apply Fin.ext
  match a with
  | ⟨0, _⟩ => show win2_3.index t (0 : Fin 2) * 1 + 1 * 0 = 0; rw [e0]
  | ⟨1, _⟩ => show win2_3.index t (1 : Fin 2) * 512 + 1 * q.val = 512 * (t.val % 8) + q.val; rw [e1]; omega

/-- The tile's sum over the arrays the region finds. -/
def tileAt2 (c : Dev nD) (i : Fin 4) (j : Fin 8) : EReal :=
  Cert.Mmd.tileOf (V c main_arg0) (V c main_arg1) (V c main_v4) (V c main_v7) i j

/-- The sum the body forms from its four blocks at a point is the tile's sum over the arrays. -/
theorem blockSum_at2 (c : Dev nD) (t : Fin cfg2.N) :
    blockSum (iblk2 (F := Ideal) V c 0 t) (iblk2 (F := Ideal) V c 1 t) (iblk2 (F := Ideal) V c 2 t) (iblk2 (F := Ideal) V c 3 t)
      = tileAt2 V c (ti2 t) (tj2 t) := by
  unfold blockSum tileAt2 Cert.Mmd.tileOf
  simp only [iblk2_0_apply, iblk2_1_apply, iblk2_2_apply, iblk2_3_apply]

/-! ## The accumulation along a row of tiles -/

theorem outsAt2_congr (c : Dev nD) {n n' : ℕ} (h : n = n') (hn : n < cfg2.N) (hn' : n' < cfg2.N) :
    outsAt2 (F := Ideal) V c n hn = outsAt2 (F := Ideal) V c n' hn' := by
  subst h; rfl

/-- Off the corner the result window's staging buffer holds zero after every point. -/
theorem outsAt2_off (c : Dev nD) : ∀ (n : ℕ) (hn : n < cfg2.N) (a : Fin 8) (b : Fin 128), ¬(a.val = 0 ∧ b.val = 0) →
    outsAt2 (F := Ideal) V c n hn (ix2 a b) = 0
  | 0, hn, a, b, h => by
    refine (congrFun (outsAt2_A V c ⟨0, hn⟩ rfl) (ix2 a b)).trans ?_
    rw [out2_A_apply, if_neg h]
  | n + 1, hn, a, b, h => by
    by_cases h0 : (n + 1) % 8 = 0
    · refine (congrFun (outsAt2_A V c ⟨n + 1, hn⟩ h0) (ix2 a b)).trans ?_
      rw [out2_A_apply, if_neg h]
    · refine (congrFun (outsAt2_B V c ⟨n + 1, hn⟩ h0) (ix2 a b)).trans ?_
      rw [out2_B_apply, if_neg h]
      exact outsAt2_off c n _ a b h

/-- At the first tile of a row the corner holds that tile's sum. -/
theorem outsAt2_corner_A (c : Dev nD) (t : Fin cfg2.N) (h0 : t.val % 8 = 0) :
    outsAt2 (F := Ideal) V c t.val t.isLt (ix2 (0 : Fin 8) (0 : Fin 128)) = 0 + tileAt2 V c (ti2 t) (tj2 t) := by
  rw [outsAt2_A V c t h0, out2_A_apply, if_pos ⟨rfl, rfl⟩, blockSum_at2]

/-- At a later tile of a row the corner grows by that tile's sum. -/
theorem outsAt2_corner_B (c : Dev nD) (t : Fin cfg2.N) (h0 : ¬t.val % 8 = 0) :
    outsAt2 (F := Ideal) V c t.val t.isLt (ix2 (0 : Fin 8) (0 : Fin 128))
      = outsAt2 (F := Ideal) V c (t.val - 1) (Nat.lt_of_le_of_lt (Nat.sub_le _ _) t.isLt) (ix2 (0 : Fin 8) (0 : Fin 128))
        + tileAt2 V c (ti2 t) (tj2 t) := by
  rw [outsAt2_B V c t h0, out2_B_apply, if_pos ⟨rfl, rfl⟩, blockSum_at2]

/-- After the last tile of row i the corner holds the sum of the row's eight tiles. -/
theorem row_total2 (c : Dev nD) (i : Fin 4) (hn : 8 * i.val + 7 < cfg2.N) :
    outsAt2 (F := Ideal) V c (8 * i.val + 7) hn (ix2 (0 : Fin 8) (0 : Fin 128)) = ∑ j : Fin 8, tileAt2 V c i j := by
  have hi := i.isLt
  have key := Cert.Mmd.prefix_sum (fun j : Fin 8 => tileAt2 V c i j)
    (fun j => if h : 8 * i.val + j < cfg2.N then outsAt2 (F := Ideal) V c (8 * i.val + j) h (ix2 (0 : Fin 8) (0 : Fin 128)) else 0)
    (by
      have hb : 8 * i.val + 0 < cfg2.N := by rw [hN2]; omega
      rw [dif_pos hb]
      refine (outsAt2_corner_A V c ⟨8 * i.val + 0, hb⟩ (by show (8 * i.val + 0) % 8 = 0; omega)).trans ?_
      refine congrArg₂ (fun a b => 0 + tileAt2 V c a b) (Fin.ext ?_) (Fin.ext ?_)
      · show (8 * i.val + 0) / 8 = i.val; omega
      · show (8 * i.val + 0) % 8 = 0; omega)
    (fun j hj => by
      have hb : 8 * i.val + (j + 1) < cfg2.N := by rw [hN2]; omega
      have hb' : 8 * i.val + j < cfg2.N := by rw [hN2]; omega
      rw [dif_pos hb, dif_pos hb']
      refine (outsAt2_corner_B V c ⟨8 * i.val + (j + 1), hb⟩ (by show ¬(8 * i.val + (j + 1)) % 8 = 0; omega)).trans ?_
      refine congrArg₂ (· + ·) ?_ (congrArg₂ (fun a b => tileAt2 V c a b) (Fin.ext ?_) (Fin.ext ?_))
      · exact congrFun (outsAt2_congr V c (by show 8 * i.val + (j + 1) - 1 = 8 * i.val + j; omega) _ _) _
      · show (8 * i.val + (j + 1)) / 8 = i.val; omega
      · show (8 * i.val + (j + 1)) % 8 = j + 1; omega)
  rw [dif_pos hn] at key
  exact key

/-! ## The result array -/

/-- What the result array ends holding: the row totals at the corners of its four blocks, zero elsewhere. -/
def G2 (c : Dev nD) : S32x128.Idx → EReal := fun y =>
  if (y 1).val = 0 ∧ (y 0).val % 8 = 0 then
    ∑ j : Fin 8, tileAt2 V c ⟨(y 0).val / 8, by have h : (y 0).val < 32 := (y 0).isLt; omega⟩ j
  else 0

/-- What the write-back after the last tile of a row writes is that row's block of the table. -/
theorem flushed2_eq (c : Dev nD) (t : Fin cfg2.N) (hf : (cfg2.win 4).flush t = true) :
    (dat2 (F := Ideal) V c).flushed 4 t = ((cfg2.win 4).blk t).view.read (Elt Ideal) (G2 V c) := by
  have h7 : t.val % 8 = 7 := (flush2_4 t).mp hf
  have hN : t.val < 32 := lt_of_lt_of_eq t.isLt hN2
  obtain ⟨-, -, -, -, -, -, -, -, e0, e1⟩ := idx_facts2 t
  show (cfg2.win 4).cut (grid2.coords t) ((dat2 (F := Ideal) V c).after 4 t) = _
  rw [after2_4]
  funext y
  obtain ⟨a, b, rfl⟩ : ∃ (a : Fin 8) (b : Fin 128), y = ix2 a b := ⟨y 0, y 1, eq_ix2 y⟩
  rw [View.read_apply]
  show outsAt2 (F := Ideal) V c t.val t.isLt (ix2 a b) = G2 V c (((cfg2.win 4).blk t).view.emb (ix2 a b))
  have hy0 : ((((cfg2.win 4).blk t).view.emb (ix2 a b)) (0 : Fin 2)).val = t.val / 8 * 8 + a.val := by
    show win2_4.index t (0 : Fin 2) * 8 + 1 * a.val = _
    rw [e0]; omega
  have hy1 : ((((cfg2.win 4).blk t).view.emb (ix2 a b)) (1 : Fin 2)).val = b.val := by
    show win2_4.index t (1 : Fin 2) * 128 + 1 * b.val = _
    rw [e1]; omega
  have ha := a.isLt
  unfold G2
  by_cases h : a.val = 0 ∧ b.val = 0
  · obtain ⟨ha0, hb0⟩ := h
    obtain rfl : a = 0 := Fin.ext ha0
    obtain rfl : b = 0 := Fin.ext hb0
    rw [if_pos ⟨by rw [hy1]; rfl, by rw [hy0]; show (t.val / 8 * 8 + 0) % 8 = 0; omega⟩]
    have hb : 8 * (ti2 t).val + 7 < cfg2.N := by rw [hN2]; show 8 * (t.val / 8) + 7 < 32; omega
    refine (congrFun (outsAt2_congr V c (show t.val = 8 * (ti2 t).val + 7 by show t.val = 8 * (t.val / 8) + 7; omega) t.isLt hb) _).trans ?_
    rw [row_total2]
    refine Finset.sum_congr rfl fun j _ => congrArg (fun i => tileAt2 V c i j) (Fin.ext ?_)
    show t.val / 8 = ((((cfg2.win 4).blk t).view.emb (ix2 (0 : Fin 8) (0 : Fin 128))) (0 : Fin 2)).val / 8
    rw [hy0]; show t.val / 8 = (t.val / 8 * 8 + 0) / 8; omega
  · rw [outsAt2_off V c _ _ a b h, if_neg]
    rw [hy0, hy1]
    rintro ⟨hb0, ha0⟩
    exact h ⟨by omega, hb0⟩

/-- An index of the array is in a point's block iff each coordinate is in the block's range on its axis. -/
theorem mem_blk2 (t : Fin cfg2.N) (i : S32x128.Idx) :
    i ∈ ((cfg2.win 4).blk t).view.set ↔ ∀ a : Fin 2, win2_4.index t a * S8x128.size a ≤ (i a).val ∧ (i a).val < win2_4.index t a * S8x128.size a + S8x128.size a := by
  show i ∈ ((View.whole main_v12).slice (win2_4.rect t)).set ↔ _
  rw [View.set_slice_whole, Rect.mem_set_unit]
  exact Iff.rfl

/-- The result array after the call. -/
theorem final2 (c : Dev nD) : (dat2 (F := Ideal) V c).arrAt 4 cfg2.N = G2 V c :=
  (dat2 (F := Ideal) V c).arrAt_eq_of_cover 4 (G2 V c) (flushed2_eq V c) fun i => by
    have h0 : (i 0).val < 32 := (i 0).isLt
    have h1 : (i 1).val < 128 := (i 1).isLt
    have hb : 8 * ((i 0).val / 8) + 7 < cfg2.N := by rw [hN2]; omega
    refine ⟨⟨8 * ((i 0).val / 8) + 7, hb⟩, (flush2_4 _).mpr (by show (8 * ((i 0).val / 8) + 7) % 8 = 7; omega), ?_⟩
    rw [mem_blk2]
    obtain ⟨-, -, -, -, -, -, -, -, e0, e1⟩ := idx_facts2 ⟨8 * ((i 0).val / 8) + 7, hb⟩
    intro a
    match a with
    | ⟨0, _⟩ =>
      show win2_4.index ⟨8 * ((i 0).val / 8) + 7, hb⟩ (0 : Fin 2) * 8 ≤ (i 0).val ∧ (i 0).val < win2_4.index ⟨8 * ((i 0).val / 8) + 7, hb⟩ (0 : Fin 2) * 8 + 8
      rw [e0]; show (8 * ((i 0).val / 8) + 7) / 8 * 8 ≤ (i 0).val ∧ (i 0).val < (8 * ((i 0).val / 8) + 7) / 8 * 8 + 8; omega
    | ⟨1, _⟩ =>
      show win2_4.index ⟨8 * ((i 0).val / 8) + 7, hb⟩ (1 : Fin 2) * 128 ≤ (i 1).val ∧ (i 1).val < win2_4.index ⟨8 * ((i 0).val / 8) + 7, hb⟩ (1 : Fin 2) * 128 + 128
      rw [e1]; omega

/-- The sum of all entries of the result array of the third call: the sum over all tiles of the tile sums. -/
theorem total2 (c : Dev nD) :
    (∑ r : Fin 32, ∑ l : Fin 128, ((dat2 (F := Ideal) V c).arrAt 4 cfg2.N) (ix2 r l) : EReal)
      = ∑ i : Fin 4, ∑ j : Fin 8, Cert.Mmd.tileOf (V c main_arg0) (V c main_arg1) (V c main_v4) (V c main_v7) i j := by
  rw [final2]
  refine Cert.Mmd.sum_of_corners (fun r l => G2 V c (ix2 r l)) (fun i => ∑ j : Fin 8, tileAt2 V c i j) (fun i => ?_) (fun r l h => if_neg h)
  unfold G2
  rw [if_pos ⟨rfl, by show 8 * i.val % 8 = 0; omega⟩]
  refine Finset.sum_congr rfl fun j _ => congrArg (fun i' => tileAt2 V c i' j) (Fin.ext ?_)
  show 8 * i.val / 8 = i.val; omega

end Cert.KernelIdeal.Hand

end
-- ==== Proof.KI.ValueRun.lean ====
/-
  The kernel's value: every weakly fair execution of the idealized kernel terminates with the result scalar at the
  statistic of its two inputs, the Gaussian entries added tile by tile, and the inputs unchanged.

  Each call's 32 × 128 result array adds up to the sum of that call's 4 × 8 tiles over the arrays it was entered with;
  the assembly of the three totals into the statistic is the chain of the boundaries' contents back to the launch.
-/
import proofs.«141671_j53652731461797_1_alg».proof.Proof.KI.ValueChain
import proofs.«141671_j53652731461797_1_alg».proof.Proof.KI.Value0
import proofs.«141671_j53652731461797_1_alg».proof.Proof.KI.Value1
import proofs.«141671_j53652731461797_1_alg».proof.Proof.KI.Value2

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Cert.Mmd

/-- The result scalar after the last host stretch is the statistic of the two inputs, tile by tile. -/
theorem result_eq (m : (ℓ : Loc nD τ sig) → Buf (Elt Ideal) ℓ) (c : Dev nD) :
    W7 (F := Ideal) m c main_v19
      = fun _ => Cert.Mmd.resultK (m ((c : Thread nD τ).loc main_arg0)) (m ((c : Thread nD τ).loc main_arg1)) :=
  result_of_totals m c (total0 (V1 m) c) (total1 (V3 m) c) (total2 (V5 m) c)

/-- Every weakly fair execution of the idealized kernel terminates, its result the statistic of its two inputs and the
    inputs unchanged. -/
theorem value_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v19)
        = (fun _ => Cert.Mmd.resultK (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v19 (by decide))).trans (result_eq m c),
      (h c _ (mem_uc main_arg0 (by decide))).trans (W7_main_arg0 m c),
      (h c _ (mem_uc main_arg1 (by decide))).trans (W7_main_arg1 m c)⟩) (run_all m ρ)

end Cert.KernelIdeal.Hand

end
-- ==== Proof.RefValue.lean ====
/-
  The reference program's value.

  The host program computes, for each of the three pairs (a, a), (b, b), (a, b) of its two inputs, the squared norms
  of the rows, the matrix of inner products, the squared distances ‖x_i‖² + ‖y_j‖² − 2·⟨x_i, y_j⟩, their Gaussian
  exp(−d / 2²²), the sum of all 4096² entries and its quotient by 2²⁴; then the first two means minus twice the third.
  Read stage by stage at an index, every stage of a pair is a term of the specification: a row's sum of squares is
  `rowSq`, an entry of the product with the transpose is `rowDot`, an entry of the Gaussian matrix is `gaussR`, the sum
  over the rank-2 index set is the double sum `sumR`. The three pairs are one function of two matrices evaluated three
  times, so it is read once, for a general pair, and the result is `resultR`.
-/
import proofs.«141671_j53652731461797_1_alg».proof.Defs
import proofs.«141671_j53652731461797_1_alg».proof.Proof.Gen.ReferenceIdeal.Read
import proofs.«141671_j53652731461797_1_alg».proof.Proof.Spec

noncomputable section

open scoped BigOperators

namespace Cert.Mmd.Ref

open Cert.ReferenceIdeal Cert.ReferenceIdeal.Gen Cert.ReferenceIdeal.Read
open Idealize.ShloMosaic Idealize.ShloMosaic.TcCoe Idealize.SL.Sem Idealize.ShloMosaic.ValueIdx

/-- An input array of the program, at the extended reals: a 4096 × 2048 matrix. -/
abbrev Arr : Type := (⟨S4096x2048, .f32⟩ : BufTy).Contents (Elt Ideal)

/-! ## One pair, stage by stage -/

/-- The row sums of squares of the left matrix: the sum starts from the zero word. -/
theorem rowSq_left (x : Arr) (r : Fin 4096) : val_main_v43 (F := Ideal) x (ix1 r) = rowSq x r := by
  rw [val_main_v43_apply, val_main_cst_13_apply, Ideal.ofBits_def, Ideal.ofBits_zero_f32, zero_add]
  unfold rowSq
  refine Finset.sum_congr rfl fun k _ => ?_
  rw [val_main_v42_apply]
  have e : idx_main_v43 (ix1 r) k = ix2 r k :=
    funext fun a => Fin.ext (by match a with | ⟨0, _⟩ => rfl | ⟨1, _⟩ => rfl)
  rw [e]
  rfl

/-- The row sums of squares of the right matrix. -/
theorem rowSq_right (y : Arr) (r : Fin 4096) : val_main_v45 (F := Ideal) y (ix1 r) = rowSq y r := by
  rw [val_main_v45_apply, val_main_cst_14_apply, Ideal.ofBits_def, Ideal.ofBits_zero_f32, zero_add]
  unfold rowSq
  refine Finset.sum_congr rfl fun k _ => ?_
  rw [val_main_v44_apply]
  have e : idx_main_v45 (ix1 r) k = ix2 r k :=
    funext fun a => Fin.ext (by match a with | ⟨0, _⟩ => rfl | ⟨1, _⟩ => rfl)
  rw [e]
  rfl

/-- An entry of the product with the transpose is the inner product of the two rows. -/
theorem dot_entry (x y : Arr) (i j : Fin 4096) : val_main_v47 (F := Ideal) x y (ix2 i j) = rowDot x y i j := by
  rw [val_main_v47_apply]
  unfold rowDot
  refine Finset.sum_congr rfl fun k _ => ?_
  rw [val_main_v46_apply]
  have el : lidx_main_v47 (ix2 i j) k = ix2 i k :=
    funext fun a => Fin.ext (by match a with | ⟨0, _⟩ => rfl | ⟨1, _⟩ => rfl)
  have er : idx_main_v46 (ridx_main_v47 (ix2 i j) k) = ix2 j k :=
    funext fun a => Fin.ext (by match a with | ⟨0, _⟩ => rfl | ⟨1, _⟩ => rfl)
  rw [el, er]

/-- An entry of the Gaussian matrix of the pair. -/
theorem gauss_entry (x y : Arr) (i j : Fin 4096) : val_main_v60 (F := Ideal) x y (ix2 i j) = gaussR x y i j := by
  rw [val_main_v60_apply, val_main_v59_apply, val_main_v57_apply, val_main_v56_apply, val_main_cst_16_apply,
    val_main_v55_apply, val_main_v52_apply, val_main_v50_apply, val_main_v48_apply, val_main_v51_apply,
    val_main_v49_apply, val_main_v54_apply, val_main_v53_apply, val_main_cst_15_apply, val_main_v58_apply,
    val_main_cst_17_apply]
  have e1 : idx_main_v48 (idx_main_v50 (ix2 i j)) = ix1 i :=
    funext fun a => Fin.ext (by match a with | ⟨0, _⟩ => rfl)
  have e2 : idx_main_v49 (idx_main_v51 (ix2 i j)) = ix1 j :=
    funext fun a => Fin.ext (by match a with | ⟨0, _⟩ => rfl)
  rw [e1, e2, rowSq_left, rowSq_right, dot_entry]
  simp only [Ideal.hostUnary_exp_def, Ideal.hostDivf_def, Ideal.mulf_def, Ideal.addf_def, Ideal.subf_def, Ideal.ofBits_def]
  rfl

/-- The sum of all entries of the Gaussian matrix of the pair, from the zero word: the double sum. -/
theorem sum_pair (x y : Arr) (i : S_.Idx) : val_main_v61 (F := Ideal) x y i = sumR x y := by
  rw [val_main_v61_apply, val_main_cst_18_apply, Ideal.ofBits_def, Ideal.ofBits_zero_f32, zero_add]
  unfold sumR
  refine (sum_idx2 (n0 := 4096) (n1 := 4096) _).trans ?_
  exact Finset.sum_congr rfl fun a _ => Finset.sum_congr rfl fun b _ => gauss_entry x y a b

/-- The mean of the pair: the sum divided by the literal 2²⁴. -/
theorem mean_pair (x y : Arr) (i : S_.Idx) :
    val_main_v62 (F := Ideal) x y i = Ideal.div (sumR x y) (Ideal.ofBits .f32 0x4B800000#32) := by
  rw [val_main_v62_apply, sum_pair, val_main_cst_19_apply, Ideal.hostDivf_def, Ideal.ofBits_def]

/-! ## The three pairs are one function -/

/-- The first mean is the general pair's at (a, a). -/
theorem mean_first (x : Arr) : val_main_v20 (F := Ideal) x = val_main_v62 (F := Ideal) x x := rfl

/-- The second mean is the general pair's at (b, b). -/
theorem mean_second (y : Arr) : val_main_v41 (F := Ideal) y = val_main_v62 (F := Ideal) y y := rfl

/-- The program's result is the statistic, all entries added at once. -/
theorem result_eq (x y : Arr) : val_main_v65 (F := Ideal) x y = fun _ => resultR x y := by
  funext i
  rw [val_main_v65_apply, val_main_v63_apply, val_main_v64_apply, val_main_cst_20_apply, mean_first, mean_second,
    mean_pair, mean_pair, mean_pair]
  simp only [Ideal.mulf_def, Ideal.addf_def, Ideal.subf_def, Ideal.ofBits_def]
  rfl

/-! ## The run -/

/-- Every weakly fair execution of the reference program terminates, its result the statistic of its two inputs and
    the inputs unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v65)
          = (fun _ => Cert.Mmd.resultR
              (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans ((val_main_v65_eq (F := Ideal) _ _).trans (result_eq _ _)), (h c).2⟩)
    (Cert.ReferenceIdeal.Value.run (F := Ideal) m' ρ')

/-- The reference program runs to the end, faults nowhere and leaves its inputs unchanged: the run, the result dropped. -/
theorem frame_ri [hPre_finite_inputs : Cert.Pre_finite_inputs.Facts] : Cert.frame_ReferenceIdeal := fun m ρ _ =>
  (θ_run (Cert.ReferenceIdeal.defs (F := Ideal)) _ _).mono (fun _ h c => (h c).2)
    (Cert.ReferenceIdeal.Value.run (F := Ideal) m ρ)

end Cert.Mmd.Ref

end
-- ==== Proof.Algebra.lean ====
/-
  The two spellings of the statistic agree on matrices of real numbers.

  For real entries every squared norm, inner product and squared distance is a real number (a finite sum of
  products of reals, computed inside the extended reals). On a real distance d the two Gaussian entries are
  exp(−2⁻²² · d) and exp((−1 · d) / 2²²), the same real exponent. The tile-by-tile sum is a regrouping of the
  sum over all entries: the rows split into 4 strips of 1024, the columns into 8 strips of 512, and a finite
  sum in a commutative monoid does not depend on the grouping.
-/
import proofs.«141671_j53652731461797_1_alg».proof.Proof.Spec

noncomputable section

open scoped BigOperators

namespace Cert.Mmd

open Idealize.ShloMosaic Idealize.ShloMosaic.ValueIdx

/-! ### The f32 words as real numbers -/

/-- The word 0x40000000 denotes the real 2. -/
theorem lit_two : Ideal.ofBits .f32 0x40000000#32 = ((2 : ℝ) : EReal) := by
  simp [Ideal.ofBits, Ideal.ieee]
  rw [← EReal.coe_mul]
  norm_num

/-- The word 0xBF800000 denotes the real −1. -/
theorem lit_negOne : Ideal.ofBits .f32 0xBF800000#32 = ((-1 : ℝ) : EReal) := by
  simp [Ideal.ofBits, Ideal.ieee]
  rw [← EReal.coe_mul, ← EReal.coe_one, EReal.coe_eq_coe_iff]
  norm_num

/-- The word 0x4A800000 denotes the real 2²². -/
theorem lit_pow22 : Ideal.ofBits .f32 0x4A800000#32 = ((4194304 : ℝ) : EReal) := by
  simp [Ideal.ofBits, Ideal.ieee]
  rw [← EReal.coe_mul, EReal.coe_eq_coe_iff]
  norm_num

/-- The word 0xB4800000 denotes the real −2⁻²². -/
theorem lit_negScale : Ideal.ofBits .f32 0xB4800000#32 = ((-(1 / 4194304) : ℝ) : EReal) := by
  simp [Ideal.ofBits, Ideal.ieee]
  rw [← EReal.coe_mul, EReal.coe_eq_coe_iff]
  norm_num

/-! ### Real numbers inside the extended reals -/

/-- The extended real `x` is a real number. -/
def IsR (x : EReal) : Prop := ∃ r : ℝ, x = (r : EReal)

theorem IsR.add {x y : EReal} (hx : IsR x) (hy : IsR y) : IsR (x + y) := by
  obtain ⟨r, rfl⟩ := hx
  obtain ⟨s, rfl⟩ := hy
  exact ⟨r + s, (EReal.coe_add r s).symm⟩

theorem IsR.mul {x y : EReal} (hx : IsR x) (hy : IsR y) : IsR (x * y) := by
  obtain ⟨r, rfl⟩ := hx
  obtain ⟨s, rfl⟩ := hy
  exact ⟨r * s, (EReal.coe_mul r s).symm⟩

theorem IsR.sub {x y : EReal} (hx : IsR x) (hy : IsR y) : IsR (x - y) := by
  obtain ⟨r, rfl⟩ := hx
  obtain ⟨s, rfl⟩ := hy
  exact ⟨r - s, (EReal.coe_sub r s).symm⟩

/-- A finite sum of real numbers is a real number. -/
theorem IsR.sum {ι : Type*} (s : Finset ι) (f : ι → EReal) (h : ∀ i ∈ s, IsR (f i)) :
    IsR (∑ i ∈ s, f i) := by
  classical
  revert h
  refine Finset.induction_on s (fun _ => ⟨0, by simp⟩) ?_
  intro x t hx ih h
  rw [Finset.sum_insert hx]
  exact (h x (Finset.mem_insert_self x t)).add (ih (fun i hi => h i (Finset.mem_insert_of_mem hi)))

theorem isR_rowSq {a : Mat} (ha : IsReal a) (r : Fin 4096) : IsR (rowSq a r) :=
  IsR.sum _ _ (fun _ _ => IsR.mul (ha _) (ha _))

theorem isR_rowDot {a b : Mat} (ha : IsReal a) (hb : IsReal b) (i j : Fin 4096) : IsR (rowDot a b i j) :=
  IsR.sum _ _ (fun _ _ => IsR.mul (ha _) (hb _))

/-- The squared distance of two rows of real matrices is a real number. -/
theorem isR_sqDist {a b : Mat} (ha : IsReal a) (hb : IsReal b) (i j : Fin 4096) : IsR (sqDist a b i j) :=
  IsR.sub (IsR.add (isR_rowSq ha i) (isR_rowSq hb j)) (IsR.mul ⟨2, lit_two⟩ (isR_rowDot ha hb i j))

/-! ### One entry -/

/-- On a real distance the two scalings give the same exponent: −2⁻²² · d = (−1 · d) / 2²². -/
theorem gauss_real (d : ℝ) :
    Ideal.exp (Ideal.ofBits .f32 0xB4800000#32 * (d : EReal))
      = Ideal.exp (Ideal.div (Ideal.ofBits .f32 0xBF800000#32 * (d : EReal)) (Ideal.ofBits .f32 0x4A800000#32)) := by
  have h : (4194304 : ℝ) ≠ 0 := by norm_num
  have e : (-(1 / 4194304) * d : ℝ) = -1 * d * (1 / 4194304) := by ring
  rw [lit_negScale, lit_negOne, lit_pow22, Ideal.div_coe h]
  simp only [← EReal.coe_mul]
  rw [e]

theorem gaussK_eq_gaussR {a b : Mat} (ha : IsReal a) (hb : IsReal b) (i j : Fin 4096) :
    gaussK a b i j = gaussR a b i j := by
  obtain ⟨d, hd⟩ := isR_sqDist ha hb i j
  unfold gaussK gaussR
  rw [hd]
  exact gauss_real d

/-! ### Regrouping the sum -/

/-- The 4096 rows are the 4 strips of 1024 rows. -/
theorem sum_rowOf {M : Type*} [AddCommMonoid M] (g : Fin 4096 → M) :
    ∑ i : Fin 4, ∑ p : Fin 1024, g (rowOf i p) = ∑ r : Fin 4096, g r := by
  rw [← Fintype.sum_prod_type' (fun i p => g (rowOf i p))]
  refine Fintype.sum_equiv (finProdFinEquiv : Fin 4 × Fin 1024 ≃ Fin 4096) _ _ (fun x => ?_)
  refine congrArg g (Fin.ext ?_)
  simp only [rowOf, finProdFinEquiv_apply_val]
  omega

/-- The 4096 columns are the 8 strips of 512 columns. -/
theorem sum_colOf {M : Type*} [AddCommMonoid M] (g : Fin 4096 → M) :
    ∑ j : Fin 8, ∑ q : Fin 512, g (colOf j q) = ∑ s : Fin 4096, g s := by
  rw [← Fintype.sum_prod_type' (fun j q => g (colOf j q))]
  refine Fintype.sum_equiv (finProdFinEquiv : Fin 8 × Fin 512 ≃ Fin 4096) _ _ (fun x => ?_)
  refine congrArg g (Fin.ext ?_)
  simp only [colOf, finProdFinEquiv_apply_val]
  omega

/-- Adding a 4096 × 4096 table up tile by tile (4 × 8 tiles of 1024 × 512) is adding all of it up. -/
theorem sum_tiles {M : Type*} [AddCommMonoid M] (f : Fin 4096 → Fin 4096 → M) :
    ∑ i : Fin 4, ∑ j : Fin 8, ∑ p : Fin 1024, ∑ q : Fin 512, f (rowOf i p) (colOf j q)
      = ∑ r : Fin 4096, ∑ s : Fin 4096, f r s := by
  rw [← sum_rowOf (fun r => ∑ s : Fin 4096, f r s)]
  refine Finset.sum_congr rfl (fun i _ => ?_)
  rw [Finset.sum_comm]
  refine Finset.sum_congr rfl (fun p _ => ?_)
  exact sum_colOf (fun s => f (rowOf i p) s)

theorem sumK_eq_sumR {a b : Mat} (ha : IsReal a) (hb : IsReal b) : sumK a b = sumR a b := by
  unfold sumK sumR tile
  rw [sum_tiles (fun r s => gaussK a b r s)]
  exact Finset.sum_congr rfl (fun r _ => Finset.sum_congr rfl (fun s _ => gaussK_eq_gaussR ha hb r s))

/-- On real matrices the tile-by-tile statistic with the scale −2⁻²² is the all-at-once statistic with the
    quotient by 2²². -/
theorem resultK_eq_resultR (a b : Cert.Mmd.Mat) (ha : Cert.Mmd.IsReal a) (hb : Cert.Mmd.IsReal b) :
    Cert.Mmd.resultK a b = Cert.Mmd.resultR a b := by
  unfold resultK resultR
  rw [sumK_eq_sumR ha ha, sumK_eq_sumR hb hb, sumK_eq_sumR ha hb]

end Cert.Mmd

end
-- ==== Proof.Finite.lean ====
/-
  From the finiteness predicate to real entries.

  The predicate is the conjunction of two "all entries satisfy |x| < +∞". An extended real whose absolute value
  max x (−x) lies strictly below +∞ is neither −∞ nor +∞, hence a real number.
-/
import proofs.«141671_j53652731461797_1_alg».proof.Proof.Spec
import proofs.«141671_j53652731461797_1_alg».proof.Pre_finite_inputs
import Idealize.ShloMosaic.Lib.ReduceAll

noncomputable section

namespace Cert.Mmd

open Idealize.ShloMosaic Idealize.ShloMosaic.ValueIdx

/-- The word 0x7F800000 denotes +∞. -/
theorem lit_inf : Ideal.ofBits .f32 0x7F800000#32 = (⊤ : EReal) := by
  simp [Ideal.ofBits, Ideal.ieee]

/-- An extended real with max x (−x) < +∞ is a real number. -/
theorem real_of_abs_lt_inf (x : EReal)
    (h : Ideal.cmp .olt (max x (-x)) (Ideal.ofBits .f32 0x7F800000#32) = 1#1) : ∃ r : ℝ, x = (r : EReal) := by
  rw [lit_inf] at h
  induction x using EReal.rec with
  | bot => simp [Ideal.cmp] at h
  | coe r => exact ⟨r, rfl⟩
  | top => simp [Ideal.cmp] at h

/-- The shape with no axes has one index. -/
instance : Subsingleton Cert.Pre_finite_inputs.S_.Idx := ⟨fun a b => funext fun d => d.elim0⟩

/-- Matrices on which the finiteness predicate holds have real entries. -/
theorem isReal_of_pre [Cert.Pre_finite_inputs.Facts] (a b : Cert.Mmd.Mat)
    (h : Cert.Pre_finite_inputs.fn (F := Ideal) a b = (fun _ => 1#1)) :
    Cert.Mmd.IsReal a ∧ Cert.Mmd.IsReal b := by
  have h0 := congrFun h ValueIdx.ix0
  dsimp only [Cert.Pre_finite_inputs.fn] at h0
  obtain ⟨h1, h2⟩ := IntOp.andi_eq_one.1 h0
  refine ⟨fun i => ?_, fun i => ?_⟩
  · exact real_of_abs_lt_inf (a i) (Host.reduce_andi_all _ _ _ _ _ h1 i)
  · exact real_of_abs_lt_inf (b i) (Host.reduce_andi_all _ _ _ _ _ h2 i)

end Cert.Mmd

end
-- ==== Proof.lean ====
/-
  The maximum-mean-discrepancy statistic with a Gaussian kernel: a tiled accelerator program against its array reference.

  For two 4096 × 2048 matrices the statistic is mean K(a,a) + mean K(b,b) − 2 · mean K(a,b), where K(x,y) has entries
  exp(−d / 2048²) of the squared distances d between rows, spelt ‖x_i‖² + ‖y_j‖² − 2·⟨x_i, y_j⟩. The accelerator program
  computes each of the three sums in one pass over a 4 × 8 grid of 1024 × 512 tiles: a tile's entries are summed and the
  sum is added into the corner of an 8 × 128 block that is carried through the eight tiles of a row of tiles (zeroed
  at the first) and written back after the last; the host then adds up the 32 × 128 array of the four blocks. The
  reference forms the whole 4096 × 4096 kernel matrix and sums it.

  What is proved. Each of the three programs runs to the end, faults nowhere and leaves its two inputs unchanged (the
  frames). Over the extended reals the accelerator program's result is the statistic added up tile by tile with the
  distances scaled by the literal −2⁻²² (whatever the inputs), the reference's is the statistic added up at once with
  the distances multiplied by −1 and divided by 2²². On matrices of real numbers the two scalings give the same exponent
  entry by entry, and a finite sum does not depend on how it is grouped into tiles; finiteness of the inputs is what
  makes every entry, hence every squared distance, a real number. The idealization rewrote nothing, so that conjunct
  is trivial.
-/
import proofs.«141671_j53652731461797_1_alg».proof.Defs
import proofs.«141671_j53652731461797_1_alg».proof.Proof.Gen.Kernel
import proofs.«141671_j53652731461797_1_alg».proof.Proof.Gen.KernelIdeal
import proofs.«141671_j53652731461797_1_alg».proof.Proof.Gen.ReferenceIdeal
import proofs.«141671_j53652731461797_1_alg».proof.Proof.Gen.Pre_finite_inputs
import proofs.«141671_j53652731461797_1_alg».proof.Proof.K.Run
import proofs.«141671_j53652731461797_1_alg».proof.Proof.KI.Run
import proofs.«141671_j53652731461797_1_alg».proof.Proof.KI.ValueRun
import proofs.«141671_j53652731461797_1_alg».proof.Proof.RefValue
import proofs.«141671_j53652731461797_1_alg».proof.Proof.Algebra
import proofs.«141671_j53652731461797_1_alg».proof.Proof.Finite
import Idealize.ShloMosaic.Adequacy
import Idealize.ShloMosaic.Init

noncomputable section

namespace Cert.Proof

open Idealize.ShloMosaic Idealize.SL.Sem

/-- The kernel as printed runs to the end and leaves its two inputs unchanged. -/
theorem frame_p : Cert.frame_Kernel := fun m ρ _ => Cert.Kernel.Hand.frame m ρ

/-- So does the kernel read over the extended reals. -/
theorem frame_pi : Cert.frame_KernelIdeal := fun m ρ _ => Cert.KernelIdeal.Hand.frame m ρ

/-- Over the extended reals the kernel ends at the statistic added up tile by tile with the distances scaled by
    −2⁻²², whatever its inputs, and the reference at the statistic added up at once with the distances multiplied by
    −1 and divided by 2²². The two are joined by one law: on matrices of real numbers the two scalings give the same
    real exponent entry by entry, and a finite sum does not depend on its grouping into tiles. Finiteness of the
    inputs enters here and only here: it makes every entry of both matrices a real number, hence every squared
    distance a real number, which is the case the law is proved for. The inputs of the two programs agree, so the
    reference's statistic is that of the kernel's inputs. -/
theorem algebraic : Cert.algebraic_KernelIdeal_ReferenceIdeal := by
  intro m ρ m' ρ' hpre hagree
  refine ⟨fun c => fun _ => Cert.Mmd.resultR
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)),
    ?_, Cert.Mmd.Ref.ref_run m' ρ'⟩
  refine (θ_run (Cert.KernelIdeal.defs (F := Ideal)) _ _).mono (fun _ h c => ⟨(h c).1.trans ?_, (h c).2⟩)
    (Cert.KernelIdeal.Hand.value_run m ρ)
  obtain ⟨ha, hb⟩ := Cert.Mmd.isReal_of_pre _ _ (hpre c)
  beta_reduce
  rw [(hagree c).1, (hagree c).2]
  exact funext fun _ => Cert.Mmd.resultK_eq_resultR _ _ ha hb

theorem claim : Cert.Claim :=
  ⟨Cert.Kernel.Gen.facts, Cert.KernelIdeal.Gen.facts, Cert.ReferenceIdeal.Gen.facts, Cert.Pre_finite_inputs.Gen.facts,
    frame_p, frame_pi, Cert.Mmd.Ref.frame_ri, trivial, algebraic⟩

end Cert.Proof

end
